-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2176 : Shape := ⟨2, ![8192, 2176]⟩
abbrev S1294336 : Shape := ⟨1, ![1294336]⟩
abbrev S2176 : Shape := ⟨1, ![2176]⟩
abbrev S17 : Shape := ⟨1, ![17]⟩
abbrev S1 : Shape := ⟨1, ![1]⟩
abbrev S_ : Shape := ⟨0, ![]⟩

class Facts : Prop where
  bcast_S_S8192x2176 : S_.BroadcastsInDim S8192x2176 (![] : Fin 0 → Fin S8192x2176.rank)
  reducesTo_S8192x2176_S_d0_1 : S8192x2176.ReducesTo [0, 1] S_
  h_S_ : 0 < S_.numel
  bcast_S_S1294336 : S_.BroadcastsInDim S1294336 (![] : Fin 0 → Fin S1294336.rank)
  reducesTo_S1294336_S_d0 : S1294336.ReducesTo [0] S_
  bcast_S_S2176 : S_.BroadcastsInDim S2176 (![] : Fin 0 → Fin S2176.rank)
  reducesTo_S2176_S_d0 : S2176.ReducesTo [0] S_
  bcast_S_S17 : S_.BroadcastsInDim S17 (![] : Fin 0 → Fin S17.rank)
  reducesTo_S17_S_d0 : S17.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S17 .f32) (main_arg8 : FVec F S17 .f32) (main_arg9 : FVec F S1 .f32) (main_v33 : IVec S_ 1) : IVec S_ 1 :=
  let main_v34 : FVec F S17 .f32 := Host.absf main_arg7
  let main_cst_12 : FVec F S_ .f32 := constant S_ .f32 0x7F800000#32
  let main_v35 : FVec F S17 .f32 := broadcastInDim S17 ![] bcast_S_S17 main_cst_12
  let main_v36 : IVec S17 1 := cmpf .olt main_v34 main_v35
  let main_c_13 : IVec S_ 1 := constantI S_ 1 1#1
  let main_v37 : IVec S_ 1 := (fun x v => Host.reduce IntOp.andi x v reducesTo_S17_S_d0 h_S_) main_v36 main_c_13
  let main_v38 : IVec S_ 1 := andi main_v33 main_v37
  let main_v39 : FVec F S17 .f32 := Host.absf main_arg8
  let main_cst_14 : FVec F S_ .f32 := constant S_ .f32 0x7F800000#32
  let main_v40 : FVec F S17 .f32 := broadcastInDim S17 ![] bcast_S_S17 main_cst_14
  let main_v41 : IVec S17 1 := cmpf .olt main_v39 main_v40
  let main_c_15 : IVec S_ 1 := constantI S_ 1 1#1
  let main_v42 : IVec S_ 1 := (fun x v => Host.reduce IntOp.andi x v reducesTo_S17_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S17 .f32) (main_arg5 : FVec F S1294336 .f32) (main_arg6 : FVec F S2176 .f32) (main_arg7 : FVec F S17 .f32) (main_arg8 : FVec F S17 .f32) (main_arg9 : FVec F S1 .f32) (main_v13 : IVec S_ 1) (main_v16 : IVec S17 1) : IVec S_ 1 :=
  let main_c_5 : IVec S_ 1 := constantI S_ 1 1#1
  let main_v17 : IVec S_ 1 := (fun x v => Host.reduce IntOp.andi x v reducesTo_S17_S_d0 h_S_) main_v16 main_c_5
  let main_v18 : IVec S_ 1 := andi main_v13 main_v17
  let main_v19 : FVec F S17 .f32 := Host.absf main_arg4
  let main_cst_6 : FVec F S_ .f32 := constant S_ .f32 0x7F800000#32
  let main_v20 : FVec F S17 .f32 := broadcastInDim S17 ![] bcast_S_S17 main_cst_6
  let main_v21 : IVec S17 1 := cmpf .olt main_v19 main_v20
  let main_c_7 : IVec S_ 1 := constantI S_ 1 1#1
  let main_v22 : IVec S_ 1 := (fun x v => Host.reduce IntOp.andi x v reducesTo_S17_S_d0 h_S_) main_v21 main_c_7
  let main_v23 : IVec S_ 1 := andi main_v18 main_v22
  let main_v24 : FVec F S1294336 .f32 := Host.absf main_arg5
  let main_cst_8 : FVec F S_ .f32 := constant S_ .f32 0x7F800000#32
  let main_v25 : FVec F S1294336 .f32 := broadcastInDim S1294336 ![] bcast_S_S1294336 main_cst_8
  let main_v26 : IVec S1294336 1 := cmpf .olt main_v24 main_v25
  let main_c_9 : IVec S_ 1 := constantI S_ 1 1#1
  let main_v27 : IVec S_ 1 := (fun x v => Host.reduce IntOp.andi x v reducesTo_S1294336_S_d0 h_S_) main_v26 main_c_9
  let main_v28 : IVec S_ 1 := andi main_v23 main_v27
  let main_v29 : FVec F S2176 .f32 := Host.absf main_arg6
  let main_cst_10 : FVec F S_ .f32 := constant S_ .f32 0x7F800000#32
  let main_v30 : FVec F S2176 .f32 := broadcastInDim S2176 ![] bcast_S_S2176 main_cst_10
  let main_v31 : IVec S2176 1 := cmpf .olt main_v29 main_v30
  let main_c_11 : IVec S_ 1 := constantI S_ 1 1#1
  let main_v32 : IVec S_ 1 := (fun x v => Host.reduce IntOp.andi x v reducesTo_S2176_S_d0 h_S_) main_v31 main_c_11
  let main_v33 : IVec S_ 1 := andi main_v28 main_v32
  fn_part2 (F := F) main_arg7 main_arg8 main_arg9 main_v33

def fn {F : FTy → Type} [FloatOps F] (main_arg0 : FVec F S8192x2176 .f32) (main_arg1 : FVec F S1294336 .f32) (main_arg2 : FVec F S2176 .f32) (main_arg3 : FVec F S17 .f32) (main_arg4 : FVec F S17 .f32) (main_arg5 : FVec F S1294336 .f32) (main_arg6 : FVec F S2176 .f32) (main_arg7 : FVec F S17 .f32) (main_arg8 : FVec F S17 .f32) (main_arg9 : FVec F S1 .f32) (main_arg10 : IVec S1294336 32) (main_arg11 : IVec S1294336 32) : IVec S_ 1 :=
  let main_v0 : FVec F S8192x2176 .f32 := Host.absf main_arg0
  let main_cst : FVec F S_ .f32 := constant S_ .f32 0x7F800000#32
  let main_v1 : FVec F S8192x2176 .f32 := broadcastInDim S8192x2176 ![] bcast_S_S8192x2176 main_cst
  let main_v2 : IVec S8192x2176 1 := cmpf .olt main_v0 main_v1
  let main_c : IVec S_ 1 := constantI S_ 1 1#1
  let main_v3 : IVec S_ 1 := (fun x v => Host.reduce IntOp.andi x v reducesTo_S8192x2176_S_d0_1 h_S_) main_v2 main_c
  let main_v4 : FVec F S1294336 .f32 := Host.absf main_arg1
  let main_cst_0 : FVec F S_ .f32 := constant S_ .f32 0x7F800000#32
  let main_v5 : FVec F S1294336 .f32 := broadcastInDim S1294336 ![] bcast_S_S1294336 main_cst_0
  let main_v6 : IVec S1294336 1 := cmpf .olt main_v4 main_v5
  let main_c_1 : IVec S_ 1 := constantI S_ 1 1#1
  let main_v7 : IVec S_ 1 := (fun x v => Host.reduce IntOp.andi x v reducesTo_S1294336_S_d0 h_S_) main_v6 main_c_1
  let main_v8 : IVec S_ 1 := andi main_v3 main_v7
  let main_v9 : FVec F S2176 .f32 := Host.absf main_arg2
  let main_cst_2 : FVec F S_ .f32 := constant S_ .f32 0x7F800000#32
  let main_v10 : FVec F S2176 .f32 := broadcastInDim S2176 ![] bcast_S_S2176 main_cst_2
  let main_v11 : IVec S2176 1 := cmpf .olt main_v9 main_v10
  let main_c_3 : IVec S_ 1 := constantI S_ 1 1#1
  let main_v12 : IVec S_ 1 := (fun x v => Host.reduce IntOp.andi x v reducesTo_S2176_S_d0 h_S_) main_v11 main_c_3
  let main_v13 : IVec S_ 1 := andi main_v8 main_v12
  let main_v14 : FVec F S17 .f32 := Host.absf main_arg3
  let main_cst_4 : FVec F S_ .f32 := constant S_ .f32 0x7F800000#32
  let main_v15 : FVec F S17 .f32 := broadcastInDim S17 ![] bcast_S_S17 main_cst_4
  let main_v16 : IVec S17 1 := cmpf .olt main_v14 main_v15
  fn_part1 (F := F) main_arg4 main_arg5 main_arg6 main_arg7 main_arg8 main_arg9 main_v13 main_v16
-- ==== Kernel.lean ====
abbrev S8192x2176 : Shape := ⟨2, ![8192, 2176]⟩
abbrev S1294336 : Shape := ⟨1, ![1294336]⟩
abbrev S2176 : Shape := ⟨1, ![2176]⟩
abbrev S17 : Shape := ⟨1, ![17]⟩
abbrev S1 : Shape := ⟨1, ![1]⟩
abbrev S_ : Shape := ⟨0, ![]⟩
abbrev S2176x2176 : Shape := ⟨2, ![2176, 2176]⟩
abbrev S1294336x1 : Shape := ⟨2, ![1294336, 1]⟩
abbrev S1294336x2 : Shape := ⟨2, ![1294336, 2]⟩
abbrev S1x2176 : Shape := ⟨2, ![1, 2176]⟩
abbrev S1x1 : Shape := ⟨2, ![1, 1]⟩
abbrev S512x2176 : Shape := ⟨2, ![512, 2176]⟩
abbrev S8192x17x128 : Shape := ⟨3, ![8192, 17, 128]⟩
abbrev S1x17x1 : Shape := ⟨3, ![1, 17, 1]⟩
abbrev S17x128 : Shape := ⟨2, ![17, 128]⟩

abbrev nBuf : Space → Nat
  | .hbm => 118
  | .vmem => 28
  | .smem => 0
  | _ => 0

abbrev bufTy : (tb : Table) → Fin (tcTables nBuf tb) → BufTy
  | .hbm, ⟨0, _⟩ => ⟨S8192x2176, .f32⟩
  | .hbm, ⟨1, _⟩ => ⟨S1294336, .f32⟩
  | .hbm, ⟨2, _⟩ => ⟨S2176, .f32⟩
  | .hbm, ⟨3, _⟩ => ⟨S17, .f32⟩
  | .hbm, ⟨4, _⟩ => ⟨S17, .f32⟩
  | .hbm, ⟨5, _⟩ => ⟨S1294336, .f32⟩
  | .hbm, ⟨6, _⟩ => ⟨S2176, .f32⟩
  | .hbm, ⟨7, _⟩ => ⟨S17, .f32⟩
  | .hbm, ⟨8, _⟩ => ⟨S17, .f32⟩
  | .hbm, ⟨9, _⟩ => ⟨S1, .f32⟩
  | .hbm, ⟨10, _⟩ => ⟨S1294336, .i32⟩
  | .hbm, ⟨11, _⟩ => ⟨S1294336, .i32⟩
  | .hbm, ⟨12, _⟩ => ⟨S_, .f32⟩
  | .hbm, ⟨13, _⟩ => ⟨S2176x2176, .f32⟩
  | .hbm, ⟨14, _⟩ => ⟨S_, .i32⟩
  | .hbm, ⟨15, _⟩ => ⟨S1294336, .i32⟩
  | .hbm, ⟨16, _⟩ => ⟨S1294336, .i1⟩
  | .hbm, ⟨17, _⟩ => ⟨S_, .i32⟩
  | .hbm, ⟨18, _⟩ => ⟨S1294336, .i32⟩
  | .hbm, ⟨19, _⟩ => ⟨S1294336, .i32⟩
  | .hbm, ⟨20, _⟩ => ⟨S1294336, .i32⟩
  | .hbm, ⟨21, _⟩ => ⟨S_, .i32⟩
  | .hbm, ⟨22, _⟩ => ⟨S1294336, .i32⟩
  | .hbm, ⟨23, _⟩ => ⟨S1294336, .i1⟩
  | .hbm, ⟨24, _⟩ => ⟨S_, .i32⟩
  | .hbm, ⟨25, _⟩ => ⟨S1294336, .i32⟩
  | .hbm, ⟨26, _⟩ => ⟨S1294336, .i32⟩
  | .hbm, ⟨27, _⟩ => ⟨S1294336, .i32⟩
  | .hbm, ⟨28, _⟩ => ⟨S1294336x1, .i32⟩
  | .hbm, ⟨29, _⟩ => ⟨S1294336x1, .i32⟩
  | .hbm, ⟨30, _⟩ => ⟨S1294336x2, .i32⟩
  | .hbm, ⟨31, _⟩ => ⟨S2176x2176, .f32⟩
  | .hbm, ⟨32, _⟩ => ⟨S2176x2176, .bf16⟩
  | .hbm, ⟨33, _⟩ => ⟨S_, .f32⟩
  | .hbm, ⟨34, _⟩ => ⟨S2176x2176, .f32⟩
  | .hbm, ⟨35, _⟩ => ⟨S_, .i32⟩
  | .hbm, ⟨36, _⟩ => ⟨S1294336, .i32⟩
  | .hbm, ⟨37, _⟩ => ⟨S1294336, .i1⟩
  | .hbm, ⟨38, _⟩ => ⟨S_, .i32⟩
  | .hbm, ⟨39, _⟩ => ⟨S1294336, .i32⟩
  | .hbm, ⟨40, _⟩ => ⟨S1294336, .i32⟩
  | .hbm, ⟨41, _⟩ => ⟨S1294336, .i32⟩
  | .hbm, ⟨42, _⟩ => ⟨S_, .i32⟩
  | .hbm, ⟨43, _⟩ => ⟨S1294336, .i32⟩
  | .hbm, ⟨44, _⟩ => ⟨S1294336, .i1⟩
  | .hbm, ⟨45, _⟩ => ⟨S_, .i32⟩
  | .hbm, ⟨46, _⟩ => ⟨S1294336, .i32⟩
  | .hbm, ⟨47, _⟩ => ⟨S1294336, .i32⟩
  | .hbm, ⟨48, _⟩ => ⟨S1294336, .i32⟩
  | .hbm, ⟨49, _⟩ => ⟨S1294336x1, .i32⟩
  | .hbm, ⟨50, _⟩ => ⟨S1294336x1, .i32⟩
  | .hbm, ⟨51, _⟩ => ⟨S1294336x2, .i32⟩
  | .hbm, ⟨52, _⟩ => ⟨S2176x2176, .f32⟩
  | .hbm, ⟨53, _⟩ => ⟨S2176x2176, .bf16⟩
  | .hbm, ⟨54, _⟩ => ⟨S1x2176, .f32⟩
  | .hbm, ⟨55, _⟩ => ⟨S1x2176, .f32⟩
  | .hbm, ⟨56, _⟩ => ⟨S1x1, .f32⟩
  | .hbm, ⟨57, _⟩ => ⟨S1x2176, .f32⟩
  | .hbm, ⟨58, _⟩ => ⟨S8192x2176, .f32⟩
  | .hbm, ⟨59, _⟩ => ⟨S8192x17x128, .f32⟩
  | .hbm, ⟨60, _⟩ => ⟨S_, .f32⟩
  | .hbm, ⟨61, _⟩ => ⟨S17, .f32⟩
  | .hbm, ⟨62, _⟩ => ⟨S_, .f32⟩
  | .hbm, ⟨63, _⟩ => ⟨S17, .f32⟩
  | .hbm, ⟨64, _⟩ => ⟨S17, .f32⟩
  | .hbm, ⟨65, _⟩ => ⟨S1x17x1, .f32⟩
  | .hbm, ⟨66, _⟩ => ⟨S8192x17x128, .f32⟩
  | .hbm, ⟨67, _⟩ => ⟨S8192x17x128, .f32⟩
  | .hbm, ⟨68, _⟩ => ⟨S8192x17x128, .f32⟩
  | .hbm, ⟨69, _⟩ => ⟨S_, .f32⟩
  | .hbm, ⟨70, _⟩ => ⟨S17, .f32⟩
  | .hbm, ⟨71, _⟩ => ⟨S_, .f32⟩
  | .hbm, ⟨72, _⟩ => ⟨S17, .f32⟩
  | .hbm, ⟨73, _⟩ => ⟨S17, .f32⟩
  | .hbm, ⟨74, _⟩ => ⟨S_, .f32⟩
  | .hbm, ⟨75, _⟩ => ⟨S17, .f32⟩
  | .hbm, ⟨76, _⟩ => ⟨S17, .f32⟩
  | .hbm, ⟨77, _⟩ => ⟨S17, .f32⟩
  | .hbm, ⟨78, _⟩ => ⟨S17, .f32⟩
  | .hbm, ⟨79, _⟩ => ⟨S17, .f32⟩
  | .hbm, ⟨80, _⟩ => ⟨S17, .f32⟩
  | .hbm, ⟨81, _⟩ => ⟨S17x128, .f32⟩
  | .hbm, ⟨82, _⟩ => ⟨S2176, .f32⟩
  | .hbm, ⟨83, _⟩ => ⟨S1x2176, .f32⟩
  | .hbm, ⟨84, _⟩ => ⟨S17x128, .f32⟩
  | .hbm, ⟨85, _⟩ => ⟨S2176, .f32⟩
  | .hbm, ⟨86, _⟩ => ⟨S1x2176, .f32⟩
  | .hbm, ⟨87, _⟩ => ⟨S8192x2176, .f32⟩
  | .hbm, ⟨88, _⟩ => ⟨S8192x2176, .f32⟩
  | .hbm, ⟨89, _⟩ => ⟨S8192x17x128, .f32⟩
  | .hbm, ⟨90, _⟩ => ⟨S_, .f32⟩
  | .hbm, ⟨91, _⟩ => ⟨S17, .f32⟩
  | .hbm, ⟨92, _⟩ => ⟨S_, .f32⟩
  | .hbm, ⟨93, _⟩ => ⟨S17, .f32⟩
  | .hbm, ⟨94, _⟩ => ⟨S17, .f32⟩
  | .hbm, ⟨95, _⟩ => ⟨S1x17x1, .f32⟩
  | .hbm, ⟨96, _⟩ => ⟨S8192x17x128, .f32⟩
  | .hbm, ⟨97, _⟩ => ⟨S8192x17x128, .f32⟩
  | .hbm, ⟨98, _⟩ => ⟨S8192x17x128, .f32⟩
  | .hbm, ⟨99, _⟩ => ⟨S_, .f32⟩
  | .hbm, ⟨100, _⟩ => ⟨S17, .f32⟩
  | .hbm, ⟨101, _⟩ => ⟨S_, .f32⟩
  | .hbm, ⟨102, _⟩ => ⟨S17, .f32⟩
  | .hbm, ⟨103, _⟩ => ⟨S17, .f32⟩
  | .hbm, ⟨104, _⟩ => ⟨S_, .f32⟩
  | .hbm, ⟨105, _⟩ => ⟨S17, .f32⟩
  | .hbm, ⟨106, _⟩ => ⟨S17, .f32⟩
  | .hbm, ⟨107, _⟩ => ⟨S17, .f32⟩
  | .hbm, ⟨108, _⟩ => ⟨S17, .f32⟩
  | .hbm, ⟨109, _⟩ => ⟨S17, .f32⟩
  | .hbm, ⟨110, _⟩ => ⟨S17, .f32⟩
  | .hbm, ⟨111, _⟩ => ⟨S17x128, .f32⟩
  | .hbm, ⟨112, _⟩ => ⟨S2176, .f32⟩
  | .hbm, ⟨113, _⟩ => ⟨S1x2176, .f32⟩
  | .hbm, ⟨114, _⟩ => ⟨S17x128, .f32⟩
  | .hbm, ⟨115, _⟩ => ⟨S2176, .f32⟩
  | .hbm, ⟨116, _⟩ => ⟨S1x2176, .f32⟩
  | .hbm, ⟨117, _⟩ => ⟨S8192x2176, .f32⟩
  | .local _ .vmem, ⟨0, _⟩ => ⟨S512x2176, .f32⟩
  | .local _ .vmem, ⟨1, _⟩ => ⟨S512x2176, .f32⟩
  | .local _ .vmem, ⟨2, _⟩ => ⟨S2176x2176, .bf16⟩
  | .local _ .vmem, ⟨3, _⟩ => ⟨S1x2176, .f32⟩
  | .local _ .vmem, ⟨4, _⟩ => ⟨S512x2176, .f32⟩
  | .local _ .vmem, ⟨5, _⟩ => ⟨S512x2176, .f32⟩
  | .local _ .vmem, ⟨6, _⟩ => ⟨S512x2176, .f32⟩
  | .local _ .vmem, ⟨7, _⟩ => ⟨S512x2176, .f32⟩
  | .local _ .vmem, ⟨8, _⟩ => ⟨S1x2176, .f32⟩
  | .local _ .vmem, ⟨9, _⟩ => ⟨S1x2176, .f32⟩
  | .local _ .vmem, ⟨10, _⟩ => ⟨S1x2176, .f32⟩
  | .local _ .vmem, ⟨11, _⟩ => ⟨S512x2176, .f32⟩
  | .local _ .vmem, ⟨12, _⟩ => ⟨S512x2176, .f32⟩
  | .local _ .vmem, ⟨13, _⟩ => ⟨S512x2176, .f32⟩
  | .local _ .vmem, ⟨14, _⟩ => ⟨S512x2176, .f32⟩
  | .local _ .vmem, ⟨15, _⟩ => ⟨S2176x2176, .bf16⟩
  | .local _ .vmem, ⟨16, _⟩ => ⟨S1x2176, .f32⟩
  | .local _ .vmem, ⟨17, _⟩ => ⟨S512x2176, .f32⟩
  | .local _ .vmem, ⟨18, _⟩ => ⟨S512x2176, .f32⟩
  | .local _ .vmem, ⟨19, _⟩ => ⟨S512x2176, .f32⟩
  | .local _ .vmem, ⟨20, _⟩ => ⟨S512x2176, .f32⟩
  | .local _ .vmem, ⟨21, _⟩ => ⟨S1x2176, .f32⟩
  | .local _ .vmem, ⟨22, _⟩ => ⟨S1x2176, .f32⟩
  | .local _ .vmem, ⟨23, _⟩ => ⟨S1x2176, .f32⟩
  | .local _ .vmem, ⟨24, _⟩ => ⟨S512x2176, .f32⟩
  | .local _ .vmem, ⟨25, _⟩ => ⟨S512x2176, .f32⟩
  | .local _ .vmem, ⟨26, _⟩ => ⟨S512x2176, .f32⟩
  | .local _ .vmem, ⟨27, _⟩ => ⟨S512x2176, .f32⟩
  | _, _ => ⟨S8192x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_c_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_cst_11 : Ref sig .tc := ⟨.hbm, 71, rfl⟩
abbrev main_v46 : Ref sig .tc := ⟨.hbm, 72, rfl⟩
abbrev main_v47 : Ref sig .tc := ⟨.hbm, 73, rfl⟩
abbrev main_cst_12 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_cst_14 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_15 : Ref sig .tc := ⟨.hbm, 99, rfl⟩
abbrev main_v70 : Ref sig .tc := ⟨.hbm, 100, rfl⟩
abbrev main_cst_16 : Ref sig .tc := ⟨.hbm, 101, rfl⟩
abbrev main_v71 : Ref sig .tc := ⟨.hbm, 102, rfl⟩
abbrev main_v72 : Ref sig .tc := ⟨.hbm, 103, rfl⟩
abbrev main_cst_17 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc3_stg5_0 : Ref sig .tc := ⟨.vmem, 26, rfl⟩
abbrev cc3_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem4_1 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2176 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2176 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2176 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2176 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2176 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2176 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2176x2176 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2176 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2176 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2176 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2176 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2176 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2176 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x2176 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x2176 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S2176x2176 : S_.BroadcastsInDim S2176x2176 (![] : Fin 0 → Fin S2176x2176.rank)
  bcast_S_S1294336 : S_.BroadcastsInDim S1294336 (![] : Fin 0 → Fin S1294336.rank)
  bcast_S1294336_S1294336x1_0 : S1294336.BroadcastsInDim S1294336x1 (![0] : Fin 1 → Fin S1294336x1.rank)
  concatenates_S1294336x1_S1294336x1_S1294336x2_d1 : Shape.Concatenates [S1294336x1, S1294336x1] S1294336x2 1
  bitsLt_bf16_f32 : FTy.bits .bf16 < FTy.bits .f32
  shapeCasts_S2176_S1x2176 : S2176.ShapeCasts S1x2176
  shapeCasts_S1_S1x1 : S1.ShapeCasts S1x1
  bcast_S1x1_S1x2176_0_1 : S1x1.BroadcastsInDim S1x2176 (![0, 1] : Fin 2 → Fin S1x2176.rank)
  inb_S512x2176_S512x2176_0_0 : ∀ a, (![0, 0] : Fin 2 → Nat) a + S512x2176.size a ≤ S512x2176.size a
  h_S512x2176 : 0 < S512x2176.numel
  inb_S2176x2176_S2176x2176_0_0 : ∀ a, (![0, 0] : Fin 2 → Nat) a + S2176x2176.size a ≤ S2176x2176.size a
  h_S2176x2176 : 0 < S2176x2176.numel
  shapeCasts_S2176x2176_S2176x2176 : S2176x2176.ShapeCasts S2176x2176
  inb_S1x2176_S1x2176_0_0 : ∀ a, (![0, 0] : Fin 2 → Nat) a + S1x2176.size a ≤ S1x2176.size a
  h_S1x2176 : 0 < S1x2176.numel
  shapeCasts_S1x2176_S1x2176 : S1x2176.ShapeCasts S1x2176
  broadcasts_S1x2176_S512x2176 : S1x2176.Broadcasts S512x2176
  shapeCasts_S8192x2176_S8192x17x128 : S8192x2176.ShapeCasts S8192x17x128
  reducesTo_S8192x17x128_S17_d0_2 : S8192x17x128.ReducesTo [0, 2] S17
  h_S_ : 0 < S_.numel
  bcast_S_S17 : S_.BroadcastsInDim S17 (![] : Fin 0 → Fin S17.rank)
  bcast_S17_S1x17x1_1 : S17.BroadcastsInDim S1x17x1 (![1] : Fin 1 → Fin S1x17x1.rank)
  bcast_S1x17x1_S8192x17x128_0_1_2 : S1x17x1.BroadcastsInDim S8192x17x128 (![0, 1, 2] : Fin 3 → Fin S8192x17x128.rank)
  bcast_S17_S17x128_0 : S17.BroadcastsInDim S17x128 (![0] : Fin 1 → Fin S17x128.rank)
  shapeCasts_S17x128_S2176 : S17x128.ShapeCasts S2176
  shapeCasts_S512x2176_S512x2176 : S512x2176.ShapeCasts S512x2176
  scatter_S2176x2176_S1294336x2_S1294336_n_01_01_1_wf : ScatterDims.WF S2176x2176 S1294336x2 S1294336 [] [0, 1] [0, 1] 1
  dot_S512x2176_S2176x2176_S512x2176_1_0_0_1_n_n_wf : DotDims.WF S512x2176 S2176x2176 S512x2176 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2176.size a ≤ S8192x2176.size a
  hwx0_0 : ∀ i : grid0.Coords, EltTy.bits .f32 = 32 ∨ (Rect.block (s := S8192x2176) S512x2176.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2176x2176.size a ≤ S2176x2176.size a
  hwx0_1 : ∀ i : grid0.Coords, EltTy.bits .bf16 = 32 ∨ (Rect.block (s := S2176x2176) S2176x2176.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2176.size a ≤ S1x2176.size a
  hwx0_2 : ∀ i : grid0.Coords, EltTy.bits .f32 = 32 ∨ (Rect.block (s := S1x2176) S1x2176.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2176.size a ≤ S8192x2176.size a
  hwx0_3 : ∀ i : grid0.Coords, EltTy.bits .f32 = 32 ∨ (Rect.block (s := S8192x2176) S512x2176.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2176.size a ≤ S8192x2176.size a
  hwx1_0 : ∀ i : grid1.Coords, EltTy.bits .f32 = 32 ∨ (Rect.block (s := S8192x2176) S512x2176.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2176.size a ≤ S1x2176.size a
  hwx1_1 : ∀ i : grid1.Coords, EltTy.bits .f32 = 32 ∨ (Rect.block (s := S1x2176) S1x2176.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2176.size a ≤ S1x2176.size a
  hwx1_2 : ∀ i : grid1.Coords, EltTy.bits .f32 = 32 ∨ (Rect.block (s := S1x2176) S1x2176.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2176.size a ≤ S1x2176.size a
  hwx1_3 : ∀ i : grid1.Coords, EltTy.bits .f32 = 32 ∨ (Rect.block (s := S1x2176) S1x2176.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x2176.size a ≤ S8192x2176.size a
  hwx1_4 : ∀ i : grid1.Coords, EltTy.bits .f32 = 32 ∨ (Rect.block (s := S8192x2176) S512x2176.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2176.size a ≤ S8192x2176.size a
  hwx2_0 : ∀ i : grid2.Coords, EltTy.bits .f32 = 32 ∨ (Rect.block (s := S8192x2176) S512x2176.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2176x2176.size a ≤ S2176x2176.size a
  hwx2_1 : ∀ i : grid2.Coords, EltTy.bits .bf16 = 32 ∨ (Rect.block (s := S2176x2176) S2176x2176.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2176.size a ≤ S1x2176.size a
  hwx2_2 : ∀ i : grid2.Coords, EltTy.bits .f32 = 32 ∨ (Rect.block (s := S1x2176) S1x2176.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2176.size a ≤ S8192x2176.size a
  hwx2_3 : ∀ i : grid2.Coords, EltTy.bits .f32 = 32 ∨ (Rect.block (s := S8192x2176) S512x2176.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2176.size a ≤ S8192x2176.size a
  hwx3_0 : ∀ i : grid3.Coords, EltTy.bits .f32 = 32 ∨ (Rect.block (s := S8192x2176) S512x2176.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2176.size a ≤ S1x2176.size a
  hwx3_1 : ∀ i : grid3.Coords, EltTy.bits .f32 = 32 ∨ (Rect.block (s := S1x2176) S1x2176.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2176.size a ≤ S1x2176.size a
  hwx3_2 : ∀ i : grid3.Coords, EltTy.bits .f32 = 32 ∨ (Rect.block (s := S1x2176) S1x2176.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2176.size a ≤ S1x2176.size a
  hwx3_3 : ∀ i : grid3.Coords, EltTy.bits .f32 = 32 ∨ (Rect.block (s := S1x2176) S1x2176.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x2176.size a ≤ S8192x2176.size a
  hwx3_4 : ∀ i : grid3.Coords, EltTy.bits .f32 = 32 ∨ (Rect.block (s := S8192x2176) S512x2176.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x2176.size a ≤ S8192x2176.size a
  hwx3_5 : ∀ i : grid3.Coords, EltTy.bits .f32 = 32 ∨ (Rect.block (s := S8192x2176) S512x2176.size (cc3_transform_5 i) (hinb3_5 i)).WholeWords (EltTy.packing .f32)

variable [Facts₀]

def scatter_S2176x2176_S1294336x2_S1294336_n_01_01_1 : ScatterDims S2176x2176 S1294336x2 S1294336 where
  updateWindowDims := []
  insertedWindowDims := [0, 1]
  scatterDimsToOperandDims := [0, 1]
  indexVectorDim := 1
  wf := scatter_S2176x2176_S1294336x2_S1294336_n_01_01_1_wf
def dot_S512x2176_S2176x2176_S512x2176_1_0_0_1_n_n : DotDims S512x2176 S2176x2176 S512x2176 where
  lhsContracting := [1]
  rhsContracting := [0]
  lhsNonContracting := [0]
  rhsNonContracting := [1]
  lhsBatch := []
  rhsBatch := []
  wf := dot_S512x2176_S2176x2176_S512x2176_1_0_0_1_n_n_wf

abbrev win0_0 : Pipeline.Window sig grid0 :=
  Pipeline.Window.ofSpec (Memref.whole main_arg0) S512x2176.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2176x2176.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x2176.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S512x2176.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S512x2176.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1x2176.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x2176.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x2176.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S512x2176.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v60) S512x2176.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2176x2176.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x2176.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S512x2176.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v61) S512x2176.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S1x2176.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S1x2176.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1x2176.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg0) S512x2176.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v85) S512x2176.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S8192x2176 : Shape := ⟨2, ![8192, 2176]⟩
abbrev S1294336 : Shape := ⟨1, ![1294336]⟩
abbrev S2176 : Shape := ⟨1, ![2176]⟩
abbrev S17 : Shape := ⟨1, ![17]⟩
abbrev S1 : Shape := ⟨1, ![1]⟩
abbrev S_ : Shape := ⟨0, ![]⟩
abbrev S2176x2176 : Shape := ⟨2, ![2176, 2176]⟩
abbrev S1294336x1 : Shape := ⟨2, ![1294336, 1]⟩
abbrev S1294336x2 : Shape := ⟨2, ![1294336, 2]⟩
abbrev S1x2176 : Shape := ⟨2, ![1, 2176]⟩
abbrev S8192x17x128 : Shape := ⟨3, ![8192, 17, 128]⟩
abbrev S1x17x1 : Shape := ⟨3, ![1, 17, 1]⟩
abbrev S17x1 : Shape := ⟨2, ![17, 1]⟩

abbrev nBuf : Space → Nat
  | .hbm => 143
  | .vmem => 0
  | .smem => 0
  | _ => 0

abbrev hbmTy0_0 (i : Nat) : BufTy := match i % 128 with
  | 0 => ⟨S8192x2176, .f32⟩
  | 1 => ⟨S1294336, .f32⟩
  | 2 => ⟨S2176, .f32⟩
  | 3 => ⟨S17, .f32⟩
  | 4 => ⟨S17, .f32⟩
  | 5 => ⟨S1294336, .f32⟩
  | 6 => ⟨S2176, .f32⟩
  | 7 => ⟨S17, .f32⟩
  | 8 => ⟨S17, .f32⟩
  | 9 => ⟨S1, .f32⟩
  | 10 => ⟨S1294336, .i32⟩
  | 11 => ⟨S1294336, .i32⟩
  | 12 => ⟨S_, .f32⟩
  | 13 => ⟨S2176x2176, .f32⟩
  | 14 => ⟨S_, .i32⟩
  | 15 => ⟨S1294336, .i32⟩
  | 16 => ⟨S1294336, .i1⟩
  | 17 => ⟨S_, .i32⟩
  | 18 => ⟨S1294336, .i32⟩
  | 19 => ⟨S1294336, .i32⟩
  | 20 => ⟨S1294336, .i32⟩
  | 21 => ⟨S_, .i32⟩
  | 22 => ⟨S1294336, .i32⟩
  | 23 => ⟨S1294336, .i1⟩
  | 24 => ⟨S_, .i32⟩
  | 25 => ⟨S1294336, .i32⟩
  | 26 => ⟨S1294336, .i32⟩
  | 27 => ⟨S1294336, .i32⟩
  | 28 => ⟨S1294336x1, .i32⟩
  | 29 => ⟨S1294336x1, .i32⟩
  | 30 => ⟨S1294336x2, .i32⟩
  | 31 => ⟨S2176x2176, .f32⟩
  | 32 => ⟨S2176x2176, .f32⟩
  | 33 => ⟨S8192x2176, .f32⟩
  | 34 => ⟨S1x2176, .f32⟩
  | 35 => ⟨S8192x2176, .f32⟩
  | 36 => ⟨S8192x2176, .f32⟩
  | 37 => ⟨S8192x17x128, .f32⟩
  | 38 => ⟨S_, .f32⟩
  | 39 => ⟨S17, .f32⟩
  | 40 => ⟨S1x17x1, .f32⟩
  | 41 => ⟨S_, .f32⟩
  | 42 => ⟨S1x17x1, .f32⟩
  | 43 => ⟨S1x17x1, .f32⟩
  | 44 => ⟨S8192x17x128, .f32⟩
  | 45 => ⟨S8192x17x128, .f32⟩
  | 46 => ⟨S8192x17x128, .f32⟩
  | 47 => ⟨S_, .f32⟩
  | 48 => ⟨S17, .f32⟩
  | 49 => ⟨S1x17x1, .f32⟩
  | 50 => ⟨S_, .f32⟩
  | 51 => ⟨S1x17x1, .f32⟩
  | 52 => ⟨S1x17x1, .f32⟩
  | 53 => ⟨S8192x17x128, .f32⟩
  | 54 => ⟨S8192x17x128, .f32⟩
  | 55 => ⟨S_, .f32⟩
  | 56 => ⟨S1x17x1, .f32⟩
  | 57 => ⟨S1x17x1, .f32⟩
  | 58 => ⟨S1x17x1, .f32⟩
  | 59 => ⟨S8192x17x128, .f32⟩
  | 60 => ⟨S8192x17x128, .f32⟩
  | 61 => ⟨S17x1, .f32⟩
  | 62 => ⟨S1x17x1, .f32⟩
  | 63 => ⟨S8192x17x128, .f32⟩
  | 64 => ⟨S8192x17x128, .f32⟩
  | 65 => ⟨S17x1, .f32⟩
  | 66 => ⟨S1x17x1, .f32⟩
  | 67 => ⟨S8192x17x128, .f32⟩
  | 68 => ⟨S8192x17x128, .f32⟩
  | 69 => ⟨S8192x2176, .f32⟩
  | 70 => ⟨S_, .f32⟩
  | 71 => ⟨S8192x2176, .f32⟩
  | 72 => ⟨S8192x2176, .i1⟩
  | 73 => ⟨S_, .f32⟩
  | 74 => ⟨S8192x2176, .f32⟩
  | 75 => ⟨S8192x2176, .f32⟩
  | 76 => ⟨S8192x2176, .f32⟩
  | 77 => ⟨S_, .f32⟩
  | 78 => ⟨S2176x2176, .f32⟩
  | 79 => ⟨S_, .i32⟩
  | 80 => ⟨S1294336, .i32⟩
  | 81 => ⟨S1294336, .i1⟩
  | 82 => ⟨S_, .i32⟩
  | 83 => ⟨S1294336, .i32⟩
  | 84 => ⟨S1294336, .i32⟩
  | 85 => ⟨S1294336, .i32⟩
  | 86 => ⟨S_, .i32⟩
  | 87 => ⟨S1294336, .i32⟩
  | 88 => ⟨S1294336, .i1⟩
  | 89 => ⟨S_, .i32⟩
  | 90 => ⟨S1294336, .i32⟩
  | 91 => ⟨S1294336, .i32⟩
  | 92 => ⟨S1294336, .i32⟩
  | 93 => ⟨S1294336x1, .i32⟩
  | 94 => ⟨S1294336x1, .i32⟩
  | 95 => ⟨S1294336x2, .i32⟩
  | 96 => ⟨S2176x2176, .f32⟩
  | 97 => ⟨S2176x2176, .f32⟩
  | 98 => ⟨S8192x2176, .f32⟩
  | 99 => ⟨S1x2176, .f32⟩
  | 100 => ⟨S8192x2176, .f32⟩
  | 101 => ⟨S8192x2176, .f32⟩
  | 102 => ⟨S8192x17x128, .f32⟩
  | 103 => ⟨S_, .f32⟩
  | 104 => ⟨S17, .f32⟩
  | 105 => ⟨S1x17x1, .f32⟩
  | 106 => ⟨S_, .f32⟩
  | 107 => ⟨S1x17x1, .f32⟩
  | 108 => ⟨S1x17x1, .f32⟩
  | 109 => ⟨S8192x17x128, .f32⟩
  | 110 => ⟨S8192x17x128, .f32⟩
  | 111 => ⟨S8192x17x128, .f32⟩
  | 112 => ⟨S_, .f32⟩
  | 113 => ⟨S17, .f32⟩
  | 114 => ⟨S1x17x1, .f32⟩
  | 115 => ⟨S_, .f32⟩
  | 116 => ⟨S1x17x1, .f32⟩
  | 117 => ⟨S1x17x1, .f32⟩
  | 118 => ⟨S8192x17x128, .f32⟩
  | 119 => ⟨S8192x17x128, .f32⟩
  | 120 => ⟨S_, .f32⟩
  | 121 => ⟨S1x17x1, .f32⟩
  | 122 => ⟨S1x17x1, .f32⟩
  | 123 => ⟨S1x17x1, .f32⟩
  | 124 => ⟨S8192x17x128, .f32⟩
  | 125 => ⟨S8192x17x128, .f32⟩
  | 126 => ⟨S17x1, .f32⟩
  | 127 => ⟨S1x17x1, .f32⟩
  | _ => ⟨S8192x2176, .f32⟩

abbrev hbmTy0_1 (i : Nat) : BufTy := match i % 128 with
  | 0 => ⟨S8192x17x128, .f32⟩
  | 1 => ⟨S8192x17x128, .f32⟩
  | 2 => ⟨S17x1, .f32⟩
  | 3 => ⟨S1x17x1, .f32⟩
  | 4 => ⟨S8192x17x128, .f32⟩
  | 5 => ⟨S8192x17x128, .f32⟩
  | 6 => ⟨S8192x2176, .f32⟩
  | 7 => ⟨S_, .f32⟩
  | 8 => ⟨S8192x2176, .f32⟩
  | 9 => ⟨S8192x2176, .i1⟩
  | 10 => ⟨S_, .f32⟩
  | 11 => ⟨S8192x2176, .f32⟩
  | 12 => ⟨S8192x2176, .f32⟩
  | 13 => ⟨S8192x2176, .f32⟩
  | 14 => ⟨S8192x2176, .f32⟩
  | _ => ⟨S8192x2176, .f32⟩

abbrev hbmTy (i : Nat) : BufTy := match i / 128 with
  | 0 => hbmTy0_0 i
  | 1 => hbmTy0_1 i
  | _ => ⟨S8192x2176, .f32⟩

abbrev bufTy : (tb : Table) → Fin (tcTables nBuf tb) → BufTy
  | .hbm, ⟨i, _⟩ => hbmTy i
  | _, _ => ⟨S8192x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_c_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_16 : Ref sig .tc := ⟨.hbm, 112, rfl⟩
abbrev main_v82 : Ref sig .tc := ⟨.hbm, 113, rfl⟩
abbrev main_v83 : Ref sig .tc := ⟨.hbm, 114, rfl⟩
abbrev main_cst_17 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_18 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_19 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩

abbrev nD : Nat := 1
abbrev τ : Topo := Topo.v7x

variable {F : FTy → Type} [FloatOps F]

class Facts₀ : Prop where
  bcast_S_S2176x2176 : S_.BroadcastsInDim S2176x2176 (![] : Fin 0 → Fin S2176x2176.rank)
  bcast_S_S1294336 : S_.BroadcastsInDim S1294336 (![] : Fin 0 → Fin S1294336.rank)
  bcast_S1294336_S1294336x1_0 : S1294336.BroadcastsInDim S1294336x1 (![0] : Fin 1 → Fin S1294336x1.rank)
  concatenates_S1294336x1_S1294336x1_S1294336x2_d1 : Shape.Concatenates [S1294336x1, S1294336x1] S1294336x2 1
  transposes_S2176x2176_S2176x2176_1_0 : S2176x2176.Transposes [1, 0] S2176x2176
  bcast_S2176_S1x2176_1 : S2176.BroadcastsInDim S1x2176 (![1] : Fin 1 → Fin S1x2176.rank)
  bcast_S1x2176_S8192x2176_0_1 : S1x2176.BroadcastsInDim S8192x2176 (![0, 1] : Fin 2 → Fin S8192x2176.rank)
  shapeCasts_S8192x2176_S8192x17x128 : S8192x2176.ShapeCasts S8192x17x128
  reducesTo_S8192x17x128_S17_d0_2 : S8192x17x128.ReducesTo [0, 2] S17
  h_S_ : 0 < S_.numel
  bcast_S17_S1x17x1_1 : S17.BroadcastsInDim S1x17x1 (![1] : Fin 1 → Fin S1x17x1.rank)
  bcast_S_S1x17x1 : S_.BroadcastsInDim S1x17x1 (![] : Fin 0 → Fin S1x17x1.rank)
  bcast_S1x17x1_S8192x17x128_0_1_2 : S1x17x1.BroadcastsInDim S8192x17x128 (![0, 1, 2] : Fin 3 → Fin S8192x17x128.rank)
  bcast_S17_S17x1_0 : S17.BroadcastsInDim S17x1 (![0] : Fin 1 → Fin S17x1.rank)
  bcast_S17x1_S1x17x1_1_2 : S17x1.BroadcastsInDim S1x17x1 (![1, 2] : Fin 2 → Fin S1x17x1.rank)
  shapeCasts_S8192x17x128_S8192x2176 : S8192x17x128.ShapeCasts S8192x2176
  bcast_S_S8192x2176 : S_.BroadcastsInDim S8192x2176 (![] : Fin 0 → Fin S8192x2176.rank)
  shapeCasts_S1_S_ : S1.ShapeCasts S_
  scatter_S2176x2176_S1294336x2_S1294336_n_01_01_1_wf : ScatterDims.WF S2176x2176 S1294336x2 S1294336 [] [0, 1] [0, 1] 1
  dot_S8192x2176_S2176x2176_S8192x2176_1_0_0_1_n_n_wf : DotDims.WF S8192x2176 S2176x2176 S8192x2176 [1] [0] [0] [1] [] []

variable [Facts₀]

def scatter_S2176x2176_S1294336x2_S1294336_n_01_01_1 : ScatterDims S2176x2176 S1294336x2 S1294336 where
  updateWindowDims := []
  insertedWindowDims := [0, 1]
  scatterDimsToOperandDims := [0, 1]
  indexVectorDim := 1
  wf := scatter_S2176x2176_S1294336x2_S1294336_n_01_01_1_wf
def dot_S8192x2176_S2176x2176_S8192x2176_1_0_0_1_n_n : DotDims S8192x2176 S2176x2176 S8192x2176 where
  lhsContracting := [1]
  rhsContracting := [0]
  lhsNonContracting := [0]
  rhsNonContracting := [1]
  lhsBatch := []
  rhsBatch := []
  wf := dot_S8192x2176_S2176x2176_S8192x2176_1_0_0_1_n_n_wf

class Facts : Prop extends Facts₀ where

variable [Facts]
-- ==== Proof.PreFinite.lean ====
import proofs.«123252_j59356448030849_1_alg».proof.Pre_finite_inputs
import Idealize.ShloMosaic.Lib.ReduceAll
import Idealize.ShloMosaic.Lib.ValueIdx
import Idealize.ShloMosaic.PureOps.Ideal.Laws

noncomputable section

namespace Cert.PreFinite

open Idealize.ShloMosaic Cert.Pre_finite_inputs

/-- An extended real that is an ordinary real number. -/
def IsReal (v : EReal) : Prop := ∃ r : ℝ, v = (r : EReal)

/-- The word 0x7F800000 denotes plus infinity. -/
theorem inf_word : Ideal.ofBits .f32 0x7F800000#32 = (⊤ : EReal) := by
  simp [Ideal.ofBits, Ideal.ieee]

/-- An extended real whose absolute value max x (-x) lies strictly below plus infinity is a real. -/
theorem isReal_of_abs_lt (x : EReal)
    (h : Ideal.cmp .olt (max x (-x)) (Ideal.ofBits .f32 0x7F800000#32) = 1#1) : IsReal x := by
  rw [inf_word] at h
  induction x using EReal.rec with
  | bot => simp [Ideal.cmp] at h
  | coe r => exact ⟨r, rfl⟩
  | top => simp [Ideal.cmp] at h

instance : Subsingleton S_.Idx := ⟨fun a b => funext fun d => d.elim0⟩

/-- all(|a| < +inf) = 1, over any shape: every entry of a is a real. -/
theorem all_real {s : Shape} {axes : List (Fin s.rank)}
    (hb : S_.BroadcastsInDim s (![] : Fin 0 → Fin s.rank)) (hr : s.ReducesTo axes S_) (hu : 0 < S_.numel)
    (a : FVec Ideal s .f32)
    (h : Host.reduce IntOp.andi
          (cmpf .olt (Host.absf a) (broadcastInDim s ![] hb (constant (F := Ideal) S_ .f32 0x7F800000#32)))
          (constantI S_ 1 1#1) hr hu ValueIdx.ix0 = 1#1) :
    ∀ i, IsReal (a i) := by
  intro i
  have e := Host.reduce_andi_all _ _ hr hu ValueIdx.ix0 h i
  exact isReal_of_abs_lt (a i) e

/-- The precondition, read back: each of the ten float arrays has only real entries. -/
theorem of_pre [Cert.Pre_finite_inputs.Facts]
    (a0 : FVec Ideal S8192x2176 .f32) (a1 : FVec Ideal S1294336 .f32) (a2 : FVec Ideal S2176 .f32)
    (a3 a4 : FVec Ideal S17 .f32) (a5 : FVec Ideal S1294336 .f32) (a6 : FVec Ideal S2176 .f32)
    (a7 a8 : FVec Ideal S17 .f32) (a9 : FVec Ideal S1 .f32) (a10 a11 : IVec S1294336 32)
    (h : Cert.Pre_finite_inputs.fn (F := Ideal) a0 a1 a2 a3 a4 a5 a6 a7 a8 a9 a10 a11 = fun _ => 1#1) :
    (∀ i, IsReal (a0 i)) ∧ (∀ i, IsReal (a1 i)) ∧ (∀ i, IsReal (a2 i)) ∧ (∀ i, IsReal (a3 i)) ∧
    (∀ i, IsReal (a4 i)) ∧ (∀ i, IsReal (a5 i)) ∧ (∀ i, IsReal (a6 i)) ∧ (∀ i, IsReal (a7 i)) ∧
    (∀ i, IsReal (a8 i)) ∧ (∀ i, IsReal (a9 i)) := by
  have e := congrFun h ValueIdx.ix0
  dsimp only [fn, fn_part1, fn_part2, andi] at e
  simp only [IntOp.andi_eq_one] at e
  obtain ⟨⟨⟨⟨⟨⟨⟨⟨⟨e0, e1⟩, e2⟩, e3⟩, e4⟩, e5⟩, e6⟩, e7⟩, e8⟩, e9⟩ := e
  exact ⟨all_real _ _ _ a0 e0, all_real _ _ _ a1 e1, all_real _ _ _ a2 e2, all_real _ _ _ a3 e3,
    all_real _ _ _ a4 e4, all_real _ _ _ a5 e5, all_real _ _ _ a6 e6, all_real _ _ _ a7 e7,
    all_real _ _ _ a8 e8, all_real _ _ _ a9 e9⟩

end Cert.PreFinite
-- ==== Proof.KernelRun.lean ====
/-
  The kernel program's run, with its result named.

  Every weakly fair execution of the four passes among their stretches of host operations terminates without a fault, and
  the final state holds, beside the argument arrays as launched, the result array at what the last boundary of the
  run's fold of buffer contents holds there.
-/
import proofs.«123252_j59356448030849_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read off the last boundary's contents. -/
theorem run_value : θ_run defs (onTc (τ := τ) (main (F := F))) ⟨m, fun _ => 0, ρ⟩ (fun r => ∀ c : Dev nD,
      r.2.mem ((c.tc : Thread nD τ).loc main_v85) = W7 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v85 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.RunValue

end
-- ==== Proof.KernelWalk.lean ====
/-
  The buffer contents at the boundaries of the kernel program's run, buffer by buffer.

  The run alternates stretches of host operations with the four passes.  A stretch leaves every buffer it does not write as
  it found it; a pass leaves every buffer that is none of its windows' arrays as it found it, an input window's array as
  it found it, and its output window's array at what the pass's sixteen blocks wrote.
-/
import proofs.«123252_j59356448030849_1_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- No operation of the named stretch writes the buffer in question. -/
local macro "keep_side" ops:ident : tactic => `(tactic| exact List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## Before the first pass: the first stretch keeps the arguments it only reads -/

/-- The launch contents are the memory the program starts from. -/
theorem w0_eq (c : Dev nD) (b : Ref sig .tc) : W0 m ρ c (Proc.devRef .tc b) = m ((c : Thread nD τ).loc b) := rfl

theorem w1_arg0 (c : Dev nD) : W1 m ρ c (Proc.devRef .tc main_arg0) = W0 m ρ c (Proc.devRef .tc main_arg0) :=
  StableHlo.after_of_forall_not_mem (b := Proc.devRef .tc main_arg0) _ _ (by keep_side hostOps0)
theorem w1_arg3 (c : Dev nD) : W1 m ρ c (Proc.devRef .tc main_arg3) = W0 m ρ c (Proc.devRef .tc main_arg3) :=
  StableHlo.after_of_forall_not_mem (b := Proc.devRef .tc main_arg3) _ _ (by keep_side hostOps0)
theorem w1_arg4 (c : Dev nD) : W1 m ρ c (Proc.devRef .tc main_arg4) = W0 m ρ c (Proc.devRef .tc main_arg4) :=
  StableHlo.after_of_forall_not_mem (b := Proc.devRef .tc main_arg4) _ _ (by keep_side hostOps0)
theorem w1_arg7 (c : Dev nD) : W1 m ρ c (Proc.devRef .tc main_arg7) = W0 m ρ c (Proc.devRef .tc main_arg7) :=
  StableHlo.after_of_forall_not_mem (b := Proc.devRef .tc main_arg7) _ _ (by keep_side hostOps0)
theorem w1_arg8 (c : Dev nD) : W1 m ρ c (Proc.devRef .tc main_arg8) = W0 m ρ c (Proc.devRef .tc main_arg8) :=
  StableHlo.after_of_forall_not_mem (b := Proc.devRef .tc main_arg8) _ _ (by keep_side hostOps0)

/-! ## After the first pass -/

theorem w2_v36 (c : Dev nD) : W2 m ρ c (Proc.devRef .tc main_v36) = (dat0 (V1 m ρ) c).arrAt 3 cfg0.N := W2_arr m ρ c 3
theorem w2_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))
theorem w2_v31 (c : Dev nD) : W2 m ρ c (Proc.devRef .tc main_v31) = W1 m ρ c (Proc.devRef .tc main_v31) :=
  W2_of_ne m ρ c main_v31 (by decide)
theorem w2_v33 (c : Dev nD) : W2 m ρ c (Proc.devRef .tc main_v33) = W1 m ρ c (Proc.devRef .tc main_v33) :=
  W2_of_ne m ρ c main_v33 (by decide)
theorem w2_v35 (c : Dev nD) : W2 m ρ c (Proc.devRef .tc main_v35) = W1 m ρ c (Proc.devRef .tc main_v35) :=
  W2_of_ne m ρ c main_v35 (by decide)
theorem w2_arg3 (c : Dev nD) : W2 m ρ c (Proc.devRef .tc main_arg3) = W1 m ρ c (Proc.devRef .tc main_arg3) :=
  W2_of_ne m ρ c main_arg3 (by decide)
theorem w2_arg4 (c : Dev nD) : W2 m ρ c (Proc.devRef .tc main_arg4) = W1 m ρ c (Proc.devRef .tc main_arg4) :=
  W2_of_ne m ρ c main_arg4 (by decide)
theorem w2_arg7 (c : Dev nD) : W2 m ρ c (Proc.devRef .tc main_arg7) = W1 m ρ c (Proc.devRef .tc main_arg7) :=
  W2_of_ne m ρ c main_arg7 (by decide)
theorem w2_arg8 (c : Dev nD) : W2 m ρ c (Proc.devRef .tc main_arg8) = W1 m ρ c (Proc.devRef .tc main_arg8) :=
  W2_of_ne m ρ c main_arg8 (by decide)

/-! ## The second stretch: the first layer's statistics -/

theorem w3_v36 (c : Dev nD) : W3 m ρ c (Proc.devRef .tc main_v36) = W2 m ρ c (Proc.devRef .tc main_v36) :=
  StableHlo.after_of_forall_not_mem (b := Proc.devRef .tc main_v36) _ _ (by keep_side hostOps1)
theorem w3_v35 (c : Dev nD) : W3 m ρ c (Proc.devRef .tc main_v35) = W2 m ρ c (Proc.devRef .tc main_v35) :=
  StableHlo.after_of_forall_not_mem (b := Proc.devRef .tc main_v35) _ _ (by keep_side hostOps1)
theorem w3_v31 (c : Dev nD) : W3 m ρ c (Proc.devRef .tc main_v31) = W2 m ρ c (Proc.devRef .tc main_v31) :=
  StableHlo.after_of_forall_not_mem (b := Proc.devRef .tc main_v31) _ _ (by keep_side hostOps1)
theorem w3_v33 (c : Dev nD) : W3 m ρ c (Proc.devRef .tc main_v33) = W2 m ρ c (Proc.devRef .tc main_v33) :=
  StableHlo.after_of_forall_not_mem (b := Proc.devRef .tc main_v33) _ _ (by keep_side hostOps1)
theorem w3_arg0 (c : Dev nD) : W3 m ρ c (Proc.devRef .tc main_arg0) = W2 m ρ c (Proc.devRef .tc main_arg0) :=
  StableHlo.after_of_forall_not_mem (b := Proc.devRef .tc main_arg0) _ _ (by keep_side hostOps1)
theorem w3_arg7 (c : Dev nD) : W3 m ρ c (Proc.devRef .tc main_arg7) = W2 m ρ c (Proc.devRef .tc main_arg7) :=
  StableHlo.after_of_forall_not_mem (b := Proc.devRef .tc main_arg7) _ _ (by keep_side hostOps1)
theorem w3_arg8 (c : Dev nD) : W3 m ρ c (Proc.devRef .tc main_arg8) = W2 m ρ c (Proc.devRef .tc main_arg8) :=
  StableHlo.after_of_forall_not_mem (b := Proc.devRef .tc main_arg8) _ _ (by keep_side hostOps1)

/-! ## After the second pass -/

theorem w4_v60 (c : Dev nD) : W4 m ρ c (Proc.devRef .tc main_v60) = (dat1 (V3 m ρ) c).arrAt 4 cfg1.N := W4_arr m ρ c 4
theorem w4_v35 (c : Dev nD) : W4 m ρ c (Proc.devRef .tc main_v35) = W3 m ρ c (Proc.devRef .tc main_v35) :=
  (W4_arr m ρ c 3).trans (((dat1 (V3 m ρ) c).arrAt_in 3 rfl _).trans (A_eq1 (V3 m ρ) c 3))
theorem w4_v31 (c : Dev nD) : W4 m ρ c (Proc.devRef .tc main_v31) = W3 m ρ c (Proc.devRef .tc main_v31) :=
  W4_of_ne m ρ c main_v31 (by decide)
theorem w4_v33 (c : Dev nD) : W4 m ρ c (Proc.devRef .tc main_v33) = W3 m ρ c (Proc.devRef .tc main_v33) :=
  W4_of_ne m ρ c main_v33 (by decide)
theorem w4_arg0 (c : Dev nD) : W4 m ρ c (Proc.devRef .tc main_arg0) = W3 m ρ c (Proc.devRef .tc main_arg0) :=
  W4_of_ne m ρ c main_arg0 (by decide)
theorem w4_arg7 (c : Dev nD) : W4 m ρ c (Proc.devRef .tc main_arg7) = W3 m ρ c (Proc.devRef .tc main_arg7) :=
  W4_of_ne m ρ c main_arg7 (by decide)
theorem w4_arg8 (c : Dev nD) : W4 m ρ c (Proc.devRef .tc main_arg8) = W3 m ρ c (Proc.devRef .tc main_arg8) :=
  W4_of_ne m ρ c main_arg8 (by decide)

/-! ## After the third pass -/

theorem w5_v61 (c : Dev nD) : W5 m ρ c (Proc.devRef .tc main_v61) = (dat2 (V4 m ρ) c).arrAt 3 cfg2.N := W5_arr m ρ c 3
theorem w5_v35 (c : Dev nD) : W5 m ρ c (Proc.devRef .tc main_v35) = W4 m ρ c (Proc.devRef .tc main_v35) :=
  W5_of_ne m ρ c main_v35 (by decide)
theorem w5_arg0 (c : Dev nD) : W5 m ρ c (Proc.devRef .tc main_arg0) = W4 m ρ c (Proc.devRef .tc main_arg0) :=
  W5_of_ne m ρ c main_arg0 (by decide)
theorem w5_arg7 (c : Dev nD) : W5 m ρ c (Proc.devRef .tc main_arg7) = W4 m ρ c (Proc.devRef .tc main_arg7) :=
  W5_of_ne m ρ c main_arg7 (by decide)
theorem w5_arg8 (c : Dev nD) : W5 m ρ c (Proc.devRef .tc main_arg8) = W4 m ρ c (Proc.devRef .tc main_arg8) :=
  W5_of_ne m ρ c main_arg8 (by decide)

/-! ## The last stretch: the second layer's statistics -/

theorem w6_v61 (c : Dev nD) : W6 m ρ c (Proc.devRef .tc main_v61) = W5 m ρ c (Proc.devRef .tc main_v61) :=
  StableHlo.after_of_forall_not_mem (b := Proc.devRef .tc main_v61) _ _ (by keep_side hostOps3)
theorem w6_v35 (c : Dev nD) : W6 m ρ c (Proc.devRef .tc main_v35) = W5 m ρ c (Proc.devRef .tc main_v35) :=
  StableHlo.after_of_forall_not_mem (b := Proc.devRef .tc main_v35) _ _ (by keep_side hostOps3)
theorem w6_arg0 (c : Dev nD) : W6 m ρ c (Proc.devRef .tc main_arg0) = W5 m ρ c (Proc.devRef .tc main_arg0) :=
  StableHlo.after_of_forall_not_mem (b := Proc.devRef .tc main_arg0) _ _ (by keep_side hostOps3)

/-! ## After the last pass -/

theorem w7_v85 (c : Dev nD) : W7 m ρ c (Proc.devRef .tc main_v85) = (dat3 (V6 m ρ) c).arrAt 5 cfg3.N := W7_arr m ρ c 5

end Cert.KernelIdeal.Walk

end
-- ==== Proof.HostTerms.lean ====
/-
  The host-side computations of the two programs, each named as one function of the arrays it reads.

  Between the passes over the batch both programs compute, with plain array operations, the statistics of a batch
  Y of 8192 rows of 2176 = 17 · 128 numbers: Y is viewed with its columns in 17 groups of 128, summed per group over
  rows and group columns and divided by the group's number of entries (the mean); the deviations from the mean are
  squared, summed and divided likewise (the variance); a small offset is added and the square root taken.  One program
  then folds these into a scale and a shift per group, each laid out as one row over the 2176 columns; the other
  normalises the whole batch entry by entry and rectifies it.  Every definition below is the composition of the array
  operations in the order the program states them, over the program's own shape relations.
-/
import proofs.«123252_j59356448030849_1_alg».proof.KernelIdeal
import proofs.«123252_j59356448030849_1_alg».proof.ReferenceIdeal
import Idealize.ShloMosaic.PureOps.Ideal.Laws

noncomputable section

namespace Cert.HostTerms

/-! ## The program with the four passes -/
namespace K

open Idealize.ShloMosaic Cert.KernelIdeal Cert.KernelIdeal.Facts₀ Cert.KernelIdeal.Facts

variable [Cert.KernelIdeal.Facts]

/-- The zero every sum starts from. -/
def zero : FVec Ideal S_ .f32 := constant S_ .f32 0x00000000#32
/-- The number of entries of a group. -/
def count : FVec Ideal S_ .f32 := constant S_ .f32 0x49800000#32
/-- The variance's offset. -/
def offset : FVec Ideal S_ .f32 := constant S_ .f32 0x3727C5AC#32

/-- A bias vector as one row. -/
def biasRow (b : FVec Ideal S2176 .f32) : FVec Ideal S1x2176 .f32 :=
  shapeCast S1x2176 b shapeCasts_S2176_S1x2176

/-- The rectifier's one slope laid along a row. -/
def alphaRow (a : FVec Ideal S1 .f32) : FVec Ideal S1x2176 .f32 :=
  broadcastInDim S1x2176 ![0, 1] bcast_S1x1_S1x2176_0_1 (shapeCast S1x1 a shapeCasts_S1_S1x1)

/-- An index below zero has 2176 added to it. -/
def normIdx (v : IVec S1294336 32) : IVec S1294336 32 :=
  select (cmpi .slt v (broadcastInDim S1294336 ![] bcast_S_S1294336 (constantI S_ 32 0#32)))
    (addi v (broadcastInDim S1294336 ![] bcast_S_S1294336 (constantI S_ 32 2176#32))) v

/-- The sparse weights written into a zero matrix at (column index, row index), then cast. -/
def weights (rows cols : IVec S1294336 32) (w : FVec Ideal S1294336 .f32) : FVec Ideal S2176x2176 .bf16 :=
  truncf .bf16
    (Host.scatter scatter_S2176x2176_S1294336x2_S1294336_n_01_01_1 (fun _ b => b)
      (broadcastInDim S2176x2176 ![] bcast_S_S2176x2176 zero)
      (concatenate S1294336x2 1
        [⟨S1294336x1, broadcastInDim S1294336x1 ![0] bcast_S1294336_S1294336x1_0 (normIdx cols)⟩,
         ⟨S1294336x1, broadcastInDim S1294336x1 ![0] bcast_S1294336_S1294336x1_0 (normIdx rows)⟩]
        concatenates_S1294336x1_S1294336x1_S1294336x2_d1)
      w)
    bitsLt_bf16_f32

/-- The batch with its columns grouped. -/
def stat3 (Y : FVec Ideal S8192x2176 .f32) : FVec Ideal S8192x17x128 .f32 :=
  shapeCast S8192x17x128 Y shapeCasts_S8192x2176_S8192x17x128

/-- The group means. -/
def mean (Y : FVec Ideal S8192x2176 .f32) : FVec Ideal S17 .f32 :=
  Host.divf (Host.reduceAdd (stat3 Y) zero reducesTo_S8192x17x128_S17_d0_2 h_S_)
    (broadcastInDim S17 ![] bcast_S_S17 count)

/-- Each entry's deviation from its group's mean. -/
def dev (Y : FVec Ideal S8192x2176 .f32) : FVec Ideal S8192x17x128 .f32 :=
  subf (stat3 Y)
    (broadcastInDim S8192x17x128 ![0, 1, 2] bcast_S1x17x1_S8192x17x128_0_1_2
      (broadcastInDim S1x17x1 ![1] bcast_S17_S1x17x1_1 (mean Y)))

/-- The group variances. -/
def var (Y : FVec Ideal S8192x2176 .f32) : FVec Ideal S17 .f32 :=
  Host.divf (Host.reduceAdd (mulf (dev Y) (dev Y)) zero reducesTo_S8192x17x128_S17_d0_2 h_S_)
    (broadcastInDim S17 ![] bcast_S_S17 count)

/-- The square roots of the offset variances. -/
def sd (Y : FVec Ideal S8192x2176 .f32) : FVec Ideal S17 .f32 :=
  Host.sqrt (addf (var Y) (broadcastInDim S17 ![] bcast_S_S17 offset))

/-- The folded scale per group. -/
def scale (Y : FVec Ideal S8192x2176 .f32) (g : FVec Ideal S17 .f32) : FVec Ideal S17 .f32 :=
  Host.divf g (sd Y)

/-- The folded shift per group. -/
def shift (Y : FVec Ideal S8192x2176 .f32) (g β : FVec Ideal S17 .f32) : FVec Ideal S17 .f32 :=
  subf β (mulf (mean Y) (scale Y g))

/-- A per-group quantity repeated over its group's 128 columns, as one row. -/
def row (v : FVec Ideal S17 .f32) : FVec Ideal S1x2176 .f32 :=
  shapeCast S1x2176
    (shapeCast S2176 (broadcastInDim S17x128 ![0] bcast_S17_S17x128_0 v) shapeCasts_S17x128_S2176)
    shapeCasts_S2176_S1x2176

end K

/-! ## The plain program -/
namespace R

open Idealize.ShloMosaic Cert.ReferenceIdeal Cert.ReferenceIdeal.Facts₀ Cert.ReferenceIdeal.Facts

variable [Cert.ReferenceIdeal.Facts]

/-- The zero every sum starts from. -/
def zero : FVec Ideal S_ .f32 := constant S_ .f32 0x00000000#32
/-- The number of entries of a group. -/
def count : FVec Ideal S_ .f32 := constant S_ .f32 0x49800000#32
/-- The variance's offset. -/
def offset : FVec Ideal S_ .f32 := constant S_ .f32 0x3727C5AC#32

/-- An index below zero has 2176 added to it. -/
def normIdx (v : IVec S1294336 32) : IVec S1294336 32 :=
  select (cmpi .slt v (broadcastInDim S1294336 ![] bcast_S_S1294336 (constantI S_ 32 0#32)))
    (addi v (broadcastInDim S1294336 ![] bcast_S_S1294336 (constantI S_ 32 2176#32))) v

/-- The sparse weights written into a zero matrix at (row index, column index), then transposed. -/
def weights (rows cols : IVec S1294336 32) (w : FVec Ideal S1294336 .f32) : FVec Ideal S2176x2176 .f32 :=
  transpose S2176x2176 [1, 0]
    (Host.scatter scatter_S2176x2176_S1294336x2_S1294336_n_01_01_1 (fun _ b => b)
      (broadcastInDim S2176x2176 ![] bcast_S_S2176x2176 zero)
      (concatenate S1294336x2 1
        [⟨S1294336x1, broadcastInDim S1294336x1 ![0] bcast_S1294336_S1294336x1_0 (normIdx rows)⟩,
         ⟨S1294336x1, broadcastInDim S1294336x1 ![0] bcast_S1294336_S1294336x1_0 (normIdx cols)⟩]
        concatenates_S1294336x1_S1294336x1_S1294336x2_d1)
      w)
    transposes_S2176x2176_S2176x2176_1_0

/-- The dense layer: the batch times the weights plus the bias along every row. -/
def dense (X : FVec Ideal S8192x2176 .f32) (WT : FVec Ideal S2176x2176 .f32) (b : FVec Ideal S2176 .f32) :
    FVec Ideal S8192x2176 .f32 :=
  addf (Host.dotGeneral dot_S8192x2176_S2176x2176_S8192x2176_1_0_0_1_n_n none X WT)
    (broadcastInDim S8192x2176 ![0, 1] bcast_S1x2176_S8192x2176_0_1
      (broadcastInDim S1x2176 ![1] bcast_S2176_S1x2176_1 b))

/-- The batch with its columns grouped. -/
def stat3 (Y : FVec Ideal S8192x2176 .f32) : FVec Ideal S8192x17x128 .f32 :=
  shapeCast S8192x17x128 Y shapeCasts_S8192x2176_S8192x17x128

/-- A per-group quantity spread over the grouped batch. -/
def spread (v : FVec Ideal S1x17x1 .f32) : FVec Ideal S8192x17x128 .f32 :=
  broadcastInDim S8192x17x128 ![0, 1, 2] bcast_S1x17x1_S8192x17x128_0_1_2 v

/-- The group means, kept with unit axes around the group axis. -/
def mean (Y : FVec Ideal S8192x2176 .f32) : FVec Ideal S1x17x1 .f32 :=
  Host.divf
    (broadcastInDim S1x17x1 ![1] bcast_S17_S1x17x1_1
      (Host.reduceAdd (stat3 Y) zero reducesTo_S8192x17x128_S17_d0_2 h_S_))
    (broadcastInDim S1x17x1 ![] bcast_S_S1x17x1 count)

/-- Each entry's deviation from its group's mean. -/
def dev (Y : FVec Ideal S8192x2176 .f32) : FVec Ideal S8192x17x128 .f32 :=
  subf (stat3 Y) (spread (mean Y))

/-- The group variances. -/
def var (Y : FVec Ideal S8192x2176 .f32) : FVec Ideal S1x17x1 .f32 :=
  Host.divf
    (broadcastInDim S1x17x1 ![1] bcast_S17_S1x17x1_1
      (Host.reduceAdd (mulf (dev Y) (dev Y)) zero reducesTo_S8192x17x128_S17_d0_2 h_S_))
    (broadcastInDim S1x17x1 ![] bcast_S_S1x17x1 count)

/-- The square roots of the offset variances. -/
def sd (Y : FVec Ideal S8192x2176 .f32) : FVec Ideal S1x17x1 .f32 :=
  Host.sqrt (addf (var Y) (broadcastInDim S1x17x1 ![] bcast_S_S1x17x1 offset))

/-- A per-group parameter spread over the grouped batch. -/
def param (p : FVec Ideal S17 .f32) : FVec Ideal S8192x17x128 .f32 :=
  spread (broadcastInDim S1x17x1 ![1, 2] bcast_S17x1_S1x17x1_1_2 (broadcastInDim S17x1 ![0] bcast_S17_S17x1_0 p))

/-- The batch normalised entry by entry, back in its own shape. -/
def norm (Y : FVec Ideal S8192x2176 .f32) (g β : FVec Ideal S17 .f32) : FVec Ideal S8192x2176 .f32 :=
  shapeCast S8192x2176
    (addf (mulf (Host.divf (dev Y) (spread (sd Y))) (param g)) (param β))
    shapeCasts_S8192x17x128_S8192x2176

/-- The normalised batch rectified: an entry where it is at least zero, the slope times it elsewhere. -/
def layer (Y : FVec Ideal S8192x2176 .f32) (g β : FVec Ideal S17 .f32) (a : FVec Ideal S1 .f32) :
    FVec Ideal S8192x2176 .f32 :=
  select (cmpf .oge (norm Y g β) (broadcastInDim S8192x2176 ![] bcast_S_S8192x2176 zero)) (norm Y g β)
    (mulf (broadcastInDim S8192x2176 ![] bcast_S_S8192x2176 (shapeCast S_ a shapeCasts_S1_S_)) (norm Y g β))

end R

end Cert.HostTerms

end
-- ==== Proof.KernelHost.lean ====
/-
  What each stretch of host operations of the kernel program leaves in the buffers the next pass reads, as functions of
  the buffers the stretch itself reads — for any contents the stretch starts from.

  The first stretch builds the two weight matrices, lays the two bias vectors and the rectifier's slope out as rows; each
  of the other two computes a layer's statistics from the dense pass's result and folds them into a scale row and a
  shift row.
-/
import proofs.«123252_j59356448030849_1_alg».proof.Proof.Gen.KernelIdeal.Frame
import proofs.«123252_j59356448030849_1_alg».proof.Proof.HostTerms

set_option maxRecDepth 16384

noncomputable section

namespace Cert.KernelIdeal.HostGlue

open Cert.KernelIdeal Cert.KernelIdeal.Gen Cert.HostTerms
open Idealize.ShloMosaic Idealize.ShloMosaic.TcCoe Idealize.SL.Sem Idealize.ShloMosaic.StableHlo

variable (W : Valuation τ sig (Elt Ideal))

/-! ## The first stretch -/

theorem h0_v15 : after (hostOps0 (F := Ideal)) W (Proc.devRef .tc main_v15)
    = K.weights (W (Proc.devRef .tc main_arg10)) (W (Proc.devRef .tc main_arg11)) (W (Proc.devRef .tc main_arg1)) := by
  after_results_simp <;> rfl

theorem h0_v31 : after (hostOps0 (F := Ideal)) W (Proc.devRef .tc main_v31)
    = K.weights (W (Proc.devRef .tc main_arg10)) (W (Proc.devRef .tc main_arg11)) (W (Proc.devRef .tc main_arg5)) := by
  after_results_simp <;> rfl

theorem h0_v32 : after (hostOps0 (F := Ideal)) W (Proc.devRef .tc main_v32) = K.biasRow (W (Proc.devRef .tc main_arg2)) := by
  after_results_simp <;> rfl

theorem h0_v33 : after (hostOps0 (F := Ideal)) W (Proc.devRef .tc main_v33) = K.biasRow (W (Proc.devRef .tc main_arg6)) := by
  after_results_simp <;> rfl

theorem h0_v35 : after (hostOps0 (F := Ideal)) W (Proc.devRef .tc main_v35) = K.alphaRow (W (Proc.devRef .tc main_arg9)) := by
  after_results_simp <;> rfl

/-! ## The first layer's statistics -/

set_option maxHeartbeats 2000000 in
theorem h1_v56 : after (hostOps1 (F := Ideal)) W (Proc.devRef .tc main_v56)
    = K.row (K.scale (W (Proc.devRef .tc main_v36)) (W (Proc.devRef .tc main_arg3))) := by
  after_results_simp <;> rfl

set_option maxHeartbeats 2000000 in
theorem h1_v59 : after (hostOps1 (F := Ideal)) W (Proc.devRef .tc main_v59)
    = K.row (K.shift (W (Proc.devRef .tc main_v36)) (W (Proc.devRef .tc main_arg3)) (W (Proc.devRef .tc main_arg4))) := by
  after_results_simp <;> rfl

/-! ## The second layer's statistics -/

set_option maxHeartbeats 2000000 in
theorem h3_v81 : after (hostOps3 (F := Ideal)) W (Proc.devRef .tc main_v81)
    = K.row (K.scale (W (Proc.devRef .tc main_v61)) (W (Proc.devRef .tc main_arg7))) := by
  after_results_simp <;> rfl

set_option maxHeartbeats 2000000 in
theorem h3_v84 : after (hostOps3 (F := Ideal)) W (Proc.devRef .tc main_v84)
    = K.row (K.shift (W (Proc.devRef .tc main_v61)) (W (Proc.devRef .tc main_arg7)) (W (Proc.devRef .tc main_arg8))) := by
  after_results_simp <;> rfl

end Cert.KernelIdeal.HostGlue

end
-- ==== Proof.RegionSpec.lean ====
/-
  What each of the four passes over the batch leaves in its result array, as one function of the arrays it reads.

  A dense pass: entry (p, q) is  Σ n, X (p, n) * WT (n, q) + b (0, q), the bias one row laid along every row of the batch.
  A normalising pass: with z = Y (p, q) * scale (0, q) + shift (0, q), entry (p, q) is z where 0 ≤ z and alpha (0, q) * z
  elsewhere (the parametric rectifier); the last pass adds the network's input X (p, q) to that.
-/
import Idealize.ShloMosaic.Lib.ValueIdx
import Idealize.ShloMosaic.PureOps.Ideal.Laws

noncomputable section

open scoped BigOperators

namespace Cert.Lcn

open Idealize.ShloMosaic Idealize.ShloMosaic.ValueIdx

/-- The batch: 8192 rows of 2176 = 17 · 128 numbers. -/
abbrev SBD : Shape := ⟨2, ![8192, 2176]⟩
/-- A weight matrix as the passes multiply by it. -/
abbrev SDD : Shape := ⟨2, ![2176, 2176]⟩
/-- One row of 2176 numbers. -/
abbrev SRow : Shape := ⟨2, ![1, 2176]⟩

/-- The dense pass: the batch times the weights, plus the bias row. -/
def denseRow (X : SBD.Idx → EReal) (WT : SDD.Idx → EReal) (b : SRow.Idx → EReal) : SBD.Idx → EReal :=
  fun i => (∑ n : Fin 2176, X (ix2 (i 0) n) * WT (ix2 n (i 1))) + b (ix2 (0 : Fin 1) (i 1))

/-- The parametric rectifier: z where it is nonnegative, a · z elsewhere. -/
def prelu (a z : EReal) : EReal := if 0 ≤ z then z else a * z

/-- The normalising pass: an affine map per column, then the rectifier. -/
def affPrelu (Y : SBD.Idx → EReal) (sc sh al : SRow.Idx → EReal) : SBD.Idx → EReal :=
  fun i => prelu (al (ix2 (0 : Fin 1) (i 1))) (Y i * sc (ix2 (0 : Fin 1) (i 1)) + sh (ix2 (0 : Fin 1) (i 1)))

/-- The last pass: the network's input plus the normalised, rectified second layer. -/
def affPreluRes (Y : SBD.Idx → EReal) (sc sh al : SRow.Idx → EReal) (X : SBD.Idx → EReal) : SBD.Idx → EReal :=
  fun i => X i + affPrelu Y sc sh al i

end Cert.Lcn

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«123252_j59356448030849_1_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.Region0.lean ====
/-
  The first dense pass, read off its frame: the result array after the sixteen row blocks have been written back
  is the batch times the weights plus the bias row, entry by entry.
-/
import proofs.«123252_j59356448030849_1_alg».proof.Proof.Gen.KernelIdeal.Frame
import proofs.«123252_j59356448030849_1_alg».proof.Proof.RegionSpec
import proofs.«123252_j59356448030849_1_alg».proof.Proof.LibDenseLayer
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's arithmetic at one entry of a block -/

/-- Entry (p, q) of what the body stores for a block of 512 rows: row p of the block against column q of the weights,
    plus the bias at q. The change of format of the block is the identity on extended reals, the casts to the same
    shape change nothing, and the product into a zero accumulator is the plain sum of products. -/
theorem dense0_payload (x0 : FVec Ideal S512x2176 .f32) (x1 : FVec Ideal S2176x2176 .bf16) (x2 : FVec Ideal S1x2176 .f32)
    (p : Fin 512) (q : Fin 2176) :
    k0_pay1 (F := Ideal) x0 x1 x2 (ix2 p q) = (∑ n : Fin 2176, x0 (ix2 p n) * x1 (ix2 n q)) + x2 (ix2 (0 : Fin 1) q) := by
  unfold k0_pay1
  show addf (matmul (F := Ideal) dot_S512x2176_S2176x2176_S512x2176_1_0_0_1_n_n none (truncf .bf16 x0 bitsLt_bf16_f32)
      (shapeCast S2176x2176 x1 shapeCasts_S2176x2176_S2176x2176) (constant S512x2176 .f32 0x00000000#32))
      (broadcastTo S512x2176 (shapeCast S1x2176 x2 shapeCasts_S1x2176_S1x2176) broadcasts_S1x2176_S512x2176) (ix2 p q) = _
  rw [shapeCast_self, shapeCast_self]
  exact DenseLayer.affine_apply dot_S512x2176_S2176x2176_S512x2176_1_0_0_1_n_n.wf x0 x1 x2 broadcasts_S1x2176_S512x2176 p q

/-- The same entry when the three blocks are read off whole arrays X, WT, b: it is entry i of the dense pass of those
    arrays as soon as the block's row p is row i 0 of X and column q is column i 1 of WT and of b. -/
theorem dense0_entry (X : Cert.Lcn.SBD.Idx → EReal) (WT : Cert.Lcn.SDD.Idx → EReal) (b : Cert.Lcn.SRow.Idx → EReal)
    (x0 : FVec Ideal S512x2176 .f32) (x1 : FVec Ideal S2176x2176 .bf16) (x2 : FVec Ideal S1x2176 .f32)
    (p : Fin 512) (q : Fin 2176) (i : Cert.Lcn.SBD.Idx)
    (h0 : ∀ n : Fin 2176, x0 (ix2 p n) = X (ix2 (i 0) n))
    (h1 : ∀ n : Fin 2176, x1 (ix2 n q) = WT (ix2 n (i 1)))
    (h2 : x2 (ix2 (0 : Fin 1) q) = b (ix2 (0 : Fin 1) (i 1))) :
    k0_pay1 (F := Ideal) x0 x1 x2 (ix2 p q) = Cert.Lcn.denseRow X WT b i := by
  rw [dense0_payload, h2]
  unfold Cert.Lcn.denseRow
  exact congrArg (· + b (ix2 (0 : Fin 1) (i 1))) (Finset.sum_congr rfl fun n _ => by rw [h0 n, h1 n])

/-! ## Where each window's block sits -/

theorem zero_offsets0 : (![0, 0] : Fin 2 → Nat) = fun _ => 0 := funext fun a => by fin_cases a <;> rfl

/-- The printed index maps over the sixteen points: the batch's block and the result's block are block t of their arrays
    along the rows, the weights and the bias are taken whole. -/
theorem block_indices0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 15 ∧ win0_3.index t (1 : Fin 2) = 0 :=
  (by decide +kernel : ∀ t : Fin grid0.N, _)

/-- Every one of the sixteen row blocks is some point's. -/
theorem block_onto0 : ∀ q0 : Fin 16, ∃ t : Fin cfg0.N, win0_3.index t (0 : Fin 2) = q0.val ∧ win0_3.index t (1 : Fin 2) = 0 :=
  (by decide +kernel : ∀ q0 : Fin 16, ∃ t : Fin grid0.N, win0_3.index t (0 : Fin 2) = q0.val ∧ win0_3.index t (1 : Fin 2) = 0)

/-! ## What a point writes back -/

/-- What point t writes back is block t of the dense pass's whole-array result. -/
theorem flushed0_eq (c : Dev nD) (t : Fin cfg0.N) :
    (dat0 (F := Ideal) V c).flushed 3 t
      = ((cfg0.win 3).blk t).view.read (Elt Ideal) (Cert.Lcn.denseRow (V c main_arg0) (V c main_v15) (V c main_v32)) := by
  show (cfg0.win 3).cut (grid0.coords t) ((dat0 (F := Ideal) V c).after 3 t) = _
  rw [after0_3]
  unfold out0_3
  rw [View.canon_unit_zero zero_offsets0]
  simp only [View.ld_unit_zero (S := S512x2176) zero_offsets0, View.ld_unit_zero (S := S2176x2176) zero_offsets0,
    View.ld_unit_zero (S := S1x2176) zero_offsets0]
  obtain ⟨e0, e1, e2, e3, e4, e5, e6, e7⟩ := block_indices0 t
  funext j
  obtain ⟨p, q, rfl⟩ : ∃ (p : Fin 512) (q : Fin 2176), j = ix2 p q := ⟨j 0, j 1, eq_ix2 j⟩
  have hq : (((cfg0.win 3).blk t).view.emb (ix2 p q)) 1 = q := by
    apply Fin.ext
    show win0_3.index t (1 : Fin 2) * 2176 + 1 * q.val = q.val
    omega
  refine dense0_entry (V c main_arg0) (V c main_v15) (V c main_v32) (iblk0 V c 0 t) (iblk0 V c 1 t) (iblk0 V c 2 t) p q
    (((cfg0.win 3).blk t).view.emb (ix2 p q)) (fun n => ?_) (fun n => ?_) ?_
  · show V c main_arg0 (((cfg0.win 0).blk t).view.emb (ix2 p n)) = V c main_arg0 (ix2 ((((cfg0.win 3).blk t).view.emb (ix2 p q)) 0) n)
    refine congrArg _ (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 2176 + 1 * n.val = n.val; omega
  · rw [hq]
    show V c main_v15 (((cfg0.win 1).blk t).view.emb (ix2 n q)) = V c main_v15 (ix2 n q)
    refine congrArg _ (funext fun a => Fin.ext ?_)
    match a with
    | ⟨0, _⟩ => show win0_1.index t (0 : Fin 2) * 2176 + 1 * n.val = n.val; omega
    | ⟨1, _⟩ => show win0_1.index t (1 : Fin 2) * 2176 + 1 * q.val = q.val; omega
  · rw [hq]
    show V c main_v32 (((cfg0.win 2).blk t).view.emb (ix2 (0 : Fin 1) q)) = V c main_v32 (ix2 (0 : Fin 1) q)
    refine congrArg _ (funext fun a => Fin.ext ?_)
    match a with
    | ⟨0, _⟩ => show win0_2.index t (0 : Fin 2) * 1 + 1 * 0 = 0; omega
    | ⟨1, _⟩ => show win0_2.index t (1 : Fin 2) * 2176 + 1 * q.val = q.val; omega

/-! ## The sixteen blocks cover the result array -/

/-- An index of the result array is in point t's block iff each coordinate is in the block's range on its axis. -/
theorem mem_block0 (t : Fin cfg0.N) (i : S8192x2176.Idx) :
    i ∈ ((cfg0.win 3).blk t).view.set
      ↔ ∀ a : Fin 2, win0_3.index t a * S512x2176.size a ≤ (i a).val
          ∧ (i a).val < win0_3.index t a * S512x2176.size a + S512x2176.size a := by
  show i ∈ ((View.whole main_v36).slice (win0_3.rect t)).set ↔ _
  rw [View.set_slice_whole, Rect.mem_set_unit]
  exact Iff.rfl

/-- Row r of the result array is in the block of the point whose block index is r / 512. -/
theorem covered0 (i : S8192x2176.Idx) :
    ∃ t : Fin cfg0.N, (cfg0.win 3).flush t = true ∧ i ∈ ((cfg0.win 3).blk t).view.set := by
  have hi0 : (i 0).val < 8192 := (i 0).isLt
  have hi1 : (i 1).val < 2176 := (i 1).isLt
  obtain ⟨t, q0, q1⟩ := block_onto0 ⟨(i 0).val / 512, by omega⟩
  have q0' : win0_3.index t (0 : Fin 2) = (i 0).val / 512 := q0
  refine ⟨t, flush0_3 t, ?_⟩
  rw [mem_block0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2176 ≤ (i 1).val ∧ (i 1).val < win0_3.index t (1 : Fin 2) * 2176 + 2176; omega

/-! ## The result array after the pass -/

/-- After the sixteen write-backs the result array holds the dense pass of the arrays the region was entered with. -/
theorem final0 (c : Dev nD) :
    (dat0 (F := Ideal) V c).arrAt 3 cfg0.N = Cert.Lcn.denseRow (V c main_arg0) (V c main_v15) (V c main_v32) :=
  (dat0 (F := Ideal) V c).arrAt_eq_of_cover 3 (Cert.Lcn.denseRow (V c main_arg0) (V c main_v15) (V c main_v32))
    (fun t _ => flushed0_eq V c t) covered0

end Cert.KernelIdeal.RegionValue

end
-- ==== Proof.Region1.lean ====
/-
  The first normalising pass, read off its frame: the result array after the sixteen row blocks have been written
  back is, entry by entry, the affine map per column followed by the parametric rectifier.
-/
import proofs.«123252_j59356448030849_1_alg».proof.Proof.Gen.KernelIdeal.Frame
import proofs.«123252_j59356448030849_1_alg».proof.Proof.RegionSpec
import Idealize.ShloMosaic.Lib.ValueLayout
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's arithmetic at one entry of a block -/

/-- Choosing z where the comparison "z is at least the zero constant" holds and a · z elsewhere is the parametric
    rectifier: over the extended reals the comparison is the order's, and the zero word encodes 0. -/
theorem select_nonneg1 (a z : EReal) :
    Scalar.select (FloatOps.cmpf (F := Ideal) (φ := .f32) .oge z (Scalar.ofBits (F := Ideal) .f32 0x00000000#32)) z (a * z)
      = Cert.Lcn.prelu a z := by
  show (if BitVec.ofBool (decide (Ideal.ofBits .f32 0x00000000#32 ≤ z)) = 1 then z else a * z) = if 0 ≤ z then z else a * z
  rw [Ideal.ofBits_zero_f32]
  by_cases h : (0 : EReal) ≤ z
  · rw [if_pos h, decide_eq_true h]; exact if_pos rfl
  · rw [if_neg h, decide_eq_false h]; exact if_neg (by decide)

/-- Entry (p, q) of what the body stores for a block of 512 rows: with z the block's entry times the scale at q plus
    the shift at q, the rectifier of z with slope the alpha at q. The three rows are laid along every row of
    the block, and the casts to the same shape change nothing. -/
theorem prelu1_payload (x0 : FVec Ideal S512x2176 .f32) (x1 x2 x3 : FVec Ideal S1x2176 .f32)
    (p : Fin 512) (q : Fin 2176) :
    k1_pay1 (F := Ideal) x0 x1 x2 x3 (ix2 p q)
      = Cert.Lcn.prelu (x3 (ix2 (0 : Fin 1) q)) (x0 (ix2 p q) * x1 (ix2 (0 : Fin 1) q) + x2 (ix2 (0 : Fin 1) q)) := by
  unfold k1_pay1
  simp only [shapeCast_self]
  show Scalar.select (FloatOps.cmpf .oge
        (x0 (ix2 p q) * broadcastTo S512x2176 x1 broadcasts_S1x2176_S512x2176 (ix2 p q)
          + broadcastTo S512x2176 x2 broadcasts_S1x2176_S512x2176 (ix2 p q))
        (Scalar.ofBits (F := Ideal) .f32 0x00000000#32))
      (x0 (ix2 p q) * broadcastTo S512x2176 x1 broadcasts_S1x2176_S512x2176 (ix2 p q)
          + broadcastTo S512x2176 x2 broadcasts_S1x2176_S512x2176 (ix2 p q))
      (broadcastTo S512x2176 x3 broadcasts_S1x2176_S512x2176 (ix2 p q) *
        (x0 (ix2 p q) * broadcastTo S512x2176 x1 broadcasts_S1x2176_S512x2176 (ix2 p q)
          + broadcastTo S512x2176 x2 broadcasts_S1x2176_S512x2176 (ix2 p q))) = _
  rw [broadcastTo_1b_ab_apply x1, broadcastTo_1b_ab_apply x2, broadcastTo_1b_ab_apply x3]
  exact select_nonneg1 _ _

/-- The same entry when the blocks are read off whole arrays: it is entry i of the pass over those arrays as soon as
    the block's entry (p, q) is entry i of the batch-shaped arrays and column q is column i 1 of the three rows. -/
theorem prelu1_entry (Y : Cert.Lcn.SBD.Idx → EReal) (sc sh al : Cert.Lcn.SRow.Idx → EReal)
    (x0 : FVec Ideal S512x2176 .f32) (x1 x2 x3 : FVec Ideal S1x2176 .f32)
    (p : Fin 512) (q : Fin 2176) (i : Cert.Lcn.SBD.Idx)
    (h0 : x0 (ix2 p q) = Y i)
    (h1 : x1 (ix2 (0 : Fin 1) q) = sc (ix2 (0 : Fin 1) (i 1)))
    (h2 : x2 (ix2 (0 : Fin 1) q) = sh (ix2 (0 : Fin 1) (i 1)))
    (h3 : x3 (ix2 (0 : Fin 1) q) = al (ix2 (0 : Fin 1) (i 1))) :
    k1_pay1 (F := Ideal) x0 x1 x2 x3 (ix2 p q) = Cert.Lcn.affPrelu Y sc sh al i := by
  rw [prelu1_payload, h0, h1, h2, h3]
  unfold Cert.Lcn.affPrelu
  rfl

/-! ## Where each window's block sits -/

theorem zero_offsets1 : (![0, 0] : Fin 2 → Nat) = fun _ => 0 := funext fun a => by fin_cases a <;> rfl

/-- The printed index maps over the sixteen points: the batch-shaped blocks are block t of their arrays along the rows,
    the three rows are taken whole. -/
theorem block_indices1 : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) ≤ 15 ∧ win1_4.index t (1 : Fin 2) = 0 :=
  (by decide +kernel : ∀ t : Fin grid1.N, _)

/-- Every one of the sixteen row blocks is some point's. -/
theorem block_onto1 : ∀ q0 : Fin 16, ∃ t : Fin cfg1.N, win1_4.index t (0 : Fin 2) = q0.val ∧ win1_4.index t (1 : Fin 2) = 0 :=
  (by decide +kernel : ∀ q0 : Fin 16, ∃ t : Fin grid1.N, win1_4.index t (0 : Fin 2) = q0.val ∧ win1_4.index t (1 : Fin 2) = 0)

/-! ## What a point writes back -/

/-- What point t writes back is block t of the pass's whole-array result. -/
theorem flushed1_eq (c : Dev nD) (t : Fin cfg1.N) :
    (dat1 (F := Ideal) V c).flushed 4 t
      = ((cfg1.win 4).blk t).view.read (Elt Ideal) (Cert.Lcn.affPrelu (V c main_v36) (V c main_v56) (V c main_v59) (V c main_v35)) := by
  show (cfg1.win 4).cut (grid1.coords t) ((dat1 (F := Ideal) V c).after 4 t) = _
  rw [after1_4]
  unfold out1_4
  rw [View.canon_unit_zero zero_offsets1]
  simp only [View.ld_unit_zero (S := S512x2176) zero_offsets1, View.ld_unit_zero (S := S1x2176) zero_offsets1]
  obtain ⟨e0, e1, e2, e3, e4, e5, e6, e7, e8, e9⟩ := block_indices1 t
  funext j
  obtain ⟨p, q, rfl⟩ : ∃ (p : Fin 512) (q : Fin 2176), j = ix2 p q := ⟨j 0, j 1, eq_ix2 j⟩
  have hq : (((cfg1.win 4).blk t).view.emb (ix2 p q)) 1 = q := by
    apply Fin.ext
    show win1_4.index t (1 : Fin 2) * 2176 + 1 * q.val = q.val
    omega
  refine prelu1_entry (V c main_v36) (V c main_v56) (V c main_v59) (V c main_v35) (iblk1 V c 0 t) (iblk1 V c 1 t) (iblk1 V c 2 t) (iblk1 V c 3 t) p q
    (((cfg1.win 4).blk t).view.emb (ix2 p q)) ?_ ?_ ?_ ?_
  · show V c main_v36 (((cfg1.win 0).blk t).view.emb (ix2 p q)) = V c main_v36 (((cfg1.win 4).blk t).view.emb (ix2 p q))
    refine congrArg _ (funext fun a => Fin.ext ?_)
    match a with
    | ⟨0, _⟩ => show win1_0.index t (0 : Fin 2) * 512 + 1 * p.val = win1_4.index t (0 : Fin 2) * 512 + 1 * p.val; omega
    | ⟨1, _⟩ => show win1_0.index t (1 : Fin 2) * 2176 + 1 * q.val = win1_4.index t (1 : Fin 2) * 2176 + 1 * q.val; omega
  · rw [hq]
    show V c main_v56 (((cfg1.win 1).blk t).view.emb (ix2 (0 : Fin 1) q)) = V c main_v56 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 2176 + 1 * q.val = q.val; omega
  · rw [hq]
    show V c main_v59 (((cfg1.win 2).blk t).view.emb (ix2 (0 : Fin 1) q)) = V c main_v59 (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 2176 + 1 * q.val = q.val; omega
  · rw [hq]
    show V c main_v35 (((cfg1.win 3).blk t).view.emb (ix2 (0 : Fin 1) q)) = V c main_v35 (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 2176 + 1 * q.val = q.val; omega

/-! ## The sixteen blocks cover the result array -/

/-- An index of the result array is in point t's block iff each coordinate is in the block's range on its axis. -/
theorem mem_block1 (t : Fin cfg1.N) (i : S8192x2176.Idx) :
    i ∈ ((cfg1.win 4).blk t).view.set
      ↔ ∀ a : Fin 2, win1_4.index t a * S512x2176.size a ≤ (i a).val
          ∧ (i a).val < win1_4.index t a * S512x2176.size a + S512x2176.size a := by
  show i ∈ ((View.whole main_v60).slice (win1_4.rect t)).set ↔ _
  rw [View.set_slice_whole, Rect.mem_set_unit]
  exact Iff.rfl

/-- Row r of the result array is in the block of the point whose block index is r / 512. -/
theorem covered1 (i : S8192x2176.Idx) :
    ∃ t : Fin cfg1.N, (cfg1.win 4).flush t = true ∧ i ∈ ((cfg1.win 4).blk t).view.set := by
  have hi0 : (i 0).val < 8192 := (i 0).isLt
  have hi1 : (i 1).val < 2176 := (i 1).isLt
  obtain ⟨t, q0, q1⟩ := block_onto1 ⟨(i 0).val / 512, by omega⟩
  have q0' : win1_4.index t (0 : Fin 2) = (i 0).val / 512 := q0
  refine ⟨t, flush1_4 t, ?_⟩
  rw [mem_block1]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 2176 ≤ (i 1).val ∧ (i 1).val < win1_4.index t (1 : Fin 2) * 2176 + 2176; omega

/-! ## The result array after the pass -/

/-- After the sixteen write-backs the result array holds the pass over the arrays the region was entered with. -/
theorem final1 (c : Dev nD) :
    (dat1 (F := Ideal) V c).arrAt 4 cfg1.N = Cert.Lcn.affPrelu (V c main_v36) (V c main_v56) (V c main_v59) (V c main_v35) :=
  (dat1 (F := Ideal) V c).arrAt_eq_of_cover 4 (Cert.Lcn.affPrelu (V c main_v36) (V c main_v56) (V c main_v59) (V c main_v35))
    (fun t _ => flushed1_eq V c t) covered1

end Cert.KernelIdeal.RegionValue

end
-- ==== Proof.Region2.lean ====
/-
  The second dense pass, read off its frame: the result array after the sixteen row blocks have been written back
  is the batch times the weights plus the bias row, entry by entry.
-/
import proofs.«123252_j59356448030849_1_alg».proof.Proof.Gen.KernelIdeal.Frame
import proofs.«123252_j59356448030849_1_alg».proof.Proof.RegionSpec
import proofs.«123252_j59356448030849_1_alg».proof.Proof.LibDenseLayer
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's arithmetic at one entry of a block -/

/-- Entry (p, q) of what the body stores for a block of 512 rows: row p of the block against column q of the weights,
    plus the bias at q. The change of format of the block is the identity on extended reals, the casts to the same
    shape change nothing, and the product into a zero accumulator is the plain sum of products. -/
theorem dense2_payload (x0 : FVec Ideal S512x2176 .f32) (x1 : FVec Ideal S2176x2176 .bf16) (x2 : FVec Ideal S1x2176 .f32)
    (p : Fin 512) (q : Fin 2176) :
    k2_pay1 (F := Ideal) x0 x1 x2 (ix2 p q) = (∑ n : Fin 2176, x0 (ix2 p n) * x1 (ix2 n q)) + x2 (ix2 (0 : Fin 1) q) := by
  unfold k2_pay1
  show addf (matmul (F := Ideal) dot_S512x2176_S2176x2176_S512x2176_1_0_0_1_n_n none
      (truncf .bf16 (shapeCast S512x2176 x0 shapeCasts_S512x2176_S512x2176) bitsLt_bf16_f32)
      (shapeCast S2176x2176 x1 shapeCasts_S2176x2176_S2176x2176) (constant S512x2176 .f32 0x00000000#32))
      (broadcastTo S512x2176 (shapeCast S1x2176 x2 shapeCasts_S1x2176_S1x2176) broadcasts_S1x2176_S512x2176) (ix2 p q) = _
  rw [shapeCast_self, shapeCast_self, shapeCast_self]
  exact DenseLayer.affine_apply dot_S512x2176_S2176x2176_S512x2176_1_0_0_1_n_n.wf x0 x1 x2 broadcasts_S1x2176_S512x2176 p q

/-- The same entry when the three blocks are read off whole arrays X, WT, b: it is entry i of the dense pass of those
    arrays as soon as the block's row p is row i 0 of X and column q is column i 1 of WT and of b. -/
theorem dense2_entry (X : Cert.Lcn.SBD.Idx → EReal) (WT : Cert.Lcn.SDD.Idx → EReal) (b : Cert.Lcn.SRow.Idx → EReal)
    (x0 : FVec Ideal S512x2176 .f32) (x1 : FVec Ideal S2176x2176 .bf16) (x2 : FVec Ideal S1x2176 .f32)
    (p : Fin 512) (q : Fin 2176) (i : Cert.Lcn.SBD.Idx)
    (h0 : ∀ n : Fin 2176, x0 (ix2 p n) = X (ix2 (i 0) n))
    (h1 : ∀ n : Fin 2176, x1 (ix2 n q) = WT (ix2 n (i 1)))
    (h2 : x2 (ix2 (0 : Fin 1) q) = b (ix2 (0 : Fin 1) (i 1))) :
    k2_pay1 (F := Ideal) x0 x1 x2 (ix2 p q) = Cert.Lcn.denseRow X WT b i := by
  rw [dense2_payload, h2]
  unfold Cert.Lcn.denseRow
  exact congrArg (· + b (ix2 (0 : Fin 1) (i 1))) (Finset.sum_congr rfl fun n _ => by rw [h0 n, h1 n])

/-! ## Where each window's block sits -/

theorem zero_offsets2 : (![0, 0] : Fin 2 → Nat) = fun _ => 0 := funext fun a => by fin_cases a <;> rfl

/-- The printed index maps over the sixteen points: the batch's block and the result's block are block t of their arrays
    along the rows, the weights and the bias are taken whole. -/
theorem block_indices2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 15 ∧ win2_3.index t (1 : Fin 2) = 0 :=
  (by decide +kernel : ∀ t : Fin grid2.N, _)

/-- Every one of the sixteen row blocks is some point's. -/
theorem block_onto2 : ∀ q0 : Fin 16, ∃ t : Fin cfg2.N, win2_3.index t (0 : Fin 2) = q0.val ∧ win2_3.index t (1 : Fin 2) = 0 :=
  (by decide +kernel : ∀ q0 : Fin 16, ∃ t : Fin grid2.N, win2_3.index t (0 : Fin 2) = q0.val ∧ win2_3.index t (1 : Fin 2) = 0)

/-! ## What a point writes back -/

/-- What point t writes back is block t of the dense pass's whole-array result. -/
theorem flushed2_eq (c : Dev nD) (t : Fin cfg2.N) :
    (dat2 (F := Ideal) V c).flushed 3 t
      = ((cfg2.win 3).blk t).view.read (Elt Ideal) (Cert.Lcn.denseRow (V c main_v60) (V c main_v31) (V c main_v33)) := by
  show (cfg2.win 3).cut (grid2.coords t) ((dat2 (F := Ideal) V c).after 3 t) = _
  rw [after2_3]
  unfold out2_3
  rw [View.canon_unit_zero zero_offsets2]
  simp only [View.ld_unit_zero (S := S512x2176) zero_offsets2, View.ld_unit_zero (S := S2176x2176) zero_offsets2,
    View.ld_unit_zero (S := S1x2176) zero_offsets2]
  obtain ⟨e0, e1, e2, e3, e4, e5, e6, e7⟩ := block_indices2 t
  funext j
  obtain ⟨p, q, rfl⟩ : ∃ (p : Fin 512) (q : Fin 2176), j = ix2 p q := ⟨j 0, j 1, eq_ix2 j⟩
  have hq : (((cfg2.win 3).blk t).view.emb (ix2 p q)) 1 = q := by
    apply Fin.ext
    show win2_3.index t (1 : Fin 2) * 2176 + 1 * q.val = q.val
    omega
  refine dense2_entry (V c main_v60) (V c main_v31) (V c main_v33) (iblk2 V c 0 t) (iblk2 V c 1 t) (iblk2 V c 2 t) p q
    (((cfg2.win 3).blk t).view.emb (ix2 p q)) (fun n => ?_) (fun n => ?_) ?_
  · show V c main_v60 (((cfg2.win 0).blk t).view.emb (ix2 p n)) = V c main_v60 (ix2 ((((cfg2.win 3).blk t).view.emb (ix2 p q)) 0) n)
    refine congrArg _ (funext fun a => Fin.ext ?_)
    match a with
    | ⟨0, _⟩ => show win2_0.index t (0 : Fin 2) * 512 + 1 * p.val = win2_3.index t (0 : Fin 2) * 512 + 1 * p.val; omega
    | ⟨1, _⟩ => show win2_0.index t (1 : Fin 2) * 2176 + 1 * n.val = n.val; omega
  · rw [hq]
    show V c main_v31 (((cfg2.win 1).blk t).view.emb (ix2 n q)) = V c main_v31 (ix2 n q)
    refine congrArg _ (funext fun a => Fin.ext ?_)
    match a with
    | ⟨0, _⟩ => show win2_1.index t (0 : Fin 2) * 2176 + 1 * n.val = n.val; omega
    | ⟨1, _⟩ => show win2_1.index t (1 : Fin 2) * 2176 + 1 * q.val = q.val; omega
  · rw [hq]
    show V c main_v33 (((cfg2.win 2).blk t).view.emb (ix2 (0 : Fin 1) q)) = V c main_v33 (ix2 (0 : Fin 1) q)
    refine congrArg _ (funext fun a => Fin.ext ?_)
    match a with
    | ⟨0, _⟩ => show win2_2.index t (0 : Fin 2) * 1 + 1 * 0 = 0; omega
    | ⟨1, _⟩ => show win2_2.index t (1 : Fin 2) * 2176 + 1 * q.val = q.val; omega

/-! ## The sixteen blocks cover the result array -/

/-- An index of the result array is in point t's block iff each coordinate is in the block's range on its axis. -/
theorem mem_block2 (t : Fin cfg2.N) (i : S8192x2176.Idx) :
    i ∈ ((cfg2.win 3).blk t).view.set
      ↔ ∀ a : Fin 2, win2_3.index t a * S512x2176.size a ≤ (i a).val
          ∧ (i a).val < win2_3.index t a * S512x2176.size a + S512x2176.size a := by
  show i ∈ ((View.whole main_v61).slice (win2_3.rect t)).set ↔ _
  rw [View.set_slice_whole, Rect.mem_set_unit]
  exact Iff.rfl

/-- Row r of the result array is in the block of the point whose block index is r / 512. -/
theorem covered2 (i : S8192x2176.Idx) :
    ∃ t : Fin cfg2.N, (cfg2.win 3).flush t = true ∧ i ∈ ((cfg2.win 3).blk t).view.set := by
  have hi0 : (i 0).val < 8192 := (i 0).isLt
  have hi1 : (i 1).val < 2176 := (i 1).isLt
  obtain ⟨t, q0, q1⟩ := block_onto2 ⟨(i 0).val / 512, by omega⟩
  have q0' : win2_3.index t (0 : Fin 2) = (i 0).val / 512 := q0
  refine ⟨t, flush2_3 t, ?_⟩
  rw [mem_block2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 2176 ≤ (i 1).val ∧ (i 1).val < win2_3.index t (1 : Fin 2) * 2176 + 2176; omega

/-! ## The result array after the pass -/

/-- After the sixteen write-backs the result array holds the dense pass of the arrays the region was entered with. -/
theorem final2 (c : Dev nD) :
    (dat2 (F := Ideal) V c).arrAt 3 cfg2.N = Cert.Lcn.denseRow (V c main_v60) (V c main_v31) (V c main_v33) :=
  (dat2 (F := Ideal) V c).arrAt_eq_of_cover 3 (Cert.Lcn.denseRow (V c main_v60) (V c main_v31) (V c main_v33))
    (fun t _ => flushed2_eq V c t) covered2

end Cert.KernelIdeal.RegionValue

end
-- ==== Proof.Region3.lean ====
/-
  The second normalising pass, read off its frame: the result array after the sixteen row blocks have been written
  back is, entry by entry, the affine map per column followed by the parametric rectifier, added to the network's input.
-/
import proofs.«123252_j59356448030849_1_alg».proof.Proof.Gen.KernelIdeal.Frame
import proofs.«123252_j59356448030849_1_alg».proof.Proof.RegionSpec
import Idealize.ShloMosaic.Lib.ValueLayout
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's arithmetic at one entry of a block -/

/-- Choosing z where the comparison "z is at least the zero constant" holds and a · z elsewhere is the parametric
    rectifier: over the extended reals the comparison is the order's, and the zero word encodes 0. -/
theorem select_nonneg3 (a z : EReal) :
    Scalar.select (FloatOps.cmpf (F := Ideal) (φ := .f32) .oge z (Scalar.ofBits (F := Ideal) .f32 0x00000000#32)) z (a * z)
      = Cert.Lcn.prelu a z := by
  show (if BitVec.ofBool (decide (Ideal.ofBits .f32 0x00000000#32 ≤ z)) = 1 then z else a * z) = if 0 ≤ z then z else a * z
  rw [Ideal.ofBits_zero_f32]
  by_cases h : (0 : EReal) ≤ z
  · rw [if_pos h, decide_eq_true h]; exact if_pos rfl
  · rw [if_neg h, decide_eq_false h]; exact if_neg (by decide)

/-- Entry (p, q) of what the body stores for a block of 512 rows: with z the block's entry times the scale at q plus
    the shift at q, the rectifier of z with slope the alpha at q, added to the other block's entry. The three rows are laid along every row of
    the block, and the casts to the same shape change nothing. -/
theorem prelu3_payload (x0 : FVec Ideal S512x2176 .f32) (x1 x2 x3 : FVec Ideal S1x2176 .f32) (x4 : FVec Ideal S512x2176 .f32)
    (p : Fin 512) (q : Fin 2176) :
    k3_pay1 (F := Ideal) x0 x1 x2 x3 x4 (ix2 p q)
      = x4 (ix2 p q) + Cert.Lcn.prelu (x3 (ix2 (0 : Fin 1) q)) (x0 (ix2 p q) * x1 (ix2 (0 : Fin 1) q) + x2 (ix2 (0 : Fin 1) q)) := by
  unfold k3_pay1
  simp only [shapeCast_self]
  show x4 (ix2 p q) + Scalar.select (FloatOps.cmpf .oge
        (x0 (ix2 p q) * broadcastTo S512x2176 x1 broadcasts_S1x2176_S512x2176 (ix2 p q)
          + broadcastTo S512x2176 x2 broadcasts_S1x2176_S512x2176 (ix2 p q))
        (Scalar.ofBits (F := Ideal) .f32 0x00000000#32))
      (x0 (ix2 p q) * broadcastTo S512x2176 x1 broadcasts_S1x2176_S512x2176 (ix2 p q)
          + broadcastTo S512x2176 x2 broadcasts_S1x2176_S512x2176 (ix2 p q))
      (broadcastTo S512x2176 x3 broadcasts_S1x2176_S512x2176 (ix2 p q) *
        (x0 (ix2 p q) * broadcastTo S512x2176 x1 broadcasts_S1x2176_S512x2176 (ix2 p q)
          + broadcastTo S512x2176 x2 broadcasts_S1x2176_S512x2176 (ix2 p q))) = _
  rw [broadcastTo_1b_ab_apply x1, broadcastTo_1b_ab_apply x2, broadcastTo_1b_ab_apply x3]
  exact congrArg (x4 (ix2 p q) + ·) (select_nonneg3 _ _)

/-- The same entry when the blocks are read off whole arrays: it is entry i of the pass over those arrays as soon as
    the block's entry (p, q) is entry i of the batch-shaped arrays and column q is column i 1 of the three rows. -/
theorem prelu3_entry (Y : Cert.Lcn.SBD.Idx → EReal) (sc sh al : Cert.Lcn.SRow.Idx → EReal) (X : Cert.Lcn.SBD.Idx → EReal)
    (x0 : FVec Ideal S512x2176 .f32) (x1 x2 x3 : FVec Ideal S1x2176 .f32) (x4 : FVec Ideal S512x2176 .f32)
    (p : Fin 512) (q : Fin 2176) (i : Cert.Lcn.SBD.Idx)
    (h0 : x0 (ix2 p q) = Y i)
    (h1 : x1 (ix2 (0 : Fin 1) q) = sc (ix2 (0 : Fin 1) (i 1)))
    (h2 : x2 (ix2 (0 : Fin 1) q) = sh (ix2 (0 : Fin 1) (i 1)))
    (h3 : x3 (ix2 (0 : Fin 1) q) = al (ix2 (0 : Fin 1) (i 1)))
    (h4 : x4 (ix2 p q) = X i) :
    k3_pay1 (F := Ideal) x0 x1 x2 x3 x4 (ix2 p q) = Cert.Lcn.affPreluRes Y sc sh al X i := by
  rw [prelu3_payload, h0, h1, h2, h3, h4]
  unfold Cert.Lcn.affPreluRes Cert.Lcn.affPrelu
  rfl

/-! ## Where each window's block sits -/

theorem zero_offsets3 : (![0, 0] : Fin 2 → Nat) = fun _ => 0 := funext fun a => by fin_cases a <;> rfl

/-- The printed index maps over the sixteen points: the batch-shaped blocks are block t of their arrays along the rows,
    the three rows are taken whole. -/
theorem block_indices3 : ∀ t : Fin cfg3.N,
    win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = win3_5.index t (0 : Fin 2) ∧ win3_4.index t (1 : Fin 2) = 0
    ∧ win3_5.index t (0 : Fin 2) ≤ 15 ∧ win3_5.index t (1 : Fin 2) = 0 :=
  (by decide +kernel : ∀ t : Fin grid3.N, _)

/-- Every one of the sixteen row blocks is some point's. -/
theorem block_onto3 : ∀ q0 : Fin 16, ∃ t : Fin cfg3.N, win3_5.index t (0 : Fin 2) = q0.val ∧ win3_5.index t (1 : Fin 2) = 0 :=
  (by decide +kernel : ∀ q0 : Fin 16, ∃ t : Fin grid3.N, win3_5.index t (0 : Fin 2) = q0.val ∧ win3_5.index t (1 : Fin 2) = 0)

/-! ## What a point writes back -/

/-- What point t writes back is block t of the pass's whole-array result. -/
theorem flushed3_eq (c : Dev nD) (t : Fin cfg3.N) :
    (dat3 (F := Ideal) V c).flushed 5 t
      = ((cfg3.win 5).blk t).view.read (Elt Ideal) (Cert.Lcn.affPreluRes (V c main_v61) (V c main_v81) (V c main_v84) (V c main_v35) (V c main_arg0)) := by
  show (cfg3.win 5).cut (grid3.coords t) ((dat3 (F := Ideal) V c).after 5 t) = _
  rw [after3_5]
  unfold out3_5
  rw [View.canon_unit_zero zero_offsets3]
  simp only [View.ld_unit_zero (S := S512x2176) zero_offsets3, View.ld_unit_zero (S := S1x2176) zero_offsets3]
  obtain ⟨e0, e1, e2, e3, e4, e5, e6, e7, e8, e9, e10, e11⟩ := block_indices3 t
  funext j
  obtain ⟨p, q, rfl⟩ : ∃ (p : Fin 512) (q : Fin 2176), j = ix2 p q := ⟨j 0, j 1, eq_ix2 j⟩
  have hq : (((cfg3.win 5).blk t).view.emb (ix2 p q)) 1 = q := by
    apply Fin.ext
    show win3_5.index t (1 : Fin 2) * 2176 + 1 * q.val = q.val
    omega
  refine prelu3_entry (V c main_v61) (V c main_v81) (V c main_v84) (V c main_v35) (V c main_arg0) (iblk3 V c 0 t) (iblk3 V c 1 t) (iblk3 V c 2 t) (iblk3 V c 3 t) (iblk3 V c 4 t) p q
    (((cfg3.win 5).blk t).view.emb (ix2 p q)) ?_ ?_ ?_ ?_ ?_
  · show V c main_v61 (((cfg3.win 0).blk t).view.emb (ix2 p q)) = V c main_v61 (((cfg3.win 5).blk t).view.emb (ix2 p q))
    refine congrArg _ (funext fun a => Fin.ext ?_)
    match a with
    | ⟨0, _⟩ => show win3_0.index t (0 : Fin 2) * 512 + 1 * p.val = win3_5.index t (0 : Fin 2) * 512 + 1 * p.val; omega
    | ⟨1, _⟩ => show win3_0.index t (1 : Fin 2) * 2176 + 1 * q.val = win3_5.index t (1 : Fin 2) * 2176 + 1 * q.val; omega
  · rw [hq]
    show V c main_v81 (((cfg3.win 1).blk t).view.emb (ix2 (0 : Fin 1) q)) = V c main_v81 (ix2 (0 : Fin 1) q)
    refine congrArg _ (funext fun a => Fin.ext ?_)
    match a with
    | ⟨0, _⟩ => show win3_1.index t (0 : Fin 2) * 1 + 1 * 0 = 0; omega
    | ⟨1, _⟩ => show win3_1.index t (1 : Fin 2) * 2176 + 1 * q.val = q.val; omega
  · rw [hq]
    show V c main_v84 (((cfg3.win 2).blk t).view.emb (ix2 (0 : Fin 1) q)) = V c main_v84 (ix2 (0 : Fin 1) q)
    refine congrArg _ (funext fun a => Fin.ext ?_)
    match a with
    | ⟨0, _⟩ => show win3_2.index t (0 : Fin 2) * 1 + 1 * 0 = 0; omega
    | ⟨1, _⟩ => show win3_2.index t (1 : Fin 2) * 2176 + 1 * q.val = q.val; omega
  · rw [hq]
    show V c main_v35 (((cfg3.win 3).blk t).view.emb (ix2 (0 : Fin 1) q)) = V c main_v35 (ix2 (0 : Fin 1) q)
    refine congrArg _ (funext fun a => Fin.ext ?_)
    match a with
    | ⟨0, _⟩ => show win3_3.index t (0 : Fin 2) * 1 + 1 * 0 = 0; omega
    | ⟨1, _⟩ => show win3_3.index t (1 : Fin 2) * 2176 + 1 * q.val = q.val; omega
  · show V c main_arg0 (((cfg3.win 4).blk t).view.emb (ix2 p q)) = V c main_arg0 (((cfg3.win 5).blk t).view.emb (ix2 p q))
    refine congrArg _ (funext fun a => Fin.ext ?_)
    match a with
    | ⟨0, _⟩ => show win3_4.index t (0 : Fin 2) * 512 + 1 * p.val = win3_5.index t (0 : Fin 2) * 512 + 1 * p.val; omega
    | ⟨1, _⟩ => show win3_4.index t (1 : Fin 2) * 2176 + 1 * q.val = win3_5.index t (1 : Fin 2) * 2176 + 1 * q.val; omega

/-! ## The sixteen blocks cover the result array -/

/-- An index of the result array is in point t's block iff each coordinate is in the block's range on its axis. -/
theorem mem_block3 (t : Fin cfg3.N) (i : S8192x2176.Idx) :
    i ∈ ((cfg3.win 5).blk t).view.set
      ↔ ∀ a : Fin 2, win3_5.index t a * S512x2176.size a ≤ (i a).val
          ∧ (i a).val < win3_5.index t a * S512x2176.size a + S512x2176.size a := by
  show i ∈ ((View.whole main_v85).slice (win3_5.rect t)).set ↔ _
  rw [View.set_slice_whole, Rect.mem_set_unit]
  exact Iff.rfl

/-- Row r of the result array is in the block of the point whose block index is r / 512. -/
theorem covered3 (i : S8192x2176.Idx) :
    ∃ t : Fin cfg3.N, (cfg3.win 5).flush t = true ∧ i ∈ ((cfg3.win 5).blk t).view.set := by
  have hi0 : (i 0).val < 8192 := (i 0).isLt
  have hi1 : (i 1).val < 2176 := (i 1).isLt
  obtain ⟨t, q0, q1⟩ := block_onto3 ⟨(i 0).val / 512, by omega⟩
  have q0' : win3_5.index t (0 : Fin 2) = (i 0).val / 512 := q0
  refine ⟨t, flush3_5 t, ?_⟩
  rw [mem_block3]
  intro a
  match a with
  | ⟨0, _⟩ => show win3_5.index t (0 : Fin 2) * 512 ≤ (i 0).val ∧ (i 0).val < win3_5.index t (0 : Fin 2) * 512 + 512; omega
  | ⟨1, _⟩ => show win3_5.index t (1 : Fin 2) * 2176 ≤ (i 1).val ∧ (i 1).val < win3_5.index t (1 : Fin 2) * 2176 + 2176; omega

/-! ## The result array after the pass -/

/-- After the sixteen write-backs the result array holds the pass over the arrays the region was entered with. -/
theorem final3 (c : Dev nD) :
    (dat3 (F := Ideal) V c).arrAt 5 cfg3.N = Cert.Lcn.affPreluRes (V c main_v61) (V c main_v81) (V c main_v84) (V c main_v35) (V c main_arg0) :=
  (dat3 (F := Ideal) V c).arrAt_eq_of_cover 5 (Cert.Lcn.affPreluRes (V c main_v61) (V c main_v81) (V c main_v84) (V c main_v35) (V c main_arg0))
    (fun t _ => flushed3_eq V c t) covered3

end Cert.KernelIdeal.RegionValue

end
-- ==== Proof.Spec.lean ====
/-
  The network both programs compute, and the one law that joins their two arrangements of it.

  A layer takes the batch Y (8192 rows of 2176 = 17 · 128 numbers; column q belongs to group q / 128) and, per group j,
  the mean  mu j  of the group's 8192 · 128 entries, the mean  var j  of their squared deviations from it and
  s j = sqrt (var j + eps).  One arrangement normalises entry by entry,  ((y - mu j) / s j) * g j + beta j ; the other
  first folds the statistics into a scale  g j / s j  and a shift  beta j - mu j * (g j / s j)  per group and then applies
  y * scale + shift.  On the reals, with s j ≠ 0, these agree (distributivity); on the extended reals that needs every
  quantity finite, which is why finiteness of the batch is carried from layer to layer.  s j > 0 because a mean of squares
  of reals is a nonnegative real and eps > 0.
-/
import proofs.«123252_j59356448030849_1_alg».proof.Proof.RegionSpec
import Idealize.ShloMosaic.Lib.Pipeline.Value

noncomputable section

open scoped BigOperators

namespace Cert.Lcn

open Idealize.ShloMosaic Idealize.ShloMosaic.ValueIdx

/-- One number per group. -/
abbrev SJ : Shape := ⟨1, ![17]⟩
/-- One number per column. -/
abbrev SV : Shape := ⟨1, ![2176]⟩
/-- The batch with its columns split into 17 groups of 128. -/
abbrev S3 : Shape := ⟨3, ![8192, 17, 128]⟩

theorem hview : SBD.ShapeCasts S3 := by decide
theorem hred : S3.ReducesTo [0, 2] SJ := by decide

/-- The batch seen with its columns grouped (same numbers, row-major). -/
def view3 (Y : SBD.Idx → EReal) : S3.Idx → EReal := shapeCast S3 Y hview

/-- Per group, the sum over rows and over the group's columns. -/
def jsum (Z : S3.Idx → EReal) : SJ.Idx → EReal := Ideal.hostReduceAdd hred Z 0

/-- The number of entries of a group, 8192 · 128 = 2^20, as the programs spell it. -/
def cnt : EReal := Ideal.ofBits .f32 0x49800000#32
/-- The variance's offset, as the programs spell it. -/
def epsv : EReal := Ideal.ofBits .f32 0x3727C5AC#32

/-- The group means. -/
def mean (Y : SBD.Idx → EReal) : SJ.Idx → EReal := fun j => Ideal.div (jsum (view3 Y) j) cnt
/-- Each entry's deviation from its group's mean. -/
def dev (Y : SBD.Idx → EReal) : S3.Idx → EReal := fun i => view3 Y i - mean Y (ix1 (i 1))
/-- The group variances (means of squared deviations). -/
def var (Y : SBD.Idx → EReal) : SJ.Idx → EReal := fun j => Ideal.div (jsum (fun i => dev Y i * dev Y i) j) cnt
/-- The group scales' denominators. -/
def sd (Y : SBD.Idx → EReal) : SJ.Idx → EReal := fun j => Ideal.sqrt (var Y j + epsv)

/-- The group of a column. -/
def jointOf (q : Fin 2176) : Fin 17 := ⟨q.val / 128, by have := q.isLt; omega⟩

/-- The folded scale per group. -/
def kscale (Y : SBD.Idx → EReal) (g : SJ.Idx → EReal) : SJ.Idx → EReal := fun j => Ideal.div (g j) (sd Y j)
/-- The folded shift per group. -/
def kshift (Y : SBD.Idx → EReal) (g β : SJ.Idx → EReal) : SJ.Idx → EReal := fun j => β j - mean Y j * kscale Y g j
/-- A per-group quantity laid out as one row over the columns. -/
def rowOf (v : SJ.Idx → EReal) : SRow.Idx → EReal := fun i => v (ix1 (jointOf (i 1)))

/-- Normalisation entry by entry. -/
def bnRef (Y : SBD.Idx → EReal) (g β : SJ.Idx → EReal) : SBD.Idx → EReal := fun i =>
  Ideal.div (Y i - mean Y (ix1 (jointOf (i 1)))) (sd Y (ix1 (jointOf (i 1)))) * g (ix1 (jointOf (i 1))) + β (ix1 (jointOf (i 1)))
/-- A normalised and rectified layer. -/
def layerR (Y : SBD.Idx → EReal) (g β : SJ.Idx → EReal) (a : EReal) : SBD.Idx → EReal := fun i => prelu a (bnRef Y g β i)
/-- The dense pass with its bias a vector. -/
def denseVec (X : SBD.Idx → EReal) (WT : SDD.Idx → EReal) (b : SV.Idx → EReal) : SBD.Idx → EReal :=
  fun i => (∑ n : Fin 2176, X (ix2 (i 0) n) * WT (ix2 n (i 1))) + b (ix1 (i 1))
/-- The whole network. -/
def net (X : SBD.Idx → EReal) (WT1 : SDD.Idx → EReal) (b1 : SV.Idx → EReal) (g1 β1 : SJ.Idx → EReal)
    (WT2 : SDD.Idx → EReal) (b2 : SV.Idx → EReal) (g2 β2 : SJ.Idx → EReal) (a : EReal) : SBD.Idx → EReal :=
  fun i => X i + layerR (denseVec (layerR (denseVec X WT1 b1) g1 β1 a) WT2 b2) g2 β2 a i

/-! ## Real-valued extended reals -/

/-- An extended real that is a real number. -/
def IsReal (v : EReal) : Prop := ∃ r : ℝ, v = (r : EReal)

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.zero : IsReal 0 := ⟨0, rfl⟩

/-- A finite sum of reals is a real. -/
theorem IsReal.sum {ι : Type} (S : Finset ι) (f : ι → EReal) (h : ∀ i ∈ S, IsReal (f i)) : IsReal (∑ i ∈ S, f i) := by
  classical
  induction S using Finset.induction_on with
  | empty => exact ⟨0, by simp⟩
  | insert a S ha ih =>
    rw [Finset.sum_insert ha]
    exact (h a (Finset.mem_insert_self a S)).add (ih fun i hi => h i (Finset.mem_insert_of_mem hi))

/-- A finite sum of nonnegative reals is a nonnegative real. -/
theorem sum_real_nonneg {ι : Type} (S : Finset ι) (f : ι → EReal) (h : ∀ i ∈ S, ∃ r : ℝ, 0 ≤ r ∧ f i = (r : EReal)) :
    ∃ r : ℝ, 0 ≤ r ∧ ∑ i ∈ S, f i = (r : EReal) := by
  classical
  induction S using Finset.induction_on with
  | empty => exact ⟨0, le_refl _, by simp⟩
  | insert a S ha ih =>
    obtain ⟨x, hx, ex⟩ := h a (Finset.mem_insert_self a S)
    obtain ⟨y, hy, ey⟩ := ih fun i hi => h i (Finset.mem_insert_of_mem hi)
    exact ⟨x + y, add_nonneg hx hy, by rw [Finset.sum_insert ha, ex, ey, EReal.coe_add]⟩

/-! ## The two literals -/

theorem cnt_eq : cnt = ((1048576 : ℝ) : EReal) := by
  unfold cnt; simp [Ideal.ofBits, Ideal.ieee, -EReal.coe_mul]; norm_num

theorem epsv_pos : ∃ e : ℝ, 0 < e ∧ epsv = (e : EReal) := by
  refine ⟨10995116 * (2 : ℝ) ^ (-40 : ℤ), by positivity, ?_⟩
  unfold epsv; simp [Ideal.ofBits, Ideal.ieee, -EReal.coe_mul]

/-! ## The law, on scalars -/

/-- Folding the statistics into a scale and a shift changes nothing, for reals with a nonzero denominator. -/
theorem affine_law (y mu s g b : ℝ) (hs : s ≠ 0) :
    (y : EReal) * Ideal.div (g : EReal) (s : EReal) + ((b : EReal) - (mu : EReal) * Ideal.div (g : EReal) (s : EReal))
      = Ideal.div ((y : EReal) - (mu : EReal)) (s : EReal) * (g : EReal) + (b : EReal) := by
  rw [Ideal.div_coe hs, Ideal.div_coe hs]
  norm_cast
  ring

/-- The normalised entry is a real, for reals with a nonzero denominator. -/
theorem affine_real (y mu s g b : ℝ) (hs : s ≠ 0) :
    IsReal (Ideal.div ((y : EReal) - (mu : EReal)) (s : EReal) * (g : EReal) + (b : EReal)) := by
  rw [Ideal.div_coe hs]
  exact ⟨(y - mu) * (1 / s) * g + b, by norm_cast⟩

/-- The square root of a positive real is a positive real. -/
theorem sqrt_pos_real (r : ℝ) (hr : 0 < r) : ∃ s : ℝ, 0 < s ∧ Ideal.sqrt (r : EReal) = (s : EReal) :=
  ⟨Real.sqrt r, Real.sqrt_pos.mpr hr, by
    show (if r < 0 then (⊥ : EReal) else (Real.sqrt r : EReal)) = _
    rw [if_neg (not_lt.mpr hr.le)]⟩

/-! ## The statistics of a real batch -/

section
variable (Y : SBD.Idx → EReal) (hY : ∀ i, IsReal (Y i))
include hY

theorem view3_real (i : S3.Idx) : IsReal (view3 Y i) := by
  unfold view3 shapeCast; exact hY _

theorem div_cnt_real {v : EReal} (h : IsReal v) : IsReal (Ideal.div v cnt) := by
  rw [cnt_eq, Ideal.div_coe (by norm_num)]; exact h.mul ⟨_, rfl⟩

theorem jsum_real (Z : S3.Idx → EReal) (h : ∀ i, IsReal (Z i)) (j : SJ.Idx) : IsReal (jsum Z j) := by
  unfold jsum Ideal.hostReduceAdd; exact IsReal.zero.add (IsReal.sum _ _ fun i _ => h i)

theorem mean_real (j : SJ.Idx) : IsReal (mean Y j) := by
  unfold mean; exact div_cnt_real Y hY (jsum_real Y hY _ (view3_real Y hY) j)

theorem dev_real (i : S3.Idx) : IsReal (dev Y i) := by
  unfold dev; exact (view3_real Y hY i).sub (mean_real Y hY _)

/-- A variance of reals is a nonnegative real. -/
theorem var_nonneg (j : SJ.Idx) : ∃ v : ℝ, 0 ≤ v ∧ var Y j = (v : EReal) := by
  unfold var jsum Ideal.hostReduceAdd
  obtain ⟨r, hr, er⟩ := sum_real_nonneg (Finset.univ.filter fun i => hred.drop i = j) (fun i => dev Y i * dev Y i)
    (fun i _ => by obtain ⟨d, ed⟩ := dev_real Y hY i; exact ⟨d * d, mul_self_nonneg d, by rw [ed, EReal.coe_mul]⟩)
  rw [er, zero_add, cnt_eq, Ideal.div_coe (by norm_num)]
  exact ⟨r * (1 / 1048576), mul_nonneg hr (by norm_num), by norm_cast⟩

/-- The denominators are positive reals. -/
theorem sd_pos (j : SJ.Idx) : ∃ s : ℝ, 0 < s ∧ sd Y j = (s : EReal) := by
  obtain ⟨v, hv, ev⟩ := var_nonneg Y hY j
  obtain ⟨e, he, ee⟩ := epsv_pos
  unfold sd; rw [ev, ee, ← EReal.coe_add]
  exact sqrt_pos_real (v + e) (by linarith)

/-- THE LAW, per entry: the folded scale and shift applied to an entry give the entry normalised, a real. -/
theorem fold_eq (g β : SJ.Idx → EReal) (hg : ∀ j, IsReal (g j)) (hβ : ∀ j, IsReal (β j)) (i : SBD.Idx) :
    Y i * kscale Y g (ix1 (jointOf (i 1))) + kshift Y g β (ix1 (jointOf (i 1))) = bnRef Y g β i ∧ IsReal (bnRef Y g β i) := by
  obtain ⟨y, ey⟩ := hY i
  obtain ⟨mu, emu⟩ := mean_real Y hY (ix1 (jointOf (i 1)))
  obtain ⟨s, hs, es⟩ := sd_pos Y hY (ix1 (jointOf (i 1)))
  obtain ⟨gg, eg⟩ := hg (ix1 (jointOf (i 1)))
  obtain ⟨bb, eb⟩ := hβ (ix1 (jointOf (i 1)))
  unfold kshift kscale bnRef
  rw [ey, emu, es, eg, eb]
  exact ⟨affine_law y mu s gg bb hs.ne', affine_real y mu s gg bb hs.ne'⟩

end

/-! ## Layers -/

theorem prelu_real {a z : EReal} (ha : IsReal a) (hz : IsReal z) : IsReal (prelu a z) := by
  unfold prelu; split
  · exact hz
  · exact ha.mul hz

/-- The pass with folded statistics is the normalised, rectified layer, on a real batch. -/
theorem affPrelu_fold (Y : SBD.Idx → EReal) (hY : ∀ i, IsReal (Y i)) (g β : SJ.Idx → EReal) (hg : ∀ j, IsReal (g j))
    (hβ : ∀ j, IsReal (β j)) (al : SRow.Idx → EReal) (a : EReal) (hal : ∀ q : Fin 2176, al (ix2 (0 : Fin 1) q) = a) :
    affPrelu Y (rowOf (kscale Y g)) (rowOf (kshift Y g β)) al = layerR Y g β a := by
  funext i
  unfold affPrelu layerR rowOf
  have ha : al (ix2 (0 : Fin 1) (i 1)) = a := hal (i 1)
  rw [ha]
  exact congrArg (prelu a) (fold_eq Y hY g β hg hβ i).1

theorem layerR_real (Y : SBD.Idx → EReal) (hY : ∀ i, IsReal (Y i)) (g β : SJ.Idx → EReal) (hg : ∀ j, IsReal (g j))
    (hβ : ∀ j, IsReal (β j)) (a : EReal) (ha : IsReal a) (i : SBD.Idx) : IsReal (layerR Y g β a i) := by
  unfold layerR; exact prelu_real ha (fold_eq Y hY g β hg hβ i).2

theorem denseVec_real (X : SBD.Idx → EReal) (hX : ∀ i, IsReal (X i)) (WT : SDD.Idx → EReal) (hW : ∀ i, IsReal (WT i))
    (b : SV.Idx → EReal) (hb : ∀ i, IsReal (b i)) (i : SBD.Idx) : IsReal (denseVec X WT b i) := by
  unfold denseVec; exact (IsReal.sum _ _ fun n _ => (hX _).mul (hW _)).add (hb _)

/-- The dense pass with its bias laid out as a row is the dense pass with the bias a vector. -/
theorem denseRow_eq (X : SBD.Idx → EReal) (WT : SDD.Idx → EReal) (bRow : SRow.Idx → EReal) (b : SV.Idx → EReal)
    (hb : ∀ q : Fin 2176, bRow (ix2 (0 : Fin 1) q) = b (ix1 q)) : denseRow X WT bRow = denseVec X WT b := by
  funext i; unfold denseRow denseVec
  have h1 : bRow (ix2 (0 : Fin 1) (i 1)) = b (ix1 (i 1)) := hb (i 1)
  rw [h1]

end Cert.Lcn

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«123252_j59356448030849_1_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.LibHostLayer.lean ====
/-
  A dense layer on the host, read at an index.

  `x @ W + b` for a batch x of E rows of N numbers, a weight matrix W laid out [N, Q] and a bias vector b of Q numbers
  lowers to a `dot_general` contracting x's second axis with W's first, and b broadcast first to one row [1, Q] and
  then along the E rows.  Over the extended reals entry (e, q) of the result is  Σ n, x (e, n) * W (n, q) + b q.
-/
import proofs.«123252_j59356448030849_1_alg».proof.Proof.LibDenseHost
import Idealize.ShloMosaic.Lib.Pipeline.Value

set_option maxRecDepth 16384

noncomputable section

open scoped BigOperators

namespace Idealize.ShloMosaic.HostLayer

open Idealize.ShloMosaic Idealize.ShloMosaic.ValueIdx Idealize.ShloMosaic.DenseBlock

/-- A bias vector broadcast to one row and then along the rows, at (e, q). -/
theorem bias_apply {E Q : ℕ} (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    broadcastInDim ⟨2, ![E, Q]⟩ ![0, 1] h2 (broadcastInDim ⟨2, ![1, Q]⟩ ![1] h1 b) (ix2 e q) = b (ix1 q) := by
  have hq := q.isLt
  rw [broadcastInDim_apply ![0, 1] h2 _ (ix2 e q) (ix2 (0 : Fin 1) q) (fun a => by
      match a with
      | ⟨0, _⟩ => show (0 : ℕ) = if (1 : ℕ) = 1 then 0 else e.val; simp
      | ⟨1, _⟩ => show q.val = if Q = 1 then 0 else q.val; split <;> omega),
    broadcastInDim_apply ![1] h1 _ (ix2 (0 : Fin 1) q) (ix1 q) (fun a => by
      match a with
      | ⟨0, _⟩ => show q.val = if Q = 1 then 0 else q.val; split <;> omega)]

/-- One layer on the host: a product and a broadcast bias, at (e, q). -/
theorem layer_apply {E N Q : ℕ} (wf : DotDims.WF ⟨2, ![E, N]⟩ ⟨2, ![N, Q]⟩ ⟨2, ![E, Q]⟩ [1] [0] [0] [1] [] [])
    (X : FVec Ideal ⟨2, ![E, N]⟩ .f32) (W : FVec Ideal ⟨2, ![N, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    addf (Host.dotGeneral (mmDims E N Q wf) none X W)
        (broadcastInDim ⟨2, ![E, Q]⟩ ![0, 1] h2 (broadcastInDim ⟨2, ![1, Q]⟩ ![1] h1 b)) (ix2 e q)
      = (∑ n : Fin N, X (ix2 e n) * W (ix2 n q)) + b (ix1 q) := by
  show FloatOps.dotGeneral (mmDims E N Q wf) none _ X W (ix2 e q)
      + broadcastInDim ⟨2, ![E, Q]⟩ ![0, 1] h2 (broadcastInDim ⟨2, ![1, Q]⟩ ![1] h1 b) (ix2 e q) = _
  rw [dotGeneral_apply_ix2, bias_apply]

end Idealize.ShloMosaic.HostLayer

end
-- ==== Proof.HostReadK.lean ====
/-
  The host-side statistics of the program with the four passes, read as mathematics.

  Each array operation is read entry by entry: a reshape keeps the row-major position, a broadcast repeats its operand
  along the new axes, a constant is its one number everywhere, the arithmetic is entrywise.  The two sums over rows and
  group columns are never read at an index: once the summed arrays are equal as functions the sums are equal.
-/
import proofs.«123252_j59356448030849_1_alg».proof.Proof.HostTerms
import proofs.«123252_j59356448030849_1_alg».proof.Proof.Spec
import proofs.«123252_j59356448030849_1_alg».proof.Proof.LibHostLayer
import Idealize.ShloMosaic.Lib.ValueLayout

set_option maxRecDepth 16384

noncomputable section

namespace Cert.HostRead

open Idealize.ShloMosaic Idealize.ShloMosaic.ValueIdx Cert.HostTerms Cert.Lcn

/-! ## General readings -/

/-- A number broadcast to any shape is that number everywhere. -/
theorem bcast0_apply {α : Type} {t : Shape} (dims : Fin (⟨0, ![]⟩ : Shape).rank → Fin t.rank)
    (h : (⟨0, ![]⟩ : Shape).BroadcastsInDim t dims) (c : (⟨0, ![]⟩ : Shape).Idx → α) (j : t.Idx) :
    broadcastInDim t dims h c j = c ix0 :=
  broadcastInDim_apply dims h c j ix0 fun a => a.elim0

/-- A per-group vector spread over the grouped batch reads its group's entry. -/
theorem spread_apply {α : Type} {A B C : ℕ} (v : (⟨1, ![B]⟩ : Shape).Idx → α)
    (h1 : (⟨1, ![B]⟩ : Shape).BroadcastsInDim ⟨3, ![1, B, 1]⟩ ![1])
    (h2 : (⟨3, ![1, B, 1]⟩ : Shape).BroadcastsInDim ⟨3, ![A, B, C]⟩ ![0, 1, 2]) (p : Fin A) (j : Fin B) (c : Fin C) :
    broadcastInDim ⟨3, ![A, B, C]⟩ ![0, 1, 2] h2 (broadcastInDim ⟨3, ![1, B, 1]⟩ ![1] h1 v) (ix3 p j c) = v (ix1 j) := by
  have hj := j.isLt
  rw [broadcastInDim_apply ![0, 1, 2] h2 _ (ix3 p j c) (ix3 (0 : Fin 1) j (0 : Fin 1)) (fun a => by
      match a with
      | ⟨0, _⟩ => show (0 : ℕ) = if (1 : ℕ) = 1 then 0 else p.val; simp
      | ⟨1, _⟩ => show j.val = if B = 1 then 0 else j.val; split <;> omega
      | ⟨2, _⟩ => show (0 : ℕ) = if (1 : ℕ) = 1 then 0 else c.val; simp),
    broadcastInDim_apply ![1] h1 _ (ix3 (0 : Fin 1) j (0 : Fin 1)) (ix1 j) (fun a => by
      match a with
      | ⟨0, _⟩ => show j.val = if B = 1 then 0 else j.val; split <;> omega)]

/-- A matrix flattened to a vector reads, at position i · b + j, its entry (i, j). -/
theorem shapeCast_ab_n_apply {α : Type} {a b n : ℕ} (x : (⟨2, ![a, b]⟩ : Shape).Idx → α)
    (h : (⟨2, ![a, b]⟩ : Shape).ShapeCasts ⟨1, ![n]⟩) (i : Fin a) (j : Fin b) (q : Fin n) (hq : q.val = i.val * b + j.val) :
    shapeCast ⟨1, ![n]⟩ x h (ix1 q) = x (ix2 i j) :=
  shapeCast_apply x h _ _ (by
    rw [Shape.rowMajor_val_two, Shape.rowMajor_val_one]
    show i.val * b + j.val = q.val
    omega)

/-- A vector repeated along a new second axis reads its entry at the first coordinate. -/
theorem bcast_a_ab_apply {α : Type} {a b : ℕ} (v : (⟨1, ![a]⟩ : Shape).Idx → α)
    (h : (⟨1, ![a]⟩ : Shape).BroadcastsInDim ⟨2, ![a, b]⟩ ![0]) (i : Fin a) (j : Fin b) :
    broadcastInDim ⟨2, ![a, b]⟩ ![0] h v (ix2 i j) = v (ix1 i) := by
  have hi := i.isLt
  exact broadcastInDim_apply ![0] h v (ix2 i j) (ix1 i) (fun c => by
    match c with
    | ⟨0, _⟩ => show i.val = if a = 1 then 0 else i.val; split <;> omega)

/-! ## The program with the four passes -/
namespace K

open Cert.KernelIdeal Cert.KernelIdeal.Facts₀ Cert.KernelIdeal.Facts

variable [Cert.KernelIdeal.Facts]

/-- The bias row holds the bias vector. -/
theorem biasRow_apply (b : FVec Ideal S2176 .f32) (q : Fin 2176) : K.biasRow b (ix2 (0 : Fin 1) q) = b (ix1 q) :=
  shapeCast_a_1a_apply b _ (0 : Fin 1) q

/-- The slope row holds the one slope everywhere. -/
theorem alphaRow_apply (a : FVec Ideal S1 .f32) (q : Fin 2176) :
    K.alphaRow a (ix2 (0 : Fin 1) q) = a (ix1 (0 : Fin 1)) := by
  unfold K.alphaRow
  rw [broadcastInDim_apply ![0, 1] bcast_S1x1_S1x2176_0_1 _ (ix2 (0 : Fin 1) q) (ix2 (0 : Fin 1) (0 : Fin 1)) (fun c => by
      match c with
      | ⟨0, _⟩ => show (0 : ℕ) = if (1 : ℕ) = 1 then 0 else 0; simp
      | ⟨1, _⟩ => show (0 : ℕ) = if (1 : ℕ) = 1 then 0 else q.val; simp)]
  exact shapeCast_a_1a_apply a _ (0 : Fin 1) (0 : Fin 1)

/-- The grouped view is the grouped view. -/
theorem stat3_eq (Y : FVec Ideal S8192x2176 .f32) : K.stat3 Y = view3 Y := rfl

/-- A sum over rows and group columns from zero is the group sum. -/
theorem sum_eq (Z : FVec Ideal S8192x17x128 .f32) :
    Host.reduceAdd Z K.zero reducesTo_S8192x17x128_S17_d0_2 h_S_ = jsum Z := by
  show Ideal.hostReduceAdd reducesTo_S8192x17x128_S17_d0_2 Z (Ideal.ofBits .f32 0x00000000#32) = Ideal.hostReduceAdd hred Z 0
  rw [Ideal.ofBits_zero_f32]

/-- The count, broadcast, is the count. -/
theorem count_apply (j : S17.Idx) : broadcastInDim S17 ![] bcast_S_S17 K.count j = cnt :=
  bcast0_apply _ _ _ j

/-- The offset, broadcast, is the offset. -/
theorem offset_apply (j : S17.Idx) : broadcastInDim S17 ![] bcast_S_S17 K.offset j = epsv :=
  bcast0_apply _ _ _ j

theorem mean_eq (Y : FVec Ideal S8192x2176 .f32) : K.mean Y = mean Y := by
  funext j
  show Ideal.div (Host.reduceAdd (K.stat3 Y) K.zero reducesTo_S8192x17x128_S17_d0_2 h_S_ j)
      (broadcastInDim S17 ![] bcast_S_S17 K.count j) = Ideal.div (jsum (view3 Y) j) cnt
  rw [sum_eq, count_apply, stat3_eq]

theorem dev_eq (Y : FVec Ideal S8192x2176 .f32) : K.dev Y = dev Y := by
  funext i
  obtain ⟨p, j, c, rfl⟩ : ∃ (p : Fin 8192) (j : Fin 17) (c : Fin 128), i = ix3 p j c := ⟨i 0, i 1, i 2, eq_ix3 i⟩
  show K.stat3 Y (ix3 p j c) - broadcastInDim S8192x17x128 ![0, 1, 2] bcast_S1x17x1_S8192x17x128_0_1_2
      (broadcastInDim S1x17x1 ![1] bcast_S17_S1x17x1_1 (K.mean Y)) (ix3 p j c) = view3 Y (ix3 p j c) - mean Y (ix1 j)
  rw [spread_apply, mean_eq, stat3_eq]

theorem var_eq (Y : FVec Ideal S8192x2176 .f32) : K.var Y = var Y := by
  funext j
  show Ideal.div (Host.reduceAdd (mulf (K.dev Y) (K.dev Y)) K.zero reducesTo_S8192x17x128_S17_d0_2 h_S_ j)
      (broadcastInDim S17 ![] bcast_S_S17 K.count j) = Ideal.div (jsum (fun i => dev Y i * dev Y i) j) cnt
  rw [sum_eq, count_apply, dev_eq]
  rfl

theorem sd_eq (Y : FVec Ideal S8192x2176 .f32) : K.sd Y = sd Y := by
  funext j
  show Ideal.sqrt (K.var Y j + broadcastInDim S17 ![] bcast_S_S17 K.offset j) = Ideal.sqrt (var Y j + epsv)
  rw [offset_apply, var_eq]

/-- The folded scale. -/
theorem scale_eq (Y : FVec Ideal S8192x2176 .f32) (g : FVec Ideal S17 .f32) : K.scale Y g = kscale Y g := by
  funext j
  show Ideal.div (g j) (K.sd Y j) = Ideal.div (g j) (sd Y j)
  rw [sd_eq]

/-- The folded shift. -/
theorem shift_eq (Y : FVec Ideal S8192x2176 .f32) (g β : FVec Ideal S17 .f32) : K.shift Y g β = kshift Y g β := by
  funext j
  show β j - K.mean Y j * K.scale Y g j = β j - mean Y j * kscale Y g j
  rw [mean_eq, scale_eq]

/-- A per-group vector laid out as a row reads, at a column, its group's entry. -/
theorem row_eq (v : FVec Ideal S17 .f32) : K.row v = rowOf v := by
  funext i
  obtain ⟨u, q, rfl⟩ : ∃ (u : Fin 1) (q : Fin 2176), i = ix2 u q := ⟨i 0, i 1, eq_ix2 i⟩
  have hq := q.isLt
  show shapeCast S1x2176 (shapeCast S2176 (broadcastInDim S17x128 ![0] bcast_S17_S17x128_0 v) shapeCasts_S17x128_S2176)
      shapeCasts_S2176_S1x2176 (ix2 u q) = v (ix1 (jointOf q))
  rw [shapeCast_a_1a_apply _ _ u q,
    shapeCast_ab_n_apply _ shapeCasts_S17x128_S2176 (jointOf q) (⟨q.val % 128, Nat.mod_lt _ (by norm_num)⟩ : Fin 128) q
      (by show q.val = q.val / 128 * 128 + q.val % 128; omega),
    bcast_a_ab_apply]

end K

end Cert.HostRead

end
-- ==== Proof.LibScatterSet.lean ====
import Idealize.ShloMosaic.PureOps.ShapeOps

/-!
# A scatter seen through an injective re-indexing

`Host.scatter` is a left fold over the update positions, taken in a fixed order: an update whose
target lies inside the operand replaces the entry there by the body applied to the old entry and
the update, an update whose target lies outside is dropped.  Two facts about that fold are proved
here, for arbitrary (possibly repeating, possibly out-of-range) scatter indices.

* Two scatters that run over the same updates, and whose targets correspond under an injective map
  `σ` of the operand indices, produce operands that correspond under `σ` (when they started from
  operands that do).  With `σ` the swap of the two coordinates of a matrix index this says that
  scattering to the mirrored positions builds the transposed matrix.
* If the body returns the update, every entry of the result is an entry of the operand or one of the
  updates; hence a predicate that holds of all of those holds of every entry of the result.
-/

namespace Idealize.ShloMosaic.ScatterSet

open Idealize.ShloMosaic

variable {α : Type} {w : Nat}

/-- One step of the scatter's fold: the effect of the update at position `n` on the accumulated
    operand `r`. -/
private def step {s si u : Shape} (d : ScatterDims s si u) (f : α → α → α) (idx : IVec si w)
    (upd : u.Idx → α) (r : s.Idx → α) (n : Fin u.numel) : s.Idx → α :=
  match d.resultIdx? (u.rowMajor.symm n) idx with
  | some i => fun i' => if i' = i then f (r i) (upd (u.rowMajor.symm n)) else r i'
  | none => r

private theorem scatter_eq_foldl {s si u : Shape} (d : ScatterDims s si u) (f : α → α → α)
    (x : s.Idx → α) (idx : IVec si w) (upd : u.Idx → α) :
    Host.scatter d f x idx upd = (List.finRange u.numel).foldl (step d f idx upd) x := rfl

/-- One step keeps two accumulators in correspondence under `σ`: if the two targets of the update
    correspond, the entry at `σ i` of the one changes exactly when the entry at `i` of the other
    does (`σ` is injective), and both change to the same value. -/
private theorem step_comap {s s' si si' u : Shape} (d : ScatterDims s si u) (d' : ScatterDims s' si' u)
    (f : α → α → α) (σ : s.Idx → s'.Idx) (hσ : Function.Injective σ)
    (idx : IVec si w) (idx' : IVec si' w)
    (hidx : ∀ j : u.Idx, d'.resultIdx? j idx' = (d.resultIdx? j idx).map σ)
    (upd : u.Idx → α) (r : s.Idx → α) (r' : s'.Idx → α) (hr : ∀ i, r' (σ i) = r i)
    (n : Fin u.numel) (i : s.Idx) :
    step d' f idx' upd r' n (σ i) = step d f idx upd r n i := by
  unfold step
  rw [hidx]
  cases d.resultIdx? (u.rowMajor.symm n) idx with
  | none => exact hr i
  | some t =>
    simp only [Option.map_some]
    by_cases h : i = t
    · subst h
      rw [if_pos rfl, if_pos rfl, hr]
    · rw [if_neg h, if_neg (fun e => h (hσ e)), hr]

private theorem foldl_comap {s s' si si' u : Shape} (d : ScatterDims s si u) (d' : ScatterDims s' si' u)
    (f : α → α → α) (σ : s.Idx → s'.Idx) (hσ : Function.Injective σ)
    (idx : IVec si w) (idx' : IVec si' w)
    (hidx : ∀ j : u.Idx, d'.resultIdx? j idx' = (d.resultIdx? j idx).map σ)
    (upd : u.Idx → α) (l : List (Fin u.numel)) :
    ∀ (r : s.Idx → α) (r' : s'.Idx → α), (∀ i, r' (σ i) = r i) →
      ∀ i, l.foldl (step d' f idx' upd) r' (σ i) = l.foldl (step d f idx upd) r i := by
  induction l with
  | nil => intro r r' hr i; exact hr i
  | cons n l ih =>
    intro r r' hr i
    rw [List.foldl_cons, List.foldl_cons]
    exact ih _ _ (fun k => step_comap d d' f σ hσ idx idx' hidx upd r r' hr n k) i

/-- **A scatter seen through an injective re-indexing.**  Let two scatters run over the same
    updates `upd` (same update shape `u`, hence the same positions in the same order) with the same
    body `f`, the first into an operand `x` of shape `s`, the second into an operand `x'` of shape
    `s'`.  Suppose `σ : s.Idx → s'.Idx` is injective, `x'` read through `σ` is `x`, and for every
    update position the second scatter's target is the image under `σ` of the first one's (both
    missing when the first is out of range).  Then the second result read through `σ` is the first
    result.  The scatter indices are arbitrary: they may repeat and may point outside the operand. -/
theorem scatter_comap {s s' si si' u : Shape} (d : ScatterDims s si u) (d' : ScatterDims s' si' u)
    (f : α → α → α) (σ : s.Idx → s'.Idx) (hσ : Function.Injective σ)
    (x : s.Idx → α) (x' : s'.Idx → α) (hx : ∀ i, x' (σ i) = x i)
    (idx : IVec si w) (idx' : IVec si' w)
    (hidx : ∀ j : u.Idx, d'.resultIdx? j idx' = (d.resultIdx? j idx).map σ)
    (upd : u.Idx → α) (i : s.Idx) :
    Host.scatter d' f x' idx' upd (σ i) = Host.scatter d f x idx upd i := by
  rw [scatter_eq_foldl, scatter_eq_foldl]
  exact foldl_comap d d' f σ hσ idx idx' hidx upd _ x x' hx i

private theorem foldl_set_pred {s si u : Shape} (d : ScatterDims s si u)
    (idx : IVec si w) (upd : u.Idx → α) (P : α → Prop) (hupd : ∀ j, P (upd j))
    (l : List (Fin u.numel)) :
    ∀ (r : s.Idx → α), (∀ i, P (r i)) →
      ∀ i, P (l.foldl (step d (fun _ b => b) idx upd) r i) := by
  induction l with
  | nil => intro r hr i; exact hr i
  | cons n l ih =>
    intro r hr i
    rw [List.foldl_cons]
    refine ih _ (fun k => ?_) i
    unfold step
    cases d.resultIdx? (u.rowMajor.symm n) idx with
    | none => exact hr k
    | some t =>
      by_cases h : k = t
      · simp only [if_pos h]; exact hupd _
      · simp only [if_neg h]; exact hr k

/-- **A scatter that sets entries keeps a predicate.**  When the body of the scatter returns the
    update (`fun _ b => b`), every entry of the result is either the operand's entry at that index
    or one of the updates.  So a predicate `P` that holds of every entry of the operand `x` and of
    every update holds of every entry of the result, whatever the scatter indices are. -/
theorem scatter_set_pred {s si u : Shape} (d : ScatterDims s si u)
    (x : s.Idx → α) (idx : IVec si w) (upd : u.Idx → α) (P : α → Prop)
    (hx : ∀ i, P (x i)) (hupd : ∀ j, P (upd j)) (i : s.Idx) :
    P (Host.scatter d (fun _ b => b) x idx upd i) := by
  rw [scatter_eq_foldl]
  exact foldl_set_pred d idx upd P hupd _ x hx i

end Idealize.ShloMosaic.ScatterSet
-- ==== Proof.Weights.lean ====
import proofs.«123252_j59356448030849_1_alg».proof.KernelIdeal
import proofs.«123252_j59356448030849_1_alg».proof.ReferenceIdeal
import proofs.«123252_j59356448030849_1_alg».proof.Proof.LibScatterSet
import Idealize.ShloMosaic.Lib.ValueIdx
import Idealize.ShloMosaic.Lib.Pipeline.Value

/-!
# The dense weight matrix, built two ways

Both programs turn the sparse weights `w n` with their integer coordinates into a dense
`2176 × 2176` matrix by a scatter into a constant matrix.  One program writes update `n` at
`(a n, b n)`; the other writes it at `(b n, a n)` and transposes the result.  The coordinate arrays
are arbitrary: they may repeat and they may point outside the matrix.  Both scatters run through
the updates in the same order, an update is dropped by the one exactly when it is dropped by the
other, and the two entries written are mirror images of each other; so the first matrix is the
transpose of the second one, always (`weights_eq`).  Every entry of such a matrix is the constant
or one of the weights, so it is a real number when they are (`weights_fin`).
-/

namespace Cert.Weights

open Idealize.ShloMosaic Idealize.ShloMosaic.ValueIdx Idealize.ShloMosaic.ScatterSet

/-- The matrix shape. -/
abbrev SW : Shape := ⟨2, ![2176, 2176]⟩
/-- The shape of the array of index pairs: one row `(first, second)` per update. -/
abbrev SI : Shape := ⟨2, ![1294336, 2]⟩
/-- The shape of one column of that array. -/
abbrev SC : Shape := ⟨2, ![1294336, 1]⟩
/-- The shape of the updates, and of each coordinate array. -/
abbrev SU : Shape := ⟨1, ![1294336]⟩

/-- The dimension numbers of a scatter of scalars into a matrix at index pairs: no window axes,
    both matrix axes inserted, component `c` of an index pair is the coordinate on matrix axis `c`,
    the pairs lie along axis 1 of the index array. -/
def pointDims (h : ScatterDims.WF SW SI SU [] [0, 1] [0, 1] 1) : ScatterDims SW SI SU where
  updateWindowDims := []
  insertedWindowDims := [0, 1]
  scatterDimsToOperandDims := [0, 1]
  indexVectorDim := 1
  wf := h

private theorem idxOf_fin2 : ∀ a : Fin 2, List.idxOf a ([0, 1] : List (Fin 2)) = a.val := by decide
private theorem mem_fin2 : ∀ a : Fin 2, a ∈ ([0, 1] : List (Fin 2)) := by decide
private theorem not_mem_kept : ∀ a : Fin 2, a ∉ SW.kept ([0, 1] : List (Fin 2)) := by decide

/-- There is no window: the window coordinate is `0` on both matrix axes. -/
theorem pointDims_window (h : ScatterDims.WF SW SI SU [] [0, 1] [0, 1] 1) (j : SU.Idx) (a : Fin 2) :
    (pointDims h).window j a = 0 := by
  unfold ScatterDims.window
  rw [dif_neg (show a ∉ (pointDims h).sKept from not_mem_kept a)]

/-- The start on matrix axis `a` of update `n` is entry `(n, a)` of the index array, read signed. -/
theorem pointDims_start (h : ScatterDims.WF SW SI SU [] [0, 1] [0, 1] 1) (n : Fin 1294336) (idx : IVec SI 32)
    (a : Fin 2) : (pointDims h).start (ix1 n) idx a = (idx (ix2 n a)).toInt := by
  unfold ScatterDims.start
  rw [dif_pos (show a ∈ (pointDims h).scatterDimsToOperandDims from mem_fin2 a)]
  congr 2
  funext b
  match b with
  | ⟨0, _⟩ => rfl
  | ⟨1, _⟩ => exact Fin.ext (idxOf_fin2 a)

/-- The mirror image of a matrix index: the two coordinates swapped. -/
def mirror (i : SW.Idx) : SW.Idx := ix2 (i 1) (i 0)

theorem mirror_mirror (i : SW.Idx) : mirror (mirror i) = i := (eq_ix2 i).symm

theorem mirror_injective : Function.Injective mirror := fun i i' e => by
  rw [← mirror_mirror i, e, mirror_mirror]

/-- If on each matrix axis the target coordinate of one scatter is the target coordinate of another
    on the other axis, then the first target is the mirror image of the second one — and the first
    is outside the (square) matrix exactly when the second is. -/
theorem resultIdx?_mirror {si si' u : Shape} {w : Nat} (d : ScatterDims SW si u) (d' : ScatterDims SW si' u)
    (j : u.Idx) (idx : IVec si w) (idx' : IVec si' w)
    (h0 : d'.start j idx' 0 + d'.window j 0 = d.start j idx 1 + d.window j 1)
    (h1 : d'.start j idx' 1 + d'.window j 1 = d.start j idx 0 + d.window j 0) :
    d'.resultIdx? j idx' = (d.resultIdx? j idx).map mirror := by
  unfold ScatterDims.resultIdx?
  by_cases h : ∀ a, 0 ≤ d.start j idx a + d.window j a ∧ d.start j idx a + d.window j a < SW.size a
  · have h' : ∀ a, 0 ≤ d'.start j idx' a + d'.window j a ∧ d'.start j idx' a + d'.window j a < SW.size a := by
      intro a
      match a with
      | ⟨0, _⟩ => exact h0 ▸ h 1
      | ⟨1, _⟩ => exact h1 ▸ h 0
    rw [dif_pos h, dif_pos h', Option.map_some]
    congr 1
    funext a
    match a with
    | ⟨0, _⟩ => exact Fin.ext (congrArg Int.toNat h0)
    | ⟨1, _⟩ => exact Fin.ext (congrArg Int.toNat h1)
  · have h' : ¬ ∀ a, 0 ≤ d'.start j idx' a + d'.window j a ∧ d'.start j idx' a + d'.window j a < SW.size a := by
      intro h'
      apply h
      intro a
      match a with
      | ⟨0, _⟩ => exact h1 ▸ h' 1
      | ⟨1, _⟩ => exact h0 ▸ h' 0
    rw [dif_neg h, dif_neg h', Option.map_none]

/-- The array of index pairs built from two coordinate arrays `p` and `q` (each turned into a
    column, the two columns laid side by side) holds `p n` at `(n, 0)` and `q n` at `(n, 1)`. -/
theorem pairs_apply (hb : SU.BroadcastsInDim SC (![0] : Fin 1 → Fin SC.rank))
    (hc : Shape.Concatenates [SC, SC] SI 1) (p q : IVec SU 32) (n : Fin 1294336) :
    concatenate SI 1 [⟨SC, broadcastInDim SC ![0] hb p⟩, ⟨SC, broadcastInDim SC ![0] hb q⟩] hc (ix2 n 0) = p (ix1 n)
    ∧ concatenate SI 1 [⟨SC, broadcastInDim SC ![0] hb p⟩, ⟨SC, broadcastInDim SC ![0] hb q⟩] hc (ix2 n 1) = q (ix1 n) := by
  constructor
  · refine (concatenate_pair_apply_left (1 : Fin SI.rank) _ _ hc (ix2 n 0) rfl (ix2 n (0 : Fin 1)) ?_).trans ?_
    · intro b
      match b with
      | ⟨0, _⟩ => rfl
      | ⟨1, _⟩ => rfl
    · refine broadcastInDim_apply _ hb p _ (ix1 n) ?_
      intro a
      match a with
      | ⟨0, _⟩ => rfl
  · refine (concatenate_pair_apply_right (1 : Fin SI.rank) _ _ hc (ix2 n 1) rfl rfl (ix2 n (0 : Fin 1)) ?_ ?_).trans ?_
    · intro b hne
      match b with
      | ⟨0, _⟩ => rfl
      | ⟨1, _⟩ => exact absurd rfl hne
    · rfl
    · refine broadcastInDim_apply _ hb q _ (ix1 n) ?_
      intro a
      match a with
      | ⟨0, _⟩ => rfl

/-- The target of update `j` when the index pairs are `(p, q)` is the mirror image of its target
    when they are `(q, p)`, and the one is dropped exactly when the other is. -/
theorem resultIdx?_pairs (h h' : ScatterDims.WF SW SI SU [] [0, 1] [0, 1] 1)
    (hb hb' : SU.BroadcastsInDim SC (![0] : Fin 1 → Fin SC.rank))
    (hc hc' : Shape.Concatenates [SC, SC] SI 1) (p q : IVec SU 32) (j : SU.Idx) :
    (pointDims h').resultIdx? j
        (concatenate SI 1 [⟨SC, broadcastInDim SC ![0] hb' p⟩, ⟨SC, broadcastInDim SC ![0] hb' q⟩] hc')
      = ((pointDims h).resultIdx? j
        (concatenate SI 1 [⟨SC, broadcastInDim SC ![0] hb q⟩, ⟨SC, broadcastInDim SC ![0] hb p⟩] hc)).map mirror := by
  obtain ⟨n, rfl⟩ : ∃ n : Fin 1294336, j = ix1 n := ⟨j 0, eq_ix1 j⟩
  have e := pairs_apply hb hc q p n
  have e' := pairs_apply hb' hc' p q n
  apply resultIdx?_mirror
  · rw [pointDims_window, pointDims_window, pointDims_start, pointDims_start, e'.1, e.2]
  · rw [pointDims_window, pointDims_window, pointDims_start, pointDims_start, e'.2, e.1]

section Programs

variable [Cert.KernelIdeal.Facts₀] [Cert.ReferenceIdeal.Facts₀]

/-- The two programs' targets of update `j` are mirror images of each other. -/
theorem resultIdx?_programs (a b : IVec SU 32) (j : SU.Idx) :
    Cert.KernelIdeal.scatter_S2176x2176_S1294336x2_S1294336_n_01_01_1.resultIdx? j
        (concatenate Cert.KernelIdeal.S1294336x2 1
          [⟨Cert.KernelIdeal.S1294336x1, broadcastInDim Cert.KernelIdeal.S1294336x1 ![0]
              Cert.KernelIdeal.Facts₀.bcast_S1294336_S1294336x1_0 a⟩,
           ⟨Cert.KernelIdeal.S1294336x1, broadcastInDim Cert.KernelIdeal.S1294336x1 ![0]
              Cert.KernelIdeal.Facts₀.bcast_S1294336_S1294336x1_0 b⟩]
          Cert.KernelIdeal.Facts₀.concatenates_S1294336x1_S1294336x1_S1294336x2_d1)
      = (Cert.ReferenceIdeal.scatter_S2176x2176_S1294336x2_S1294336_n_01_01_1.resultIdx? j
        (concatenate Cert.ReferenceIdeal.S1294336x2 1
          [⟨Cert.ReferenceIdeal.S1294336x1, broadcastInDim Cert.ReferenceIdeal.S1294336x1 ![0]
              Cert.ReferenceIdeal.Facts₀.bcast_S1294336_S1294336x1_0 b⟩,
           ⟨Cert.ReferenceIdeal.S1294336x1, broadcastInDim Cert.ReferenceIdeal.S1294336x1 ![0]
              Cert.ReferenceIdeal.Facts₀.bcast_S1294336_S1294336x1_0 a⟩]
          Cert.ReferenceIdeal.Facts₀.concatenates_S1294336x1_S1294336x1_S1294336x2_d1)).map mirror :=
  resultIdx?_pairs Cert.ReferenceIdeal.Facts₀.scatter_S2176x2176_S1294336x2_S1294336_n_01_01_1_wf
    Cert.KernelIdeal.Facts₀.scatter_S2176x2176_S1294336x2_S1294336_n_01_01_1_wf
    Cert.ReferenceIdeal.Facts₀.bcast_S1294336_S1294336x1_0 Cert.KernelIdeal.Facts₀.bcast_S1294336_S1294336x1_0
    Cert.ReferenceIdeal.Facts₀.concatenates_S1294336x1_S1294336x1_S1294336x2_d1
    Cert.KernelIdeal.Facts₀.concatenates_S1294336x1_S1294336x1_S1294336x2_d1 a b j

/-- **The two weight matrices agree.**  Scattering the weights `w` into a constant matrix at the
    index pairs `(a n, b n)` gives the transpose of the matrix obtained by scattering them at the
    pairs `(b n, a n)`, for arbitrary coordinate arrays `a` and `b` (repeats and out-of-range values
    allowed), any constant `z` and any weights. -/
theorem weights_eq {α : Type} (a b : IVec Cert.KernelIdeal.S1294336 32) (z : α)
    (w : Cert.KernelIdeal.S1294336.Idx → α) :
    Host.scatter Cert.KernelIdeal.scatter_S2176x2176_S1294336x2_S1294336_n_01_01_1 (fun _ v => v)
        (fun _ => z)
        (concatenate Cert.KernelIdeal.S1294336x2 1
          [⟨Cert.KernelIdeal.S1294336x1, broadcastInDim Cert.KernelIdeal.S1294336x1 ![0]
              Cert.KernelIdeal.Facts₀.bcast_S1294336_S1294336x1_0 a⟩,
           ⟨Cert.KernelIdeal.S1294336x1, broadcastInDim Cert.KernelIdeal.S1294336x1 ![0]
              Cert.KernelIdeal.Facts₀.bcast_S1294336_S1294336x1_0 b⟩]
          Cert.KernelIdeal.Facts₀.concatenates_S1294336x1_S1294336x1_S1294336x2_d1) w
      = transpose Cert.ReferenceIdeal.S2176x2176 [1, 0]
          (Host.scatter Cert.ReferenceIdeal.scatter_S2176x2176_S1294336x2_S1294336_n_01_01_1 (fun _ v => v)
            (fun _ => z)
            (concatenate Cert.ReferenceIdeal.S1294336x2 1
              [⟨Cert.ReferenceIdeal.S1294336x1, broadcastInDim Cert.ReferenceIdeal.S1294336x1 ![0]
                  Cert.ReferenceIdeal.Facts₀.bcast_S1294336_S1294336x1_0 b⟩,
               ⟨Cert.ReferenceIdeal.S1294336x1, broadcastInDim Cert.ReferenceIdeal.S1294336x1 ![0]
                  Cert.ReferenceIdeal.Facts₀.bcast_S1294336_S1294336x1_0 a⟩]
              Cert.ReferenceIdeal.Facts₀.concatenates_S1294336x1_S1294336x1_S1294336x2_d1) w)
          Cert.ReferenceIdeal.Facts₀.transposes_S2176x2176_S2176x2176_1_0 := by
  funext i
  -- the transposed matrix at `i` is the matrix at the mirror image of `i`
  refine Eq.trans ?_ (transpose_apply [1, 0] _ Cert.ReferenceIdeal.Facts₀.transposes_S2176x2176_S2176x2176_1_0 i
    (mirror i) ?_).symm
  · -- the two scatters, compared through the mirror map
    have key := scatter_comap
      Cert.ReferenceIdeal.scatter_S2176x2176_S1294336x2_S1294336_n_01_01_1
      Cert.KernelIdeal.scatter_S2176x2176_S1294336x2_S1294336_n_01_01_1
      (fun (_ v : α) => v) mirror mirror_injective (fun _ => z) (fun _ => z) (fun _ => rfl) _ _
      (fun j => resultIdx?_programs a b j) w (mirror i)
    rw [mirror_mirror] at key
    exact key
  · intro c
    match c with
    | ⟨0, _⟩ => rfl
    | ⟨1, _⟩ => rfl

omit [Cert.ReferenceIdeal.Facts₀] in
/-- **The weight matrix is finite.**  When every weight is a real number, so is every entry of the
    matrix scattered into the zero matrix: an entry is `0` or one of the weights. -/
theorem weights_fin (a b : IVec Cert.KernelIdeal.S1294336 32) (w : Cert.KernelIdeal.S1294336.Idx → EReal)
    (hw : ∀ n, ∃ r : ℝ, w n = (r : EReal)) (i : Cert.KernelIdeal.S2176x2176.Idx) :
    ∃ r : ℝ,
      Host.scatter Cert.KernelIdeal.scatter_S2176x2176_S1294336x2_S1294336_n_01_01_1 (fun _ v => v)
        (fun _ => (0 : EReal))
        (concatenate Cert.KernelIdeal.S1294336x2 1
          [⟨Cert.KernelIdeal.S1294336x1, broadcastInDim Cert.KernelIdeal.S1294336x1 ![0]
              Cert.KernelIdeal.Facts₀.bcast_S1294336_S1294336x1_0 a⟩,
           ⟨Cert.KernelIdeal.S1294336x1, broadcastInDim Cert.KernelIdeal.S1294336x1 ![0]
              Cert.KernelIdeal.Facts₀.bcast_S1294336_S1294336x1_0 b⟩]
          Cert.KernelIdeal.Facts₀.concatenates_S1294336x1_S1294336x1_S1294336x2_d1) w i = (r : EReal) :=
  scatter_set_pred _ _ _ w (fun v => ∃ r : ℝ, v = (r : EReal)) (fun _ => ⟨0, EReal.coe_zero.symm⟩) hw i

end Programs

end Cert.Weights
-- ==== Proof.WeightsSame.lean ====
import proofs.«123252_j59356448030849_1_alg».proof.Proof.Weights
import proofs.«123252_j59356448030849_1_alg».proof.Proof.HostTerms
import proofs.«123252_j59356448030849_1_alg».proof.Proof.Spec
import proofs.«123252_j59356448030849_1_alg».proof.Proof.Gen.KernelIdeal
import proofs.«123252_j59356448030849_1_alg».proof.Proof.Gen.ReferenceIdeal

/-!
# The two programs' weight matrices are one matrix

One program scatters the sparse weights into a zero matrix at (column index, row index) and then
changes the number format, which over the extended reals changes nothing; the other scatters them
at (row index, column index) and transposes.  Both first add 2176 to every negative index, by the
same formula.  So the two matrices are the two sides of `weights_eq`, and they are equal; their
entries are real numbers when the weights are, each being zero or a weight.

The scatter itself is never unfolded here: each step below rewrites one operation around it
(the format change, the constant matrix, the index formula) by a lemma about that operation alone.
-/

namespace Cert.Weights

open Idealize.ShloMosaic

/-- Over the extended reals a change of number format leaves an array as it is. -/
theorem truncf_ideal {s : Shape} {φ ψ : FTy} (x : FVec Ideal s φ) (h : ψ.bits < φ.bits) :
    (truncf ψ x h : s.Idx → EReal) = x := rfl

section K
variable [Cert.KernelIdeal.Facts]

/-- The first program's constant matrix holds the value of the zero word everywhere. -/
theorem K_zeros :
    (broadcastInDim Cert.KernelIdeal.S2176x2176 ![] Cert.KernelIdeal.Facts₀.bcast_S_S2176x2176
        Cert.HostTerms.K.zero : Cert.KernelIdeal.S2176x2176.Idx → EReal)
      = fun _ => Ideal.ofBits .f32 0x00000000#32 := rfl

/-- The first program's matrix: the scatter into the constant matrix, the format change dropped. -/
theorem K_weights_def (rows cols : IVec Cert.KernelIdeal.S1294336 32) (w : Cert.KernelIdeal.S1294336.Idx → EReal) :
    (Cert.HostTerms.K.weights rows cols w : Cert.KernelIdeal.S2176x2176.Idx → EReal)
      = Host.scatter Cert.KernelIdeal.scatter_S2176x2176_S1294336x2_S1294336_n_01_01_1 (fun _ v => v)
        (fun _ => (Ideal.ofBits .f32 0x00000000#32 : EReal))
        (concatenate Cert.KernelIdeal.S1294336x2 1
          [⟨Cert.KernelIdeal.S1294336x1, broadcastInDim Cert.KernelIdeal.S1294336x1 ![0]
              Cert.KernelIdeal.Facts₀.bcast_S1294336_S1294336x1_0 (Cert.HostTerms.K.normIdx cols)⟩,
           ⟨Cert.KernelIdeal.S1294336x1, broadcastInDim Cert.KernelIdeal.S1294336x1 ![0]
              Cert.KernelIdeal.Facts₀.bcast_S1294336_S1294336x1_0 (Cert.HostTerms.K.normIdx rows)⟩]
          Cert.KernelIdeal.Facts₀.concatenates_S1294336x1_S1294336x1_S1294336x2_d1) w := by
  unfold Cert.HostTerms.K.weights
  rw [truncf_ideal, K_zeros]

end K

section KR
variable [Cert.KernelIdeal.Facts] [Cert.ReferenceIdeal.Facts]

/-- Both programs normalise an index array by the same formula. -/
theorem normIdx_same (v : IVec Cert.KernelIdeal.S1294336 32) :
    Cert.HostTerms.R.normIdx v = Cert.HostTerms.K.normIdx v := rfl

omit [Cert.KernelIdeal.Facts] in
/-- The second program's constant matrix holds the value of the zero word everywhere. -/
theorem R_zeros :
    (broadcastInDim Cert.ReferenceIdeal.S2176x2176 ![] Cert.ReferenceIdeal.Facts₀.bcast_S_S2176x2176
        Cert.HostTerms.R.zero : Cert.ReferenceIdeal.S2176x2176.Idx → EReal)
      = fun _ => Ideal.ofBits .f32 0x00000000#32 := rfl

/-- The second program's matrix, with its index arrays written by the first program's formula. -/
theorem R_weights_def (rows cols : IVec Cert.KernelIdeal.S1294336 32) (w : Cert.KernelIdeal.S1294336.Idx → EReal) :
    (Cert.HostTerms.R.weights rows cols w : Cert.ReferenceIdeal.S2176x2176.Idx → EReal)
      = transpose Cert.ReferenceIdeal.S2176x2176 [1, 0]
          (Host.scatter Cert.ReferenceIdeal.scatter_S2176x2176_S1294336x2_S1294336_n_01_01_1 (fun _ v => v)
            (fun _ => (Ideal.ofBits .f32 0x00000000#32 : EReal))
            (concatenate Cert.ReferenceIdeal.S1294336x2 1
              [⟨Cert.ReferenceIdeal.S1294336x1, broadcastInDim Cert.ReferenceIdeal.S1294336x1 ![0]
                  Cert.ReferenceIdeal.Facts₀.bcast_S1294336_S1294336x1_0 (Cert.HostTerms.K.normIdx rows)⟩,
               ⟨Cert.ReferenceIdeal.S1294336x1, broadcastInDim Cert.ReferenceIdeal.S1294336x1 ![0]
                  Cert.ReferenceIdeal.Facts₀.bcast_S1294336_S1294336x1_0 (Cert.HostTerms.K.normIdx cols)⟩]
              Cert.ReferenceIdeal.Facts₀.concatenates_S1294336x1_S1294336x1_S1294336x2_d1) w)
          Cert.ReferenceIdeal.Facts₀.transposes_S2176x2176_S2176x2176_1_0 := by
  unfold Cert.HostTerms.R.weights
  rw [R_zeros, normIdx_same rows, normIdx_same cols]

/-- **The two programs use the same weight matrix**, whatever the index arrays hold. -/
theorem weights_same (rows cols : IVec Cert.KernelIdeal.S1294336 32) (w : Cert.KernelIdeal.S1294336.Idx → EReal) :
    (fun i => Cert.HostTerms.K.weights rows cols w i : Cert.Lcn.SDD.Idx → EReal)
      = fun i => Cert.HostTerms.R.weights rows cols w i := by
  funext i
  rw [K_weights_def, R_weights_def]
  exact congrFun (weights_eq (Cert.HostTerms.K.normIdx cols) (Cert.HostTerms.K.normIdx rows) _ w) i

/-- **The weight matrix is real** when the weights are: each entry is zero or one of the weights. -/
theorem weights_real (rows cols : IVec Cert.KernelIdeal.S1294336 32) (w : Cert.KernelIdeal.S1294336.Idx → EReal)
    (hw : ∀ n, Cert.Lcn.IsReal (w n)) (i : Cert.Lcn.SDD.Idx) :
    Cert.Lcn.IsReal (Cert.HostTerms.R.weights rows cols w i) := by
  have e : Cert.HostTerms.R.weights rows cols w i = Cert.HostTerms.K.weights rows cols w i :=
    (congrFun (weights_same rows cols w) i).symm
  rw [e, K_weights_def, Ideal.ofBits_zero_f32]
  exact weights_fin _ _ w hw i

end KR

end Cert.Weights
-- ==== Proof.KernelValue.lean ====
/-
  What the kernel program leaves in its result array, as the network of its argument arrays.

  The run's fold of buffer contents is followed pass by pass.  The first dense pass leaves  Y1 = X · WT1 + b1 ; the
  statistics stretch folds Y1's group means and deviations into a scale row and a shift row, and the first normalising
  pass applies them and rectifies: by the law of the two arrangements, on a real batch, that is the layer
  Z1 = rect (norm Y1) ; the second dense pass leaves  Y2 = Z1 · WT2 + b2 , and the last pass  X + rect (norm Y2).
  Each batch is real because the one before it is: sums of products of reals, and normalised entries with a positive
  denominator.
-/
import proofs.«123252_j59356448030849_1_alg».proof.Proof.Gen.KernelIdeal.Frame
import proofs.«123252_j59356448030849_1_alg».proof.Proof.Gen.ReferenceIdeal
import proofs.«123252_j59356448030849_1_alg».proof.Proof.KernelWalk
import proofs.«123252_j59356448030849_1_alg».proof.Proof.KernelHost
import proofs.«123252_j59356448030849_1_alg».proof.Proof.Region0
import proofs.«123252_j59356448030849_1_alg».proof.Proof.Region1
import proofs.«123252_j59356448030849_1_alg».proof.Proof.Region2
import proofs.«123252_j59356448030849_1_alg».proof.Proof.Region3
import proofs.«123252_j59356448030849_1_alg».proof.Proof.HostReadK
import proofs.«123252_j59356448030849_1_alg».proof.Proof.WeightsSame
import proofs.«123252_j59356448030849_1_alg».proof.Proof.Spec

set_option maxRecDepth 16384

noncomputable section

namespace Cert.KernelIdeal.NetValue

open Cert.KernelIdeal Cert.KernelIdeal.Gen Cert.KernelIdeal.Walk Cert.KernelIdeal.HostGlue Cert.KernelIdeal.RegionValue
open Cert.HostTerms Cert.Lcn
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## The argument arrays and the network's intermediate batches -/

/-- The first weight matrix, as both programs multiply by it. -/
def WT1 : SDD.Idx → EReal := fun i => R.weights (m ((c : Thread nD τ).loc main_arg10)) (m ((c : Thread nD τ).loc main_arg11)) (m ((c : Thread nD τ).loc main_arg1)) i
/-- The second weight matrix. -/
def WT2 : SDD.Idx → EReal := fun i => R.weights (m ((c : Thread nD τ).loc main_arg10)) (m ((c : Thread nD τ).loc main_arg11)) (m ((c : Thread nD τ).loc main_arg5)) i
/-- The rectifier's slope. -/
def slope : EReal := (m ((c : Thread nD τ).loc main_arg9)) (ix1 (0 : Fin 1))
/-- The first dense layer's result. -/
def Y1 : SBD.Idx → EReal := denseVec (m ((c : Thread nD τ).loc main_arg0)) (WT1 m c) (m ((c : Thread nD τ).loc main_arg2))
/-- The first layer. -/
def Z1 : SBD.Idx → EReal := layerR (Y1 m c) (m ((c : Thread nD τ).loc main_arg3)) (m ((c : Thread nD τ).loc main_arg4)) (slope m c)
/-- The second dense layer's result. -/
def Y2 : SBD.Idx → EReal := denseVec (Z1 m c) (WT2 m c) (m ((c : Thread nD τ).loc main_arg6))

/-! ## Arguments and rows carried across the boundaries -/

theorem arg3_W2 : W2 m ρ c (Proc.devRef .tc main_arg3) = (m ((c : Thread nD τ).loc main_arg3)) := (w2_arg3 m ρ c).trans ((w1_arg3 m ρ c).trans (w0_eq m ρ c main_arg3))
theorem arg4_W2 : W2 m ρ c (Proc.devRef .tc main_arg4) = (m ((c : Thread nD τ).loc main_arg4)) := (w2_arg4 m ρ c).trans ((w1_arg4 m ρ c).trans (w0_eq m ρ c main_arg4))
theorem arg7_W5 : W5 m ρ c (Proc.devRef .tc main_arg7) = (m ((c : Thread nD τ).loc main_arg7)) :=
  (w5_arg7 m ρ c).trans ((w4_arg7 m ρ c).trans ((w3_arg7 m ρ c).trans ((w2_arg7 m ρ c).trans ((w1_arg7 m ρ c).trans (w0_eq m ρ c main_arg7)))))
theorem arg8_W5 : W5 m ρ c (Proc.devRef .tc main_arg8) = (m ((c : Thread nD τ).loc main_arg8)) :=
  (w5_arg8 m ρ c).trans ((w4_arg8 m ρ c).trans ((w3_arg8 m ρ c).trans ((w2_arg8 m ρ c).trans ((w1_arg8 m ρ c).trans (w0_eq m ρ c main_arg8)))))
theorem arg0_W1 : W1 m ρ c (Proc.devRef .tc main_arg0) = (m ((c : Thread nD τ).loc main_arg0)) := (w1_arg0 m ρ c).trans (w0_eq m ρ c main_arg0)
theorem arg0_W6 : W6 m ρ c (Proc.devRef .tc main_arg0) = (m ((c : Thread nD τ).loc main_arg0)) :=
  (w6_arg0 m ρ c).trans ((w5_arg0 m ρ c).trans ((w4_arg0 m ρ c).trans ((w3_arg0 m ρ c).trans ((w2_arg0 m ρ c).trans (arg0_W1 m ρ c)))))
theorem v35_W1 : W1 m ρ c (Proc.devRef .tc main_v35) = K.alphaRow (m ((c : Thread nD τ).loc main_arg9)) := h0_v35 (W0 m ρ c)
theorem v35_W3 : W3 m ρ c (Proc.devRef .tc main_v35) = K.alphaRow (m ((c : Thread nD τ).loc main_arg9)) :=
  (w3_v35 m ρ c).trans ((w2_v35 m ρ c).trans (v35_W1 m ρ c))
theorem v35_W6 : W6 m ρ c (Proc.devRef .tc main_v35) = K.alphaRow (m ((c : Thread nD τ).loc main_arg9)) :=
  (w6_v35 m ρ c).trans ((w5_v35 m ρ c).trans ((w4_v35 m ρ c).trans (v35_W3 m ρ c)))
theorem v31_W4 : W4 m ρ c (Proc.devRef .tc main_v31) = K.weights (m ((c : Thread nD τ).loc main_arg10)) (m ((c : Thread nD τ).loc main_arg11)) (m ((c : Thread nD τ).loc main_arg5)) :=
  (w4_v31 m ρ c).trans ((w3_v31 m ρ c).trans ((w2_v31 m ρ c).trans (h0_v31 (W0 m ρ c))))
theorem v33_W4 : W4 m ρ c (Proc.devRef .tc main_v33) = K.biasRow (m ((c : Thread nD τ).loc main_arg6)) :=
  (w4_v33 m ρ c).trans ((w3_v33 m ρ c).trans ((w2_v33 m ρ c).trans (h0_v33 (W0 m ρ c))))

/-! ## The hypotheses: every float argument is a real array -/

/-- Every entry of every float argument array is a real number. -/
structure RealArgs : Prop where
  x : ∀ i, IsReal ((m ((c : Thread nD τ).loc main_arg0)) i)
  w1 : ∀ i, IsReal ((m ((c : Thread nD τ).loc main_arg1)) i)
  b1 : ∀ i, IsReal ((m ((c : Thread nD τ).loc main_arg2)) i)
  g1 : ∀ i, IsReal ((m ((c : Thread nD τ).loc main_arg3)) i)
  β1 : ∀ i, IsReal ((m ((c : Thread nD τ).loc main_arg4)) i)
  w2 : ∀ i, IsReal ((m ((c : Thread nD τ).loc main_arg5)) i)
  b2 : ∀ i, IsReal ((m ((c : Thread nD τ).loc main_arg6)) i)
  g2 : ∀ i, IsReal ((m ((c : Thread nD τ).loc main_arg7)) i)
  β2 : ∀ i, IsReal ((m ((c : Thread nD τ).loc main_arg8)) i)
  a : ∀ i, IsReal ((m ((c : Thread nD τ).loc main_arg9)) i)

variable (hr : RealArgs m c)
include hr

theorem Y1_real (i : SBD.Idx) : IsReal (Y1 m c i) :=
  denseVec_real _ hr.x _ (fun i => Cert.Weights.weights_real _ _ _ hr.w1 i) _ hr.b1 i
theorem Z1_real (i : SBD.Idx) : IsReal (Z1 m c i) :=
  layerR_real _ (Y1_real m c hr) _ _ hr.g1 hr.β1 _ (hr.a _) i
theorem Y2_real (i : SBD.Idx) : IsReal (Y2 m c i) :=
  denseVec_real _ (Z1_real m c hr) _ (fun i => Cert.Weights.weights_real _ _ _ hr.w2 i) _ hr.b2 i

/-! ## Pass by pass -/

omit hr in
/-- After the first pass the dense result holds Y1. -/
theorem pass0 : W2 m ρ c (Proc.devRef .tc main_v36) = Y1 m c := by
  rw [w2_v36, final0 (V1 m ρ) c]
  show denseRow (W1 m ρ c (Proc.devRef .tc main_arg0)) (W1 m ρ c (Proc.devRef .tc main_v15)) (W1 m ρ c (Proc.devRef .tc main_v32)) = _
  rw [arg0_W1, show W1 m ρ c (Proc.devRef .tc main_v15) = _ from h0_v15 (W0 m ρ c),
    show W1 m ρ c (Proc.devRef .tc main_v32) = _ from h0_v32 (W0 m ρ c)]
  show denseRow (m ((c : Thread nD τ).loc main_arg0)) (fun i => K.weights (m ((c : Thread nD τ).loc main_arg10)) (m ((c : Thread nD τ).loc main_arg11)) (m ((c : Thread nD τ).loc main_arg1)) i) (K.biasRow (m ((c : Thread nD τ).loc main_arg2))) = _
  rw [Cert.Weights.weights_same, denseRow_eq _ _ _ (m ((c : Thread nD τ).loc main_arg2)) (Cert.HostRead.K.biasRow_apply _)]
  rfl

/-- After the second pass the layer's buffer holds Z1. -/
theorem pass1 : W4 m ρ c (Proc.devRef .tc main_v60) = Z1 m c := by
  rw [w4_v60, final1 (V3 m ρ) c]
  show affPrelu (W3 m ρ c (Proc.devRef .tc main_v36)) (W3 m ρ c (Proc.devRef .tc main_v56)) (W3 m ρ c (Proc.devRef .tc main_v59))
      (W3 m ρ c (Proc.devRef .tc main_v35)) = _
  rw [w3_v36, pass0, v35_W3, show W3 m ρ c (Proc.devRef .tc main_v56) = _ from h1_v56 (W2 m ρ c),
    show W3 m ρ c (Proc.devRef .tc main_v59) = _ from h1_v59 (W2 m ρ c), pass0, arg3_W2, arg4_W2,
    Cert.HostRead.K.scale_eq, Cert.HostRead.K.shift_eq, Cert.HostRead.K.row_eq, Cert.HostRead.K.row_eq]
  exact affPrelu_fold _ (Y1_real m c hr) _ _ hr.g1 hr.β1 _ _ (Cert.HostRead.K.alphaRow_apply _)

/-- After the third pass the second dense result holds Y2. -/
theorem pass2 : W5 m ρ c (Proc.devRef .tc main_v61) = Y2 m c := by
  rw [w5_v61, final2 (V4 m ρ) c]
  show denseRow (W4 m ρ c (Proc.devRef .tc main_v60)) (W4 m ρ c (Proc.devRef .tc main_v31)) (W4 m ρ c (Proc.devRef .tc main_v33)) = _
  rw [pass1 m ρ c hr, v31_W4, v33_W4]
  show denseRow (Z1 m c) (fun i => K.weights (m ((c : Thread nD τ).loc main_arg10)) (m ((c : Thread nD τ).loc main_arg11)) (m ((c : Thread nD τ).loc main_arg5)) i) (K.biasRow (m ((c : Thread nD τ).loc main_arg6))) = _
  rw [Cert.Weights.weights_same, denseRow_eq _ _ _ (m ((c : Thread nD τ).loc main_arg6)) (Cert.HostRead.K.biasRow_apply _)]
  rfl

/-- THE KERNEL'S RESULT: the network of the argument arrays. -/
theorem result : W7 m ρ c (Proc.devRef .tc main_v85)
    = net (m ((c : Thread nD τ).loc main_arg0)) (WT1 m c) (m ((c : Thread nD τ).loc main_arg2)) (m ((c : Thread nD τ).loc main_arg3)) (m ((c : Thread nD τ).loc main_arg4)) (WT2 m c) (m ((c : Thread nD τ).loc main_arg6)) (m ((c : Thread nD τ).loc main_arg7)) (m ((c : Thread nD τ).loc main_arg8)) (slope m c) := by
  rw [w7_v85, final3 (V6 m ρ) c]
  show affPreluRes (W6 m ρ c (Proc.devRef .tc main_v61)) (W6 m ρ c (Proc.devRef .tc main_v81)) (W6 m ρ c (Proc.devRef .tc main_v84))
      (W6 m ρ c (Proc.devRef .tc main_v35)) (W6 m ρ c (Proc.devRef .tc main_arg0)) = _
  rw [w6_v61, pass2 m ρ c hr, v35_W6, arg0_W6, show W6 m ρ c (Proc.devRef .tc main_v81) = _ from h3_v81 (W5 m ρ c),
    show W6 m ρ c (Proc.devRef .tc main_v84) = _ from h3_v84 (W5 m ρ c), pass2 m ρ c hr, arg7_W5, arg8_W5,
    Cert.HostRead.K.scale_eq, Cert.HostRead.K.shift_eq, Cert.HostRead.K.row_eq, Cert.HostRead.K.row_eq]
  unfold affPreluRes net
  rw [affPrelu_fold _ (Y2_real m c hr) _ _ hr.g2 hr.β2 _ _ (Cert.HostRead.K.alphaRow_apply _)]
  rfl

end Cert.KernelIdeal.NetValue

end
-- ==== Proof.RefRun.lean ====
/-
  The reference program's @main as a list of its 131 host operations, cut into seven stages in program order
  (two rounds of: build a dense weight matrix from sparse entries, a dense layer, a grouped normalisation with
  a parametric rectifier; then the residual sum), and its run: every weakly fair execution terminates with each
  buffer at the fold of the operations' results over the launch contents. A function the program calls (the
  element-wise choice) stands as its one operation at the call site.
-/
import proofs.«123252_j59356448030849_1_alg».proof.ReferenceIdeal
import proofs.«123252_j59356448030849_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 21 of 131: the first weight matrix: index normalisation, the scatter into a zero matrix, the transpose. -/
abbrev sW1 : List (HloOp τ sig (Elt F)) :=
  [ nullary main_cst (constant S_ .f32 0x00000000#32),
    unary main_cst main_v0 (broadcastInDim S2176x2176 ![] bcast_S_S2176x2176 : (⟨S_, .f32⟩ : BufTy).Contents (Elt F) → (⟨S2176x2176, .f32⟩ : BufTy).Contents (Elt F)),
    nullary main_c (constantI S_ 32 0#32),
    unary main_c main_v1 (broadcastInDim S1294336 ![] bcast_S_S1294336 : (⟨S_, .i32⟩ : BufTy).Contents (Elt F) → (⟨S1294336, .i32⟩ : BufTy).Contents (Elt F)),
    binary main_arg10 main_v1 main_v2 (cmpi .slt : (⟨S1294336, .i32⟩ : BufTy).Contents (Elt F) → (⟨S1294336, .i32⟩ : BufTy).Contents (Elt F) → (⟨S1294336, .i1⟩ : BufTy).Contents (Elt F)),
    nullary main_c_0 (constantI S_ 32 2176#32),
    unary main_c_0 main_v3 (broadcastInDim S1294336 ![] bcast_S_S1294336 : (⟨S_, .i32⟩ : BufTy).Contents (Elt F) → (⟨S1294336, .i32⟩ : BufTy).Contents (Elt F)),
    binary main_arg10 main_v3 main_v4 (addi : (⟨S1294336, .i32⟩ : BufTy).Contents (Elt F) → (⟨S1294336, .i32⟩ : BufTy).Contents (Elt F) → (⟨S1294336, .i32⟩ : BufTy).Contents (Elt F)),
    ternary main_v2 main_v4 main_arg10 main_v5 (select : (⟨S1294336, .i1⟩ : BufTy).Contents (Elt F) → (⟨S1294336, .i32⟩ : BufTy).Contents (Elt F) → (⟨S1294336, .i32⟩ : BufTy).Contents (Elt F) → (⟨S1294336, .i32⟩ : BufTy).Contents (Elt F)),
    nullary main_c_1 (constantI S_ 32 0#32),
    unary main_c_1 main_v6 (broadcastInDim S1294336 ![] bcast_S_S1294336 : (⟨S_, .i32⟩ : BufTy).Contents (Elt F) → (⟨S1294336, .i32⟩ : BufTy).Contents (Elt F)),
    binary main_arg11 main_v6 main_v7 (cmpi .slt : (⟨S1294336, .i32⟩ : BufTy).Contents (Elt F) → (⟨S1294336, .i32⟩ : BufTy).Contents (Elt F) → (⟨S1294336, .i1⟩ : BufTy).Contents (Elt F)),
    nullary main_c_2 (constantI S_ 32 2176#32),
    unary main_c_2 main_v8 (broadcastInDim S1294336 ![] bcast_S_S1294336 : (⟨S_, .i32⟩ : BufTy).Contents (Elt F) → (⟨S1294336, .i32⟩ : BufTy).Contents (Elt F)),
    binary main_arg11 main_v8 main_v9 (addi : (⟨S1294336, .i32⟩ : BufTy).Contents (Elt F) → (⟨S1294336, .i32⟩ : BufTy).Contents (Elt F) → (⟨S1294336, .i32⟩ : BufTy).Contents (Elt F)),
    ternary main_v7 main_v9 main_arg11 main_v10 (select : (⟨S1294336, .i1⟩ : BufTy).Contents (Elt F) → (⟨S1294336, .i32⟩ : BufTy).Contents (Elt F) → (⟨S1294336, .i32⟩ : BufTy).Contents (Elt F) → (⟨S1294336, .i32⟩ : BufTy).Contents (Elt F)),
    unary main_v5 main_v11 (broadcastInDim S1294336x1 ![0] bcast_S1294336_S1294336x1_0 : (⟨S1294336, .i32⟩ : BufTy).Contents (Elt F) → (⟨S1294336x1, .i32⟩ : BufTy).Contents (Elt F)),
    unary main_v10 main_v12 (broadcastInDim S1294336x1 ![0] bcast_S1294336_S1294336x1_0 : (⟨S1294336, .i32⟩ : BufTy).Contents (Elt F) → (⟨S1294336x1, .i32⟩ : BufTy).Contents (Elt F)),
    binary main_v11 main_v12 main_v13 ((fun a b => concatenate S1294336x2 1 [⟨S1294336x1, a⟩, ⟨S1294336x1, b⟩] concatenates_S1294336x1_S1294336x1_S1294336x2_d1) : (⟨S1294336x1, .i32⟩ : BufTy).Contents (Elt F) → (⟨S1294336x1, .i32⟩ : BufTy).Contents (Elt F) → (⟨S1294336x2, .i32⟩ : BufTy).Contents (Elt F)),
    ternary main_v0 main_v13 main_arg1 main_v14 ((fun x i u => Host.scatter scatter_S2176x2176_S1294336x2_S1294336_n_01_01_1 (fun _ b => b) x i u) : (⟨S2176x2176, .f32⟩ : BufTy).Contents (Elt F) → (⟨S1294336x2, .i32⟩ : BufTy).Contents (Elt F) → (⟨S1294336, .f32⟩ : BufTy).Contents (Elt F) → (⟨S2176x2176, .f32⟩ : BufTy).Contents (Elt F)),
    unary main_v14 main_v15 ((transpose S2176x2176 [1, 0] · transposes_S2176x2176_S2176x2176_1_0) : (⟨S2176x2176, .f32⟩ : BufTy).Contents (Elt F) → (⟨S2176x2176, .f32⟩ : BufTy).Contents (Elt F)) ]

/-- Operations 22 … 25 of 131: the first dense layer: the product with the weight matrix plus the broadcast bias. -/
abbrev sD1 : List (HloOp τ sig (Elt F)) :=
  [ binary main_arg0 main_v15 main_v16 ((fun l r => Host.dotGeneral dot_S8192x2176_S2176x2176_S8192x2176_1_0_0_1_n_n none l r) : (⟨S8192x2176, .f32⟩ : BufTy).Contents (Elt F) → (⟨S2176x2176, .f32⟩ : BufTy).Contents (Elt F) → (⟨S8192x2176, .f32⟩ : BufTy).Contents (Elt F)),
    unary main_arg2 main_v17 (broadcastInDim S1x2176 ![1] bcast_S2176_S1x2176_1 : (⟨S2176, .f32⟩ : BufTy).Contents (Elt F) → (⟨S1x2176, .f32⟩ : BufTy).Contents (Elt F)),
    unary main_v17 main_v18 (broadcastInDim S8192x2176 ![0, 1] bcast_S1x2176_S8192x2176_0_1 : (⟨S1x2176, .f32⟩ : BufTy).Contents (Elt F) → (⟨S8192x2176, .f32⟩ : BufTy).Contents (Elt F)),
    binary main_v16 main_v18 main_v19 (addf : (⟨S8192x2176, .f32⟩ : BufTy).Contents (Elt F) → (⟨S8192x2176, .f32⟩ : BufTy).Contents (Elt F) → (⟨S8192x2176, .f32⟩ : BufTy).Contents (Elt F)) ]

/-- Operations 26 … 65 of 131: the first normalisation: per-group mean and variance, scale and shift, then the parametric rectifier. -/
abbrev sL1 : List (HloOp τ sig (Elt F)) :=
  [ reshape main_v19 main_v20 rfl shapeCasts_S8192x2176_S8192x17x128,
    nullary main_cst_3 (constant S_ .f32 0x00000000#32),
    binary main_v20 main_cst_3 main_v21 ((fun x v => Host.reduceAdd x v reducesTo_S8192x17x128_S17_d0_2 h_S_) : (⟨S8192x17x128, .f32⟩ : BufTy).Contents (Elt F) → (⟨S_, .f32⟩ : BufTy).Contents (Elt F) → (⟨S17, .f32⟩ : BufTy).Contents (Elt F)),
    unary main_v21 main_v22 (broadcastInDim S1x17x1 ![1] bcast_S17_S1x17x1_1 : (⟨S17, .f32⟩ : BufTy).Contents (Elt F) → (⟨S1x17x1, .f32⟩ : BufTy).Contents (Elt F)),
    nullary main_cst_4 (constant S_ .f32 0x49800000#32),
    unary main_cst_4 main_v23 (broadcastInDim S1x17x1 ![] bcast_S_S1x17x1 : (⟨S_, .f32⟩ : BufTy).Contents (Elt F) → (⟨S1x17x1, .f32⟩ : BufTy).Contents (Elt F)),
    binary main_v22 main_v23 main_v24 (Host.divf : (⟨S1x17x1, .f32⟩ : BufTy).Contents (Elt F) → (⟨S1x17x1, .f32⟩ : BufTy).Contents (Elt F) → (⟨S1x17x1, .f32⟩ : BufTy).Contents (Elt F)),
    unary main_v24 main_v25 (broadcastInDim S8192x17x128 ![0, 1, 2] bcast_S1x17x1_S8192x17x128_0_1_2 : (⟨S1x17x1, .f32⟩ : BufTy).Contents (Elt F) → (⟨S8192x17x128, .f32⟩ : BufTy).Contents (Elt F)),
    binary main_v20 main_v25 main_v26 (subf : (⟨S8192x17x128, .f32⟩ : BufTy).Contents (Elt F) → (⟨S8192x17x128, .f32⟩ : BufTy).Contents (Elt F) → (⟨S8192x17x128, .f32⟩ : BufTy).Contents (Elt F)),
    binary main_v26 main_v26 main_v27 (mulf : (⟨S8192x17x128, .f32⟩ : BufTy).Contents (Elt F) → (⟨S8192x17x128, .f32⟩ : BufTy).Contents (Elt F) → (⟨S8192x17x128, .f32⟩ : BufTy).Contents (Elt F)),
    nullary main_cst_5 (constant S_ .f32 0x00000000#32),
    binary main_v27 main_cst_5 main_v28 ((fun x v => Host.reduceAdd x v reducesTo_S8192x17x128_S17_d0_2 h_S_) : (⟨S8192x17x128, .f32⟩ : BufTy).Contents (Elt F) → (⟨S_, .f32⟩ : BufTy).Contents (Elt F) → (⟨S17, .f32⟩ : BufTy).Contents (Elt F)),
    unary main_v28 main_v29 (broadcastInDim S1x17x1 ![1] bcast_S17_S1x17x1_1 : (⟨S17, .f32⟩ : BufTy).Contents (Elt F) → (⟨S1x17x1, .f32⟩ : BufTy).Contents (Elt F)),
    nullary main_cst_6 (constant S_ .f32 0x49800000#32),
    unary main_cst_6 main_v30 (broadcastInDim S1x17x1 ![] bcast_S_S1x17x1 : (⟨S_, .f32⟩ : BufTy).Contents (Elt F) → (⟨S1x17x1, .f32⟩ : BufTy).Contents (Elt F)),
    binary main_v29 main_v30 main_v31 (Host.divf : (⟨S1x17x1, .f32⟩ : BufTy).Contents (Elt F) → (⟨S1x17x1, .f32⟩ : BufTy).Contents (Elt F) → (⟨S1x17x1, .f32⟩ : BufTy).Contents (Elt F)),
    unary main_v24 main_v32 (broadcastInDim S8192x17x128 ![0, 1, 2] bcast_S1x17x1_S8192x17x128_0_1_2 : (⟨S1x17x1, .f32⟩ : BufTy).Contents (Elt F) → (⟨S8192x17x128, .f32⟩ : BufTy).Contents (Elt F)),
    binary main_v20 main_v32 main_v33 (subf : (⟨S8192x17x128, .f32⟩ : BufTy).Contents (Elt F) → (⟨S8192x17x128, .f32⟩ : BufTy).Contents (Elt F) → (⟨S8192x17x128, .f32⟩ : BufTy).Contents (Elt F)),
    nullary main_cst_7 (constant S_ .f32 0x3727C5AC#32),
    unary main_cst_7 main_v34 (broadcastInDim S1x17x1 ![] bcast_S_S1x17x1 : (⟨S_, .f32⟩ : BufTy).Contents (Elt F) → (⟨S1x17x1, .f32⟩ : BufTy).Contents (Elt F)),
    binary main_v31 main_v34 main_v35 (addf : (⟨S1x17x1, .f32⟩ : BufTy).Contents (Elt F) → (⟨S1x17x1, .f32⟩ : BufTy).Contents (Elt F) → (⟨S1x17x1, .f32⟩ : BufTy).Contents (Elt F)),
    unary main_v35 main_v36 (Host.sqrt : (⟨S1x17x1, .f32⟩ : BufTy).Contents (Elt F) → (⟨S1x17x1, .f32⟩ : BufTy).Contents (Elt F)),
    unary main_v36 main_v37 (broadcastInDim S8192x17x128 ![0, 1, 2] bcast_S1x17x1_S8192x17x128_0_1_2 : (⟨S1x17x1, .f32⟩ : BufTy).Contents (Elt F) → (⟨S8192x17x128, .f32⟩ : BufTy).Contents (Elt F)),
    binary main_v33 main_v37 main_v38 (Host.divf : (⟨S8192x17x128, .f32⟩ : BufTy).Contents (Elt F) → (⟨S8192x17x128, .f32⟩ : BufTy).Contents (Elt F) → (⟨S8192x17x128, .f32⟩ : BufTy).Contents (Elt F)),
    unary main_arg3 main_v39 (broadcastInDim S17x1 ![0] bcast_S17_S17x1_0 : (⟨S17, .f32⟩ : BufTy).Contents (Elt F) → (⟨S17x1, .f32⟩ : BufTy).Contents (Elt F)),
    unary main_v39 main_v40 (broadcastInDim S1x17x1 ![1, 2] bcast_S17x1_S1x17x1_1_2 : (⟨S17x1, .f32⟩ : BufTy).Contents (Elt F) → (⟨S1x17x1, .f32⟩ : BufTy).Contents (Elt F)),
    unary main_v40 main_v41 (broadcastInDim S8192x17x128 ![0, 1, 2] bcast_S1x17x1_S8192x17x128_0_1_2 : (⟨S1x17x1, .f32⟩ : BufTy).Contents (Elt F) → (⟨S8192x17x128, .f32⟩ : BufTy).Contents (Elt F)),
    binary main_v38 main_v41 main_v42 (mulf : (⟨S8192x17x128, .f32⟩ : BufTy).Contents (Elt F) → (⟨S8192x17x128, .f32⟩ : BufTy).Contents (Elt F) → (⟨S8192x17x128, .f32⟩ : BufTy).Contents (Elt F)),
    unary main_arg4 main_v43 (broadcastInDim S17x1 ![0] bcast_S17_S17x1_0 : (⟨S17, .f32⟩ : BufTy).Contents (Elt F) → (⟨S17x1, .f32⟩ : BufTy).Contents (Elt F)),
    unary main_v43 main_v44 (broadcastInDim S1x17x1 ![1, 2] bcast_S17x1_S1x17x1_1_2 : (⟨S17x1, .f32⟩ : BufTy).Contents (Elt F) → (⟨S1x17x1, .f32⟩ : BufTy).Contents (Elt F)),
    unary main_v44 main_v45 (broadcastInDim S8192x17x128 ![0, 1, 2] bcast_S1x17x1_S8192x17x128_0_1_2 : (⟨S1x17x1, .f32⟩ : BufTy).Contents (Elt F) → (⟨S8192x17x128, .f32⟩ : BufTy).Contents (Elt F)),
    binary main_v42 main_v45 main_v46 (addf : (⟨S8192x17x128, .f32⟩ : BufTy).Contents (Elt F) → (⟨S8192x17x128, .f32⟩ : BufTy).Contents (Elt F) → (⟨S8192x17x128, .f32⟩ : BufTy).Contents (Elt F)),
    reshape main_v46 main_v47 rfl shapeCasts_S8192x17x128_S8192x2176,
    nullary main_cst_8 (constant S_ .f32 0x00000000#32),
    unary main_cst_8 main_v48 (broadcastInDim S8192x2176 ![] bcast_S_S8192x2176 : (⟨S_, .f32⟩ : BufTy).Contents (Elt F) → (⟨S8192x2176, .f32⟩ : BufTy).Contents (Elt F)),
    binary main_v47 main_v48 main_v49 (cmpf .oge : (⟨S8192x2176, .f32⟩ : BufTy).Contents (Elt F) → (⟨S8192x2176, .f32⟩ : BufTy).Contents (Elt F) → (⟨S8192x2176, .i1⟩ : BufTy).Contents (Elt F)),
    reshape main_arg9 main_v50 rfl shapeCasts_S1_S_,
    unary main_v50 main_v51 (broadcastInDim S8192x2176 ![] bcast_S_S8192x2176 : (⟨S_, .f32⟩ : BufTy).Contents (Elt F) → (⟨S8192x2176, .f32⟩ : BufTy).Contents (Elt F)),
    binary main_v51 main_v47 main_v52 (mulf : (⟨S8192x2176, .f32⟩ : BufTy).Contents (Elt F) → (⟨S8192x2176, .f32⟩ : BufTy).Contents (Elt F) → (⟨S8192x2176, .f32⟩ : BufTy).Contents (Elt F)),
    TRef.ternary (TRef.of (T := ⟨S8192x2176, .i1⟩) main_v49) (TRef.of (T := ⟨S8192x2176, .f32⟩) main_v47) (TRef.of (T := ⟨S8192x2176, .f32⟩) main_v52) (TRef.of (T := ⟨S8192x2176, .f32⟩) main_v53) select ]

/-- Operations 66 … 86 of 131: the second weight matrix. -/
abbrev sW2 : List (HloOp τ sig (Elt F)) :=
  [ nullary main_cst_9 (constant S_ .f32 0x00000000#32),
    unary main_cst_9 main_v54 (broadcastInDim S2176x2176 ![] bcast_S_S2176x2176 : (⟨S_, .f32⟩ : BufTy).Contents (Elt F) → (⟨S2176x2176, .f32⟩ : BufTy).Contents (Elt F)),
    nullary main_c_10 (constantI S_ 32 0#32),
    unary main_c_10 main_v55 (broadcastInDim S1294336 ![] bcast_S_S1294336 : (⟨S_, .i32⟩ : BufTy).Contents (Elt F) → (⟨S1294336, .i32⟩ : BufTy).Contents (Elt F)),
    binary main_arg10 main_v55 main_v56 (cmpi .slt : (⟨S1294336, .i32⟩ : BufTy).Contents (Elt F) → (⟨S1294336, .i32⟩ : BufTy).Contents (Elt F) → (⟨S1294336, .i1⟩ : BufTy).Contents (Elt F)),
    nullary main_c_11 (constantI S_ 32 2176#32),
    unary main_c_11 main_v57 (broadcastInDim S1294336 ![] bcast_S_S1294336 : (⟨S_, .i32⟩ : BufTy).Contents (Elt F) → (⟨S1294336, .i32⟩ : BufTy).Contents (Elt F)),
    binary main_arg10 main_v57 main_v58 (addi : (⟨S1294336, .i32⟩ : BufTy).Contents (Elt F) → (⟨S1294336, .i32⟩ : BufTy).Contents (Elt F) → (⟨S1294336, .i32⟩ : BufTy).Contents (Elt F)),
    ternary main_v56 main_v58 main_arg10 main_v59 (select : (⟨S1294336, .i1⟩ : BufTy).Contents (Elt F) → (⟨S1294336, .i32⟩ : BufTy).Contents (Elt F) → (⟨S1294336, .i32⟩ : BufTy).Contents (Elt F) → (⟨S1294336, .i32⟩ : BufTy).Contents (Elt F)),
    nullary main_c_12 (constantI S_ 32 0#32),
    unary main_c_12 main_v60 (broadcastInDim S1294336 ![] bcast_S_S1294336 : (⟨S_, .i32⟩ : BufTy).Contents (Elt F) → (⟨S1294336, .i32⟩ : BufTy).Contents (Elt F)),
    binary main_arg11 main_v60 main_v61 (cmpi .slt : (⟨S1294336, .i32⟩ : BufTy).Contents (Elt F) → (⟨S1294336, .i32⟩ : BufTy).Contents (Elt F) → (⟨S1294336, .i1⟩ : BufTy).Contents (Elt F)),
    nullary main_c_13 (constantI S_ 32 2176#32),
    unary main_c_13 main_v62 (broadcastInDim S1294336 ![] bcast_S_S1294336 : (⟨S_, .i32⟩ : BufTy).Contents (Elt F) → (⟨S1294336, .i32⟩ : BufTy).Contents (Elt F)),
    binary main_arg11 main_v62 main_v63 (addi : (⟨S1294336, .i32⟩ : BufTy).Contents (Elt F) → (⟨S1294336, .i32⟩ : BufTy).Contents (Elt F) → (⟨S1294336, .i32⟩ : BufTy).Contents (Elt F)),
    ternary main_v61 main_v63 main_arg11 main_v64 (select : (⟨S1294336, .i1⟩ : BufTy).Contents (Elt F) → (⟨S1294336, .i32⟩ : BufTy).Contents (Elt F) → (⟨S1294336, .i32⟩ : BufTy).Contents (Elt F) → (⟨S1294336, .i32⟩ : BufTy).Contents (Elt F)),
    unary main_v59 main_v65 (broadcastInDim S1294336x1 ![0] bcast_S1294336_S1294336x1_0 : (⟨S1294336, .i32⟩ : BufTy).Contents (Elt F) → (⟨S1294336x1, .i32⟩ : BufTy).Contents (Elt F)),
    unary main_v64 main_v66 (broadcastInDim S1294336x1 ![0] bcast_S1294336_S1294336x1_0 : (⟨S1294336, .i32⟩ : BufTy).Contents (Elt F) → (⟨S1294336x1, .i32⟩ : BufTy).Contents (Elt F)),
    binary main_v65 main_v66 main_v67 ((fun a b => concatenate S1294336x2 1 [⟨S1294336x1, a⟩, ⟨S1294336x1, b⟩] concatenates_S1294336x1_S1294336x1_S1294336x2_d1) : (⟨S1294336x1, .i32⟩ : BufTy).Contents (Elt F) → (⟨S1294336x1, .i32⟩ : BufTy).Contents (Elt F) → (⟨S1294336x2, .i32⟩ : BufTy).Contents (Elt F)),
    ternary main_v54 main_v67 main_arg5 main_v68 ((fun x i u => Host.scatter scatter_S2176x2176_S1294336x2_S1294336_n_01_01_1 (fun _ b => b) x i u) : (⟨S2176x2176, .f32⟩ : BufTy).Contents (Elt F) → (⟨S1294336x2, .i32⟩ : BufTy).Contents (Elt F) → (⟨S1294336, .f32⟩ : BufTy).Contents (Elt F) → (⟨S2176x2176, .f32⟩ : BufTy).Contents (Elt F)),
    unary main_v68 main_v69 ((transpose S2176x2176 [1, 0] · transposes_S2176x2176_S2176x2176_1_0) : (⟨S2176x2176, .f32⟩ : BufTy).Contents (Elt F) → (⟨S2176x2176, .f32⟩ : BufTy).Contents (Elt F)) ]

/-- Operations 87 … 90 of 131: the second dense layer. -/
abbrev sD2 : List (HloOp τ sig (Elt F)) :=
  [ binary main_v53 main_v69 main_v70 ((fun l r => Host.dotGeneral dot_S8192x2176_S2176x2176_S8192x2176_1_0_0_1_n_n none l r) : (⟨S8192x2176, .f32⟩ : BufTy).Contents (Elt F) → (⟨S2176x2176, .f32⟩ : BufTy).Contents (Elt F) → (⟨S8192x2176, .f32⟩ : BufTy).Contents (Elt F)),
    unary main_arg6 main_v71 (broadcastInDim S1x2176 ![1] bcast_S2176_S1x2176_1 : (⟨S2176, .f32⟩ : BufTy).Contents (Elt F) → (⟨S1x2176, .f32⟩ : BufTy).Contents (Elt F)),
    unary main_v71 main_v72 (broadcastInDim S8192x2176 ![0, 1] bcast_S1x2176_S8192x2176_0_1 : (⟨S1x2176, .f32⟩ : BufTy).Contents (Elt F) → (⟨S8192x2176, .f32⟩ : BufTy).Contents (Elt F)),
    binary main_v70 main_v72 main_v73 (addf : (⟨S8192x2176, .f32⟩ : BufTy).Contents (Elt F) → (⟨S8192x2176, .f32⟩ : BufTy).Contents (Elt F) → (⟨S8192x2176, .f32⟩ : BufTy).Contents (Elt F)) ]

/-- Operations 91 … 130 of 131: the second normalisation and rectifier. -/
abbrev sL2 : List (HloOp τ sig (Elt F)) :=
  [ reshape main_v73 main_v74 rfl shapeCasts_S8192x2176_S8192x17x128,
    nullary main_cst_14 (constant S_ .f32 0x00000000#32),
    binary main_v74 main_cst_14 main_v75 ((fun x v => Host.reduceAdd x v reducesTo_S8192x17x128_S17_d0_2 h_S_) : (⟨S8192x17x128, .f32⟩ : BufTy).Contents (Elt F) → (⟨S_, .f32⟩ : BufTy).Contents (Elt F) → (⟨S17, .f32⟩ : BufTy).Contents (Elt F)),
    unary main_v75 main_v76 (broadcastInDim S1x17x1 ![1] bcast_S17_S1x17x1_1 : (⟨S17, .f32⟩ : BufTy).Contents (Elt F) → (⟨S1x17x1, .f32⟩ : BufTy).Contents (Elt F)),
    nullary main_cst_15 (constant S_ .f32 0x49800000#32),
    unary main_cst_15 main_v77 (broadcastInDim S1x17x1 ![] bcast_S_S1x17x1 : (⟨S_, .f32⟩ : BufTy).Contents (Elt F) → (⟨S1x17x1, .f32⟩ : BufTy).Contents (Elt F)),
    binary main_v76 main_v77 main_v78 (Host.divf : (⟨S1x17x1, .f32⟩ : BufTy).Contents (Elt F) → (⟨S1x17x1, .f32⟩ : BufTy).Contents (Elt F) → (⟨S1x17x1, .f32⟩ : BufTy).Contents (Elt F)),
    unary main_v78 main_v79 (broadcastInDim S8192x17x128 ![0, 1, 2] bcast_S1x17x1_S8192x17x128_0_1_2 : (⟨S1x17x1, .f32⟩ : BufTy).Contents (Elt F) → (⟨S8192x17x128, .f32⟩ : BufTy).Contents (Elt F)),
    binary main_v74 main_v79 main_v80 (subf : (⟨S8192x17x128, .f32⟩ : BufTy).Contents (Elt F) → (⟨S8192x17x128, .f32⟩ : BufTy).Contents (Elt F) → (⟨S8192x17x128, .f32⟩ : BufTy).Contents (Elt F)),
    binary main_v80 main_v80 main_v81 (mulf : (⟨S8192x17x128, .f32⟩ : BufTy).Contents (Elt F) → (⟨S8192x17x128, .f32⟩ : BufTy).Contents (Elt F) → (⟨S8192x17x128, .f32⟩ : BufTy).Contents (Elt F)),
    nullary main_cst_16 (constant S_ .f32 0x00000000#32),
    binary main_v81 main_cst_16 main_v82 ((fun x v => Host.reduceAdd x v reducesTo_S8192x17x128_S17_d0_2 h_S_) : (⟨S8192x17x128, .f32⟩ : BufTy).Contents (Elt F) → (⟨S_, .f32⟩ : BufTy).Contents (Elt F) → (⟨S17, .f32⟩ : BufTy).Contents (Elt F)),
    unary main_v82 main_v83 (broadcastInDim S1x17x1 ![1] bcast_S17_S1x17x1_1 : (⟨S17, .f32⟩ : BufTy).Contents (Elt F) → (⟨S1x17x1, .f32⟩ : BufTy).Contents (Elt F)),
    nullary main_cst_17 (constant S_ .f32 0x49800000#32),
    unary main_cst_17 main_v84 (broadcastInDim S1x17x1 ![] bcast_S_S1x17x1 : (⟨S_, .f32⟩ : BufTy).Contents (Elt F) → (⟨S1x17x1, .f32⟩ : BufTy).Contents (Elt F)),
    binary main_v83 main_v84 main_v85 (Host.divf : (⟨S1x17x1, .f32⟩ : BufTy).Contents (Elt F) → (⟨S1x17x1, .f32⟩ : BufTy).Contents (Elt F) → (⟨S1x17x1, .f32⟩ : BufTy).Contents (Elt F)),
    unary main_v78 main_v86 (broadcastInDim S8192x17x128 ![0, 1, 2] bcast_S1x17x1_S8192x17x128_0_1_2 : (⟨S1x17x1, .f32⟩ : BufTy).Contents (Elt F) → (⟨S8192x17x128, .f32⟩ : BufTy).Contents (Elt F)),
    binary main_v74 main_v86 main_v87 (subf : (⟨S8192x17x128, .f32⟩ : BufTy).Contents (Elt F) → (⟨S8192x17x128, .f32⟩ : BufTy).Contents (Elt F) → (⟨S8192x17x128, .f32⟩ : BufTy).Contents (Elt F)),
    nullary main_cst_18 (constant S_ .f32 0x3727C5AC#32),
    unary main_cst_18 main_v88 (broadcastInDim S1x17x1 ![] bcast_S_S1x17x1 : (⟨S_, .f32⟩ : BufTy).Contents (Elt F) → (⟨S1x17x1, .f32⟩ : BufTy).Contents (Elt F)),
    binary main_v85 main_v88 main_v89 (addf : (⟨S1x17x1, .f32⟩ : BufTy).Contents (Elt F) → (⟨S1x17x1, .f32⟩ : BufTy).Contents (Elt F) → (⟨S1x17x1, .f32⟩ : BufTy).Contents (Elt F)),
    unary main_v89 main_v90 (Host.sqrt : (⟨S1x17x1, .f32⟩ : BufTy).Contents (Elt F) → (⟨S1x17x1, .f32⟩ : BufTy).Contents (Elt F)),
    unary main_v90 main_v91 (broadcastInDim S8192x17x128 ![0, 1, 2] bcast_S1x17x1_S8192x17x128_0_1_2 : (⟨S1x17x1, .f32⟩ : BufTy).Contents (Elt F) → (⟨S8192x17x128, .f32⟩ : BufTy).Contents (Elt F)),
    binary main_v87 main_v91 main_v92 (Host.divf : (⟨S8192x17x128, .f32⟩ : BufTy).Contents (Elt F) → (⟨S8192x17x128, .f32⟩ : BufTy).Contents (Elt F) → (⟨S8192x17x128, .f32⟩ : BufTy).Contents (Elt F)),
    unary main_arg7 main_v93 (broadcastInDim S17x1 ![0] bcast_S17_S17x1_0 : (⟨S17, .f32⟩ : BufTy).Contents (Elt F) → (⟨S17x1, .f32⟩ : BufTy).Contents (Elt F)),
    unary main_v93 main_v94 (broadcastInDim S1x17x1 ![1, 2] bcast_S17x1_S1x17x1_1_2 : (⟨S17x1, .f32⟩ : BufTy).Contents (Elt F) → (⟨S1x17x1, .f32⟩ : BufTy).Contents (Elt F)),
    unary main_v94 main_v95 (broadcastInDim S8192x17x128 ![0, 1, 2] bcast_S1x17x1_S8192x17x128_0_1_2 : (⟨S1x17x1, .f32⟩ : BufTy).Contents (Elt F) → (⟨S8192x17x128, .f32⟩ : BufTy).Contents (Elt F)),
    binary main_v92 main_v95 main_v96 (mulf : (⟨S8192x17x128, .f32⟩ : BufTy).Contents (Elt F) → (⟨S8192x17x128, .f32⟩ : BufTy).Contents (Elt F) → (⟨S8192x17x128, .f32⟩ : BufTy).Contents (Elt F)),
    unary main_arg8 main_v97 (broadcastInDim S17x1 ![0] bcast_S17_S17x1_0 : (⟨S17, .f32⟩ : BufTy).Contents (Elt F) → (⟨S17x1, .f32⟩ : BufTy).Contents (Elt F)),
    unary main_v97 main_v98 (broadcastInDim S1x17x1 ![1, 2] bcast_S17x1_S1x17x1_1_2 : (⟨S17x1, .f32⟩ : BufTy).Contents (Elt F) → (⟨S1x17x1, .f32⟩ : BufTy).Contents (Elt F)),
    unary main_v98 main_v99 (broadcastInDim S8192x17x128 ![0, 1, 2] bcast_S1x17x1_S8192x17x128_0_1_2 : (⟨S1x17x1, .f32⟩ : BufTy).Contents (Elt F) → (⟨S8192x17x128, .f32⟩ : BufTy).Contents (Elt F)),
    binary main_v96 main_v99 main_v100 (addf : (⟨S8192x17x128, .f32⟩ : BufTy).Contents (Elt F) → (⟨S8192x17x128, .f32⟩ : BufTy).Contents (Elt F) → (⟨S8192x17x128, .f32⟩ : BufTy).Contents (Elt F)),
    reshape main_v100 main_v101 rfl shapeCasts_S8192x17x128_S8192x2176,
    nullary main_cst_19 (constant S_ .f32 0x00000000#32),
    unary main_cst_19 main_v102 (broadcastInDim S8192x2176 ![] bcast_S_S8192x2176 : (⟨S_, .f32⟩ : BufTy).Contents (Elt F) → (⟨S8192x2176, .f32⟩ : BufTy).Contents (Elt F)),
    binary main_v101 main_v102 main_v103 (cmpf .oge : (⟨S8192x2176, .f32⟩ : BufTy).Contents (Elt F) → (⟨S8192x2176, .f32⟩ : BufTy).Contents (Elt F) → (⟨S8192x2176, .i1⟩ : BufTy).Contents (Elt F)),
    reshape main_arg9 main_v104 rfl shapeCasts_S1_S_,
    unary main_v104 main_v105 (broadcastInDim S8192x2176 ![] bcast_S_S8192x2176 : (⟨S_, .f32⟩ : BufTy).Contents (Elt F) → (⟨S8192x2176, .f32⟩ : BufTy).Contents (Elt F)),
    binary main_v105 main_v101 main_v106 (mulf : (⟨S8192x2176, .f32⟩ : BufTy).Contents (Elt F) → (⟨S8192x2176, .f32⟩ : BufTy).Contents (Elt F) → (⟨S8192x2176, .f32⟩ : BufTy).Contents (Elt F)),
    TRef.ternary (TRef.of (T := ⟨S8192x2176, .i1⟩) main_v103) (TRef.of (T := ⟨S8192x2176, .f32⟩) main_v101) (TRef.of (T := ⟨S8192x2176, .f32⟩) main_v106) (TRef.of (T := ⟨S8192x2176, .f32⟩) main_v107) select ]

/-- Operations 131 … 131 of 131: the residual sum. -/
abbrev sOut : List (HloOp τ sig (Elt F)) :=
  [ binary main_arg0 main_v107 main_v108 (addf : (⟨S8192x2176, .f32⟩ : BufTy).Contents (Elt F) → (⟨S8192x2176, .f32⟩ : BufTy).Contents (Elt F) → (⟨S8192x2176, .f32⟩ : BufTy).Contents (Elt F)) ]

/-- @main's 131 operations, in order: the seven stages one after the other. -/
abbrev ops : List (HloOp τ sig (Elt F)) := sW1 ++ sD1 ++ sL1 ++ sW2 ++ sD2 ++ sL2 ++ sOut

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem sW1_sub : (sW1 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub ..⟩
theorem sD1_sub : (sD1 : List (HloOp τ sig (Elt F))).Forall fun op => op.bufs ⊆ tcRefs τ sig :=
  ⟨binary_bufs_sub .., unary_bufs_sub .., unary_bufs_sub .., binary_bufs_sub ..⟩
theorem sL1_sub : (sL1 : List (HloOp τ sig (Elt F))).Forall fun op => op.bufs ⊆ tcRefs τ sig :=
  ⟨reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., reshape_bufs_sub .., nullary_bufs_sub .., unary_bufs_sub .., binary_bufs_sub .., reshape_bufs_sub .., unary_bufs_sub .., binary_bufs_sub .., ternary_bufs_sub ..⟩
theorem sW2_sub : (sW2 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub ..⟩
theorem sD2_sub : (sD2 : List (HloOp τ sig (Elt F))).Forall fun op => op.bufs ⊆ tcRefs τ sig :=
  ⟨binary_bufs_sub .., unary_bufs_sub .., unary_bufs_sub .., binary_bufs_sub ..⟩
theorem sL2_sub : (sL2 : List (HloOp τ sig (Elt F))).Forall fun op => op.bufs ⊆ tcRefs τ sig :=
  ⟨reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., reshape_bufs_sub .., nullary_bufs_sub .., unary_bufs_sub .., binary_bufs_sub .., reshape_bufs_sub .., unary_bufs_sub .., binary_bufs_sub .., ternary_bufs_sub ..⟩
theorem sOut_sub : (sOut : List (HloOp τ sig (Elt F))).Forall fun op => op.bufs ⊆ tcRefs τ sig :=
  binary_bufs_sub ..

theorem ops_sub : (ops : List (HloOp τ sig (Elt F))).Forall fun op => op.bufs ⊆ tcRefs τ sig :=
  List.forall_iff_forall_mem.mpr fun op h => by
    simp only [ops, List.mem_append] at h
    rcases h with (((((h | h) | h) | h) | h) | h) | h
    exacts [List.forall_iff_forall_mem.mp sW1_sub op h, List.forall_iff_forall_mem.mp sD1_sub op h, List.forall_iff_forall_mem.mp sL1_sub op h, List.forall_iff_forall_mem.mp sW2_sub op h, List.forall_iff_forall_mem.mp sD2_sub op h, List.forall_iff_forall_mem.mp sL2_sub op h, List.forall_iff_forall_mem.mp sOut_sub op h]

/-- The fold over two lines one after the other is the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem sW1_fresh : ∀ op ∈ (sW1 : List (HloOp τ sig (Elt F))), op.fresh = ∅ := by
  intro _ h; (repeat (cases h with | head => rfl | tail _ h => ?_)); exact nomatch h
theorem sD1_fresh : ∀ op ∈ (sD1 : List (HloOp τ sig (Elt F))), op.fresh = ∅ := by
  intro _ h; (repeat (cases h with | head => rfl | tail _ h => ?_)); exact nomatch h
theorem sL1_fresh : ∀ op ∈ (sL1 : List (HloOp τ sig (Elt F))), op.fresh = ∅ := by
  intro _ h; (repeat (cases h with | head => rfl | tail _ h => ?_)); exact nomatch h
theorem sW2_fresh : ∀ op ∈ (sW2 : List (HloOp τ sig (Elt F))), op.fresh = ∅ := by
  intro _ h; (repeat (cases h with | head => rfl | tail _ h => ?_)); exact nomatch h
theorem sD2_fresh : ∀ op ∈ (sD2 : List (HloOp τ sig (Elt F))), op.fresh = ∅ := by
  intro _ h; (repeat (cases h with | head => rfl | tail _ h => ?_)); exact nomatch h
theorem sL2_fresh : ∀ op ∈ (sL2 : List (HloOp τ sig (Elt F))), op.fresh = ∅ := by
  intro _ h; (repeat (cases h with | head => rfl | tail _ h => ?_)); exact nomatch h
theorem sOut_fresh : ∀ op ∈ (sOut : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with (((((h | h) | h) | h) | h) | h) | h
  exacts [sW1_fresh op h, sD1_fresh op h, sL1_fresh op h, sW2_fresh op h, sD2_fresh op h, sL2_fresh op h, sOut_fresh op h]

/-- On every device, for any float values, from any memory with zero counters: every weakly fair execution of
    @main terminates with every buffer at the fold of the 131 operations over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.HandRun

end
-- ==== Proof.RefValue.lean ====
/-
  The reference program's result read off its operation list: each of the seven stages computes, from any contents
  of the buffers, one named function of the buffers it reads and leaves every other buffer alone; chained, the
  result buffer holds the residual sum of the input and two rounds of dense layer, grouped normalisation and
  rectifier over the two scattered weight matrices, and no argument buffer is ever written.
-/
import proofs.«123252_j59356448030849_1_alg».proof.Proof.RefRun
import proofs.«123252_j59356448030849_1_alg».proof.Proof.HostTerms

noncomputable section

namespace Cert.ReferenceIdeal.HandRun

open Cert.ReferenceIdeal Cert.ReferenceIdeal.Gen Cert.HostTerms Idealize.ShloMosaic Idealize.ShloMosaic.TcCoe Idealize.SL.Sem Idealize.ShloMosaic.StableHlo

/-! ## Each stage's result, from any contents of the buffers -/

set_option maxRecDepth 8192 in
set_option maxHeartbeats 1000000 in
/-- The first weight matrix, from any contents. -/
theorem sW1_val (V : Valuation τ sig (Elt Ideal)) :
    after (sW1 (F := Ideal)) V (Proc.devRef .tc main_v15) = R.weights (V (Proc.devRef .tc main_arg10)) (V (Proc.devRef .tc main_arg11)) (V (Proc.devRef .tc main_arg1)) := by
  after_results_simp; rfl

/-- The first dense layer, from any contents. -/
theorem sD1_val (V : Valuation τ sig (Elt Ideal)) :
    after (sD1 (F := Ideal)) V (Proc.devRef .tc main_v19) = R.dense (V (Proc.devRef .tc main_arg0)) (V (Proc.devRef .tc main_v15)) (V (Proc.devRef .tc main_arg2)) := by
  after_results; rfl

set_option maxRecDepth 8192 in
set_option maxHeartbeats 2000000 in
/-- The first normalisation and rectifier, from any contents. -/
theorem sL1_val (V : Valuation τ sig (Elt Ideal)) :
    after (sL1 (F := Ideal)) V (Proc.devRef .tc main_v53) = R.layer (V (Proc.devRef .tc main_v19)) (V (Proc.devRef .tc main_arg3)) (V (Proc.devRef .tc main_arg4)) (V (Proc.devRef .tc main_arg9)) := by
  after_results_simp; rfl

set_option maxRecDepth 8192 in
set_option maxHeartbeats 1000000 in
/-- The second weight matrix, from any contents. -/
theorem sW2_val (V : Valuation τ sig (Elt Ideal)) :
    after (sW2 (F := Ideal)) V (Proc.devRef .tc main_v69) = R.weights (V (Proc.devRef .tc main_arg10)) (V (Proc.devRef .tc main_arg11)) (V (Proc.devRef .tc main_arg5)) := by
  after_results_simp; rfl

/-- The second dense layer, from any contents. -/
theorem sD2_val (V : Valuation τ sig (Elt Ideal)) :
    after (sD2 (F := Ideal)) V (Proc.devRef .tc main_v73) = R.dense (V (Proc.devRef .tc main_v53)) (V (Proc.devRef .tc main_v69)) (V (Proc.devRef .tc main_arg6)) := by
  after_results; rfl

set_option maxRecDepth 8192 in
set_option maxHeartbeats 2000000 in
/-- The second normalisation and rectifier, from any contents. -/
theorem sL2_val (V : Valuation τ sig (Elt Ideal)) :
    after (sL2 (F := Ideal)) V (Proc.devRef .tc main_v107) = R.layer (V (Proc.devRef .tc main_v73)) (V (Proc.devRef .tc main_arg7)) (V (Proc.devRef .tc main_arg8)) (V (Proc.devRef .tc main_arg9)) := by
  after_results_simp; rfl

/-- The residual sum, from any contents. -/
theorem sOut_val (V : Valuation τ sig (Elt Ideal)) :
    after (sOut (F := Ideal)) V (Proc.devRef .tc main_v108) = addf (F := Ideal) (s := S8192x2176) (φ := .f32) (V (Proc.devRef .tc main_arg0)) (V (Proc.devRef .tc main_v107)) := by
  after_results

/-! ## What each stage leaves alone -/

/-- An operation that writes one buffer of a list writes within the list. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The buffers stage sW1 writes. -/
abbrev wW1 : List (Ref sig .tc) := [main_cst, main_v0, main_c, main_v1, main_v2, main_c_0, main_v3, main_v4, main_v5, main_c_1, main_v6, main_v7, main_c_2, main_v8, main_v9, main_v10, main_v11, main_v12, main_v13, main_v14, main_v15]

theorem sW1_writes : (sW1 : List (HloOp τ sig (Elt Ideal))).Forall fun op => op.writes ⊆ (wW1.map (Proc.devRef (τ := τ) .tc)).toFinset :=
  ⟨single_sub (y := main_cst) (by decide), single_sub (y := main_v0) (by decide), single_sub (y := main_c) (by decide), single_sub (y := main_v1) (by decide), single_sub (y := main_v2) (by decide), single_sub (y := main_c_0) (by decide), single_sub (y := main_v3) (by decide), single_sub (y := main_v4) (by decide), single_sub (y := main_v5) (by decide), single_sub (y := main_c_1) (by decide), single_sub (y := main_v6) (by decide), single_sub (y := main_v7) (by decide), single_sub (y := main_c_2) (by decide), single_sub (y := main_v8) (by decide), single_sub (y := main_v9) (by decide), single_sub (y := main_v10) (by decide), single_sub (y := main_v11) (by decide), single_sub (y := main_v12) (by decide), single_sub (y := main_v13) (by decide), single_sub (y := main_v14) (by decide), single_sub (y := main_v15) (by decide)⟩

/-- A buffer stage sW1 does not write keeps its contents. -/
theorem sW1_keep (V : Valuation τ sig (Elt Ideal)) {r : Ref sig .tc} (hr : r ∉ wW1) : after sW1 V (Proc.devRef .tc r) = V (Proc.devRef .tc r) :=
  after_of_writes_sub sW1 V sW1_writes hr

/-- The buffers stage sD1 writes. -/
abbrev wD1 : List (Ref sig .tc) := [main_v16, main_v17, main_v18, main_v19]

theorem sD1_writes : (sD1 : List (HloOp τ sig (Elt Ideal))).Forall fun op => op.writes ⊆ (wD1.map (Proc.devRef (τ := τ) .tc)).toFinset :=
  ⟨single_sub (y := main_v16) (by decide), single_sub (y := main_v17) (by decide), single_sub (y := main_v18) (by decide), single_sub (y := main_v19) (by decide)⟩

/-- A buffer stage sD1 does not write keeps its contents. -/
theorem sD1_keep (V : Valuation τ sig (Elt Ideal)) {r : Ref sig .tc} (hr : r ∉ wD1) : after sD1 V (Proc.devRef .tc r) = V (Proc.devRef .tc r) :=
  after_of_writes_sub sD1 V sD1_writes hr

/-- The buffers stage sL1 writes. -/
abbrev wL1 : List (Ref sig .tc) := [main_v20, main_cst_3, main_v21, main_v22, main_cst_4, main_v23, main_v24, main_v25, main_v26, main_v27, main_cst_5, main_v28, main_v29, main_cst_6, main_v30, main_v31, main_v32, main_v33, main_cst_7, main_v34, main_v35, main_v36, main_v37, main_v38, main_v39, main_v40, main_v41, main_v42, main_v43, main_v44, main_v45, main_v46, main_v47, main_cst_8, main_v48, main_v49, main_v50, main_v51, main_v52, main_v53]

theorem sL1_writes : (sL1 : List (HloOp τ sig (Elt Ideal))).Forall fun op => op.writes ⊆ (wL1.map (Proc.devRef (τ := τ) .tc)).toFinset :=
  ⟨single_sub (y := main_v20) (by decide), single_sub (y := main_cst_3) (by decide), single_sub (y := main_v21) (by decide), single_sub (y := main_v22) (by decide), single_sub (y := main_cst_4) (by decide), single_sub (y := main_v23) (by decide), single_sub (y := main_v24) (by decide), single_sub (y := main_v25) (by decide), single_sub (y := main_v26) (by decide), single_sub (y := main_v27) (by decide), single_sub (y := main_cst_5) (by decide), single_sub (y := main_v28) (by decide), single_sub (y := main_v29) (by decide), single_sub (y := main_cst_6) (by decide), single_sub (y := main_v30) (by decide), single_sub (y := main_v31) (by decide), single_sub (y := main_v32) (by decide), single_sub (y := main_v33) (by decide), single_sub (y := main_cst_7) (by decide), single_sub (y := main_v34) (by decide), single_sub (y := main_v35) (by decide), single_sub (y := main_v36) (by decide), single_sub (y := main_v37) (by decide), single_sub (y := main_v38) (by decide), single_sub (y := main_v39) (by decide), single_sub (y := main_v40) (by decide), single_sub (y := main_v41) (by decide), single_sub (y := main_v42) (by decide), single_sub (y := main_v43) (by decide), single_sub (y := main_v44) (by decide), single_sub (y := main_v45) (by decide), single_sub (y := main_v46) (by decide), single_sub (y := main_v47) (by decide), single_sub (y := main_cst_8) (by decide), single_sub (y := main_v48) (by decide), single_sub (y := main_v49) (by decide), single_sub (y := main_v50) (by decide), single_sub (y := main_v51) (by decide), single_sub (y := main_v52) (by decide), single_sub (y := main_v53) (by decide)⟩

/-- A buffer stage sL1 does not write keeps its contents. -/
theorem sL1_keep (V : Valuation τ sig (Elt Ideal)) {r : Ref sig .tc} (hr : r ∉ wL1) : after sL1 V (Proc.devRef .tc r) = V (Proc.devRef .tc r) :=
  after_of_writes_sub sL1 V sL1_writes hr

/-- The buffers stage sW2 writes. -/
abbrev wW2 : List (Ref sig .tc) := [main_cst_9, main_v54, main_c_10, main_v55, main_v56, main_c_11, main_v57, main_v58, main_v59, main_c_12, main_v60, main_v61, main_c_13, main_v62, main_v63, main_v64, main_v65, main_v66, main_v67, main_v68, main_v69]

theorem sW2_writes : (sW2 : List (HloOp τ sig (Elt Ideal))).Forall fun op => op.writes ⊆ (wW2.map (Proc.devRef (τ := τ) .tc)).toFinset :=
  ⟨single_sub (y := main_cst_9) (by decide), single_sub (y := main_v54) (by decide), single_sub (y := main_c_10) (by decide), single_sub (y := main_v55) (by decide), single_sub (y := main_v56) (by decide), single_sub (y := main_c_11) (by decide), single_sub (y := main_v57) (by decide), single_sub (y := main_v58) (by decide), single_sub (y := main_v59) (by decide), single_sub (y := main_c_12) (by decide), single_sub (y := main_v60) (by decide), single_sub (y := main_v61) (by decide), single_sub (y := main_c_13) (by decide), single_sub (y := main_v62) (by decide), single_sub (y := main_v63) (by decide), single_sub (y := main_v64) (by decide), single_sub (y := main_v65) (by decide), single_sub (y := main_v66) (by decide), single_sub (y := main_v67) (by decide), single_sub (y := main_v68) (by decide), single_sub (y := main_v69) (by decide)⟩

/-- A buffer stage sW2 does not write keeps its contents. -/
theorem sW2_keep (V : Valuation τ sig (Elt Ideal)) {r : Ref sig .tc} (hr : r ∉ wW2) : after sW2 V (Proc.devRef .tc r) = V (Proc.devRef .tc r) :=
  after_of_writes_sub sW2 V sW2_writes hr

/-- The buffers stage sD2 writes. -/
abbrev wD2 : List (Ref sig .tc) := [main_v70, main_v71, main_v72, main_v73]

theorem sD2_writes : (sD2 : List (HloOp τ sig (Elt Ideal))).Forall fun op => op.writes ⊆ (wD2.map (Proc.devRef (τ := τ) .tc)).toFinset :=
  ⟨single_sub (y := main_v70) (by decide), single_sub (y := main_v71) (by decide), single_sub (y := main_v72) (by decide), single_sub (y := main_v73) (by decide)⟩

/-- A buffer stage sD2 does not write keeps its contents. -/
theorem sD2_keep (V : Valuation τ sig (Elt Ideal)) {r : Ref sig .tc} (hr : r ∉ wD2) : after sD2 V (Proc.devRef .tc r) = V (Proc.devRef .tc r) :=
  after_of_writes_sub sD2 V sD2_writes hr

/-- The buffers stage sL2 writes. -/
abbrev wL2 : List (Ref sig .tc) := [main_v74, main_cst_14, main_v75, main_v76, main_cst_15, main_v77, main_v78, main_v79, main_v80, main_v81, main_cst_16, main_v82, main_v83, main_cst_17, main_v84, main_v85, main_v86, main_v87, main_cst_18, main_v88, main_v89, main_v90, main_v91, main_v92, main_v93, main_v94, main_v95, main_v96, main_v97, main_v98, main_v99, main_v100, main_v101, main_cst_19, main_v102, main_v103, main_v104, main_v105, main_v106, main_v107]

theorem sL2_writes : (sL2 : List (HloOp τ sig (Elt Ideal))).Forall fun op => op.writes ⊆ (wL2.map (Proc.devRef (τ := τ) .tc)).toFinset :=
  ⟨single_sub (y := main_v74) (by decide), single_sub (y := main_cst_14) (by decide), single_sub (y := main_v75) (by decide), single_sub (y := main_v76) (by decide), single_sub (y := main_cst_15) (by decide), single_sub (y := main_v77) (by decide), single_sub (y := main_v78) (by decide), single_sub (y := main_v79) (by decide), single_sub (y := main_v80) (by decide), single_sub (y := main_v81) (by decide), single_sub (y := main_cst_16) (by decide), single_sub (y := main_v82) (by decide), single_sub (y := main_v83) (by decide), single_sub (y := main_cst_17) (by decide), single_sub (y := main_v84) (by decide), single_sub (y := main_v85) (by decide), single_sub (y := main_v86) (by decide), single_sub (y := main_v87) (by decide), single_sub (y := main_cst_18) (by decide), single_sub (y := main_v88) (by decide), single_sub (y := main_v89) (by decide), single_sub (y := main_v90) (by decide), single_sub (y := main_v91) (by decide), single_sub (y := main_v92) (by decide), single_sub (y := main_v93) (by decide), single_sub (y := main_v94) (by decide), single_sub (y := main_v95) (by decide), single_sub (y := main_v96) (by decide), single_sub (y := main_v97) (by decide), single_sub (y := main_v98) (by decide), single_sub (y := main_v99) (by decide), single_sub (y := main_v100) (by decide), single_sub (y := main_v101) (by decide), single_sub (y := main_cst_19) (by decide), single_sub (y := main_v102) (by decide), single_sub (y := main_v103) (by decide), single_sub (y := main_v104) (by decide), single_sub (y := main_v105) (by decide), single_sub (y := main_v106) (by decide), single_sub (y := main_v107) (by decide)⟩

/-- A buffer stage sL2 does not write keeps its contents. -/
theorem sL2_keep (V : Valuation τ sig (Elt Ideal)) {r : Ref sig .tc} (hr : r ∉ wL2) : after sL2 V (Proc.devRef .tc r) = V (Proc.devRef .tc r) :=
  after_of_writes_sub sL2 V sL2_writes hr

/-- The buffers stage sOut writes. -/
abbrev wOut : List (Ref sig .tc) := [main_v108]

theorem sOut_writes : (sOut : List (HloOp τ sig (Elt Ideal))).Forall fun op => op.writes ⊆ (wOut.map (Proc.devRef (τ := τ) .tc)).toFinset :=
  single_sub (y := main_v108) (by decide)

/-- A buffer stage sOut does not write keeps its contents. -/
theorem sOut_keep (V : Valuation τ sig (Elt Ideal)) {r : Ref sig .tc} (hr : r ∉ wOut) : after sOut V (Proc.devRef .tc r) = V (Proc.devRef .tc r) :=
  after_of_writes_sub sOut V sOut_writes hr

/-! ## The stages chained -/

/-- The fold over the whole list is the seven stages' folds, one over the other. -/
theorem after_ops (V : Valuation τ sig (Elt Ideal)) :
    after (ops (F := Ideal)) V = after sOut (after sL2 (after sD2 (after sW2 (after sL1 (after sD1 (after sW1 V)))))) := by
  simp only [ops, after_append]

/-- From any contents: the result buffer after all the operations is the residual sum of the input and the two
    rounds over it, as a term of the twelve argument buffers. -/
theorem result_of (V : Valuation τ sig (Elt Ideal)) :
    after (ops (F := Ideal)) V (Proc.devRef .tc main_v108)
      = addf (F := Ideal) (s := S8192x2176) (φ := .f32) (V (Proc.devRef .tc main_arg0))
        (R.layer
          (R.dense
            (R.layer (R.dense (V (Proc.devRef .tc main_arg0)) (R.weights (V (Proc.devRef .tc main_arg10)) (V (Proc.devRef .tc main_arg11)) (V (Proc.devRef .tc main_arg1))) (V (Proc.devRef .tc main_arg2)))
              (V (Proc.devRef .tc main_arg3)) (V (Proc.devRef .tc main_arg4)) (V (Proc.devRef .tc main_arg9)))
            (R.weights (V (Proc.devRef .tc main_arg10)) (V (Proc.devRef .tc main_arg11)) (V (Proc.devRef .tc main_arg5))) (V (Proc.devRef .tc main_arg6)))
          (V (Proc.devRef .tc main_arg7)) (V (Proc.devRef .tc main_arg8)) (V (Proc.devRef .tc main_arg9))) := by
  rw [after_ops, sOut_val, sL2_val, sL2_keep _ (r := main_arg0) (by decide)]
  rw [sD2_val, sD2_keep _ (r := main_arg0) (by decide), sD2_keep _ (r := main_arg7) (by decide), sD2_keep _ (r := main_arg8) (by decide), sD2_keep _ (r := main_arg9) (by decide)]
  rw [sW2_val, sW2_keep _ (r := main_v53) (by decide), sW2_keep _ (r := main_arg6) (by decide), sW2_keep _ (r := main_arg0) (by decide), sW2_keep _ (r := main_arg7) (by decide), sW2_keep _ (r := main_arg8) (by decide), sW2_keep _ (r := main_arg9) (by decide)]
  rw [sL1_val, sL1_keep _ (r := main_arg10) (by decide), sL1_keep _ (r := main_arg11) (by decide), sL1_keep _ (r := main_arg5) (by decide), sL1_keep _ (r := main_arg6) (by decide), sL1_keep _ (r := main_arg0) (by decide), sL1_keep _ (r := main_arg7) (by decide), sL1_keep _ (r := main_arg8) (by decide), sL1_keep _ (r := main_arg9) (by decide)]
  rw [sD1_val, sD1_keep _ (r := main_arg3) (by decide), sD1_keep _ (r := main_arg4) (by decide), sD1_keep _ (r := main_arg9) (by decide), sD1_keep _ (r := main_arg10) (by decide), sD1_keep _ (r := main_arg11) (by decide), sD1_keep _ (r := main_arg5) (by decide), sD1_keep _ (r := main_arg6) (by decide), sD1_keep _ (r := main_arg0) (by decide), sD1_keep _ (r := main_arg7) (by decide), sD1_keep _ (r := main_arg8) (by decide)]
  rw [sW1_val, sW1_keep _ (r := main_arg0) (by decide), sW1_keep _ (r := main_arg2) (by decide), sW1_keep _ (r := main_arg3) (by decide), sW1_keep _ (r := main_arg4) (by decide), sW1_keep _ (r := main_arg9) (by decide), sW1_keep _ (r := main_arg10) (by decide), sW1_keep _ (r := main_arg11) (by decide), sW1_keep _ (r := main_arg5) (by decide), sW1_keep _ (r := main_arg6) (by decide), sW1_keep _ (r := main_arg7) (by decide), sW1_keep _ (r := main_arg8) (by decide)]

/-- A buffer none of the seven stages writes keeps its contents through the whole list. -/
theorem ops_keep (V : Valuation τ sig (Elt Ideal)) {r : Ref sig .tc} (h1 : r ∉ wW1) (h2 : r ∉ wD1) (h3 : r ∉ wL1) (h4 : r ∉ wW2)
    (h5 : r ∉ wD2) (h6 : r ∉ wL2) (h7 : r ∉ wOut) :
    after (ops (F := Ideal)) V (Proc.devRef .tc r) = V (Proc.devRef .tc r) := by
  rw [after_ops, sOut_keep _ h7, sL2_keep _ h6, sD2_keep _ h5, sW2_keep _ h4, sL1_keep _ h3, sD1_keep _ h2, sW1_keep _ h1]

/-! ## At the launch contents -/

/-- On a device, from the launch memory: the result buffer after all the operations, over the launch contents of the
    twelve arguments. -/
theorem result (m : (ℓ : Loc nD τ sig) → Buf (Elt Ideal) ℓ) (d : Dev nD) :
    after (ops (F := Ideal)) (launchContents m d) (Proc.devRef .tc main_v108)
      = addf (F := Ideal) (s := S8192x2176) (φ := .f32) (m ((d.tc : Thread nD τ).loc main_arg0))
        (R.layer
          (R.dense
            (R.layer (R.dense (m ((d.tc : Thread nD τ).loc main_arg0)) (R.weights (m ((d.tc : Thread nD τ).loc main_arg10)) (m ((d.tc : Thread nD τ).loc main_arg11)) (m ((d.tc : Thread nD τ).loc main_arg1))) (m ((d.tc : Thread nD τ).loc main_arg2)))
              (m ((d.tc : Thread nD τ).loc main_arg3)) (m ((d.tc : Thread nD τ).loc main_arg4)) (m ((d.tc : Thread nD τ).loc main_arg9)))
            (R.weights (m ((d.tc : Thread nD τ).loc main_arg10)) (m ((d.tc : Thread nD τ).loc main_arg11)) (m ((d.tc : Thread nD τ).loc main_arg5))) (m ((d.tc : Thread nD τ).loc main_arg6)))
          (m ((d.tc : Thread nD τ).loc main_arg7)) (m ((d.tc : Thread nD τ).loc main_arg8)) (m ((d.tc : Thread nD τ).loc main_arg9))) :=
  result_of (launchContents m d)

/-- No operation writes argument 0. -/
theorem kept_arg0 (m : (ℓ : Loc nD τ sig) → Buf (Elt Ideal) ℓ) (d : Dev nD) :
    after (ops (F := Ideal)) (launchContents m d) (Proc.devRef .tc main_arg0) = m ((d.tc : Thread nD τ).loc main_arg0) :=
  ops_keep (launchContents m d) (by decide) (by decide) (by decide) (by decide) (by decide) (by decide) (by decide)

/-- No operation writes argument 1. -/
theorem kept_arg1 (m : (ℓ : Loc nD τ sig) → Buf (Elt Ideal) ℓ) (d : Dev nD) :
    after (ops (F := Ideal)) (launchContents m d) (Proc.devRef .tc main_arg1) = m ((d.tc : Thread nD τ).loc main_arg1) :=
  ops_keep (launchContents m d) (by decide) (by decide) (by decide) (by decide) (by decide) (by decide) (by decide)

/-- No operation writes argument 2. -/
theorem kept_arg2 (m : (ℓ : Loc nD τ sig) → Buf (Elt Ideal) ℓ) (d : Dev nD) :
    after (ops (F := Ideal)) (launchContents m d) (Proc.devRef .tc main_arg2) = m ((d.tc : Thread nD τ).loc main_arg2) :=
  ops_keep (launchContents m d) (by decide) (by decide) (by decide) (by decide) (by decide) (by decide) (by decide)

/-- No operation writes argument 3. -/
theorem kept_arg3 (m : (ℓ : Loc nD τ sig) → Buf (Elt Ideal) ℓ) (d : Dev nD) :
    after (ops (F := Ideal)) (launchContents m d) (Proc.devRef .tc main_arg3) = m ((d.tc : Thread nD τ).loc main_arg3) :=
  ops_keep (launchContents m d) (by decide) (by decide) (by decide) (by decide) (by decide) (by decide) (by decide)

/-- No operation writes argument 4. -/
theorem kept_arg4 (m : (ℓ : Loc nD τ sig) → Buf (Elt Ideal) ℓ) (d : Dev nD) :
    after (ops (F := Ideal)) (launchContents m d) (Proc.devRef .tc main_arg4) = m ((d.tc : Thread nD τ).loc main_arg4) :=
  ops_keep (launchContents m d) (by decide) (by decide) (by decide) (by decide) (by decide) (by decide) (by decide)

/-- No operation writes argument 5. -/
theorem kept_arg5 (m : (ℓ : Loc nD τ sig) → Buf (Elt Ideal) ℓ) (d : Dev nD) :
    after (ops (F := Ideal)) (launchContents m d) (Proc.devRef .tc main_arg5) = m ((d.tc : Thread nD τ).loc main_arg5) :=
  ops_keep (launchContents m d) (by decide) (by decide) (by decide) (by decide) (by decide) (by decide) (by decide)

/-- No operation writes argument 6. -/
theorem kept_arg6 (m : (ℓ : Loc nD τ sig) → Buf (Elt Ideal) ℓ) (d : Dev nD) :
    after (ops (F := Ideal)) (launchContents m d) (Proc.devRef .tc main_arg6) = m ((d.tc : Thread nD τ).loc main_arg6) :=
  ops_keep (launchContents m d) (by decide) (by decide) (by decide) (by decide) (by decide) (by decide) (by decide)

/-- No operation writes argument 7. -/
theorem kept_arg7 (m : (ℓ : Loc nD τ sig) → Buf (Elt Ideal) ℓ) (d : Dev nD) :
    after (ops (F := Ideal)) (launchContents m d) (Proc.devRef .tc main_arg7) = m ((d.tc : Thread nD τ).loc main_arg7) :=
  ops_keep (launchContents m d) (by decide) (by decide) (by decide) (by decide) (by decide) (by decide) (by decide)

/-- No operation writes argument 8. -/
theorem kept_arg8 (m : (ℓ : Loc nD τ sig) → Buf (Elt Ideal) ℓ) (d : Dev nD) :
    after (ops (F := Ideal)) (launchContents m d) (Proc.devRef .tc main_arg8) = m ((d.tc : Thread nD τ).loc main_arg8) :=
  ops_keep (launchContents m d) (by decide) (by decide) (by decide) (by decide) (by decide) (by decide) (by decide)

/-- No operation writes argument 9. -/
theorem kept_arg9 (m : (ℓ : Loc nD τ sig) → Buf (Elt Ideal) ℓ) (d : Dev nD) :
    after (ops (F := Ideal)) (launchContents m d) (Proc.devRef .tc main_arg9) = m ((d.tc : Thread nD τ).loc main_arg9) :=
  ops_keep (launchContents m d) (by decide) (by decide) (by decide) (by decide) (by decide) (by decide) (by decide)

/-- No operation writes argument 10. -/
theorem kept_arg10 (m : (ℓ : Loc nD τ sig) → Buf (Elt Ideal) ℓ) (d : Dev nD) :
    after (ops (F := Ideal)) (launchContents m d) (Proc.devRef .tc main_arg10) = m ((d.tc : Thread nD τ).loc main_arg10) :=
  ops_keep (launchContents m d) (by decide) (by decide) (by decide) (by decide) (by decide) (by decide) (by decide)

/-- No operation writes argument 11. -/
theorem kept_arg11 (m : (ℓ : Loc nD τ sig) → Buf (Elt Ideal) ℓ) (d : Dev nD) :
    after (ops (F := Ideal)) (launchContents m d) (Proc.devRef .tc main_arg11) = m ((d.tc : Thread nD τ).loc main_arg11) :=
  ops_keep (launchContents m d) (by decide) (by decide) (by decide) (by decide) (by decide) (by decide) (by decide)

end Cert.ReferenceIdeal.HandRun

end
-- ==== Proof.HostReadR.lean ====
/-
  The host-side layers of the plain program, read as mathematics.

  The dense layer is a matrix product plus a bias repeated along the rows.  The normalising layer keeps its statistics
  as arrays with unit axes around the group axis and spreads them over the grouped batch; read at an entry (p, q), with
  j = q / 128 the entry's group, every spread statistic is the statistic of group j, and the entry of the grouped batch
  at (p, j, q mod 128) is the batch's entry (p, q).  The rectifier keeps an entry that is at least zero and multiplies
  the others by the one slope.
-/
import proofs.«123252_j59356448030849_1_alg».proof.Proof.HostReadK

set_option maxRecDepth 16384

noncomputable section

namespace Cert.HostRead

open Idealize.ShloMosaic Idealize.ShloMosaic.ValueIdx Cert.HostTerms Cert.Lcn

/-! ## General readings -/

/-- A vector placed on the middle axis between two unit axes reads its entry at the middle coordinate. -/
theorem bcast_b_1b1_apply {α : Type} {B : ℕ} (v : (⟨1, ![B]⟩ : Shape).Idx → α)
    (h : (⟨1, ![B]⟩ : Shape).BroadcastsInDim ⟨3, ![1, B, 1]⟩ ![1]) (u : Fin 1) (j : Fin B) (w : Fin 1) :
    broadcastInDim ⟨3, ![1, B, 1]⟩ ![1] h v (ix3 u j w) = v (ix1 j) := by
  have hj := j.isLt
  exact broadcastInDim_apply ![1] h v (ix3 u j w) (ix1 j) (fun a => by
    match a with
    | ⟨0, _⟩ => show j.val = if B = 1 then 0 else j.val; split <;> omega)

/-- An array with unit axes around its middle axis, spread over a full array, reads at the middle coordinate. -/
theorem bcast_1b1_abc_apply {α : Type} {A B C : ℕ} (x : (⟨3, ![1, B, 1]⟩ : Shape).Idx → α)
    (h : (⟨3, ![1, B, 1]⟩ : Shape).BroadcastsInDim ⟨3, ![A, B, C]⟩ ![0, 1, 2]) (p : Fin A) (j : Fin B) (c : Fin C) :
    broadcastInDim ⟨3, ![A, B, C]⟩ ![0, 1, 2] h x (ix3 p j c) = x (ix3 (0 : Fin 1) j (0 : Fin 1)) := by
  have hj := j.isLt
  exact broadcastInDim_apply ![0, 1, 2] h x (ix3 p j c) (ix3 (0 : Fin 1) j (0 : Fin 1)) (fun a => by
    match a with
    | ⟨0, _⟩ => show (0 : ℕ) = if (1 : ℕ) = 1 then 0 else p.val; simp
    | ⟨1, _⟩ => show j.val = if B = 1 then 0 else j.val; split <;> omega
    | ⟨2, _⟩ => show (0 : ℕ) = if (1 : ℕ) = 1 then 0 else c.val; simp)

/-- A column vector placed behind a new leading unit axis reads its entry at the middle coordinate. -/
theorem bcast_b1_1b1_apply {α : Type} {B : ℕ} (x : (⟨2, ![B, 1]⟩ : Shape).Idx → α)
    (h : (⟨2, ![B, 1]⟩ : Shape).BroadcastsInDim ⟨3, ![1, B, 1]⟩ ![1, 2]) (u : Fin 1) (j : Fin B) (w : Fin 1) :
    broadcastInDim ⟨3, ![1, B, 1]⟩ ![1, 2] h x (ix3 u j w) = x (ix2 j (0 : Fin 1)) := by
  have hj := j.isLt
  exact broadcastInDim_apply ![1, 2] h x (ix3 u j w) (ix2 j (0 : Fin 1)) (fun a => by
    match a with
    | ⟨0, _⟩ => show j.val = if B = 1 then 0 else j.val; split <;> omega
    | ⟨1, _⟩ => show (0 : ℕ) = if (1 : ℕ) = 1 then 0 else w.val; simp)

/-- The grouped batch back in the batch's shape reads, at (p, q), its entry (p, q / 128, q mod 128). -/
theorem ungroup_apply {α : Type} (x : (⟨3, ![8192, 17, 128]⟩ : Shape).Idx → α)
    (h : (⟨3, ![8192, 17, 128]⟩ : Shape).ShapeCasts ⟨2, ![8192, 2176]⟩) (p : Fin 8192) (q : Fin 2176) :
    shapeCast ⟨2, ![8192, 2176]⟩ x h (ix2 p q)
      = x (ix3 p (jointOf q) (⟨q.val % 128, Nat.mod_lt _ (by norm_num)⟩ : Fin 128)) :=
  shapeCast_apply x h _ _ (by
    have hq := q.isLt
    rw [Shape.rowMajor_val_three, Shape.rowMajor_val_two]
    show (p.val * 17 + q.val / 128) * 128 + q.val % 128 = p.val * 2176 + q.val
    omega)

/-- The batch with its columns grouped reads, at (p, j, c), the batch's entry (p, j · 128 + c). -/
theorem group_apply {α : Type} (x : (⟨2, ![8192, 2176]⟩ : Shape).Idx → α)
    (h : (⟨2, ![8192, 2176]⟩ : Shape).ShapeCasts ⟨3, ![8192, 17, 128]⟩) (p : Fin 8192) (j : Fin 17) (c : Fin 128)
    (q : Fin 2176) (hq : q.val = j.val * 128 + c.val) :
    shapeCast ⟨3, ![8192, 17, 128]⟩ x h (ix3 p j c) = x (ix2 p q) :=
  shapeCast_apply x h _ _ (by
    rw [Shape.rowMajor_val_three, Shape.rowMajor_val_two]
    show p.val * 2176 + q.val = (p.val * 17 + j.val) * 128 + c.val
    omega)

/-- A one-entry vector as a bare number is its entry. -/
theorem scalar_apply {α : Type} (a : (⟨1, ![1]⟩ : Shape).Idx → α) (h : (⟨1, ![1]⟩ : Shape).ShapeCasts ⟨0, ![]⟩) :
    shapeCast ⟨0, ![]⟩ a h ix0 = a (ix1 (0 : Fin 1)) :=
  shapeCast_apply a h _ _ (by
    have h0 := ((⟨0, ![]⟩ : Shape).rowMajor ix0).isLt
    rw [Shape.rowMajor_val_one]
    show (0 : ℕ) = _
    have h1 : (⟨0, ![]⟩ : Shape).numel = 1 := rfl
    omega)

/-- The rectifier as a comparison and a choice. -/
theorem select_prelu (a z : EReal) : Scalar.select (Ideal.cmp .oge z 0) z (a * z) = prelu a z := by
  unfold prelu Scalar.select Ideal.cmp
  by_cases h : (0 : EReal) ≤ z <;> simp [h]

/-! ## The plain program -/
namespace R

open Cert.ReferenceIdeal Cert.ReferenceIdeal.Facts₀ Cert.ReferenceIdeal.Facts

variable [Cert.ReferenceIdeal.Facts]

/-- The dense layer. -/
theorem dense_eq (X : FVec Ideal S8192x2176 .f32) (WT : FVec Ideal S2176x2176 .f32) (b : FVec Ideal S2176 .f32) :
    R.dense X WT b = denseVec X WT b := by
  funext i
  obtain ⟨e, q, rfl⟩ : ∃ (e : Fin 8192) (q : Fin 2176), i = ix2 e q := ⟨i 0, i 1, eq_ix2 i⟩
  exact HostLayer.layer_apply dot_S8192x2176_S2176x2176_S8192x2176_1_0_0_1_n_n_wf X WT b bcast_S2176_S1x2176_1
    bcast_S1x2176_S8192x2176_0_1 e q

/-- The grouped view is the grouped view. -/
theorem stat3_eq (Y : FVec Ideal S8192x2176 .f32) : R.stat3 Y = view3 Y := rfl

/-- A sum over rows and group columns from zero is the group sum. -/
theorem sum_eq (Z : FVec Ideal S8192x17x128 .f32) :
    Host.reduceAdd Z R.zero reducesTo_S8192x17x128_S17_d0_2 h_S_ = jsum Z := by
  show Ideal.hostReduceAdd reducesTo_S8192x17x128_S17_d0_2 Z (Ideal.ofBits .f32 0x00000000#32) = Ideal.hostReduceAdd hred Z 0
  rw [Ideal.ofBits_zero_f32]

/-- The count, broadcast, is the count. -/
theorem count_apply (j : S1x17x1.Idx) : broadcastInDim S1x17x1 ![] bcast_S_S1x17x1 R.count j = cnt :=
  bcast0_apply _ _ _ j

/-- The offset, broadcast, is the offset. -/
theorem offset_apply (j : S1x17x1.Idx) : broadcastInDim S1x17x1 ![] bcast_S_S1x17x1 R.offset j = epsv :=
  bcast0_apply _ _ _ j

/-- A spread statistic reads at its group. -/
theorem spread_apply (v : FVec Ideal S1x17x1 .f32) (p : Fin 8192) (j : Fin 17) (c : Fin 128) :
    R.spread v (ix3 p j c) = v (ix3 (0 : Fin 1) j (0 : Fin 1)) :=
  bcast_1b1_abc_apply v _ p j c

theorem mean_apply (Y : FVec Ideal S8192x2176 .f32) (u : Fin 1) (j : Fin 17) (w : Fin 1) :
    R.mean Y (ix3 u j w) = mean Y (ix1 j) := by
  show Ideal.div (broadcastInDim S1x17x1 ![1] bcast_S17_S1x17x1_1
        (Host.reduceAdd (R.stat3 Y) R.zero reducesTo_S8192x17x128_S17_d0_2 h_S_) (ix3 u j w))
      (broadcastInDim S1x17x1 ![] bcast_S_S1x17x1 R.count (ix3 u j w)) = Ideal.div (jsum (view3 Y) (ix1 j)) cnt
  rw [bcast_b_1b1_apply, sum_eq, count_apply, stat3_eq]

theorem dev_eq (Y : FVec Ideal S8192x2176 .f32) : R.dev Y = dev Y := by
  funext i
  obtain ⟨p, j, c, rfl⟩ : ∃ (p : Fin 8192) (j : Fin 17) (c : Fin 128), i = ix3 p j c := ⟨i 0, i 1, i 2, eq_ix3 i⟩
  show R.stat3 Y (ix3 p j c) - R.spread (R.mean Y) (ix3 p j c) = view3 Y (ix3 p j c) - mean Y (ix1 j)
  rw [spread_apply, mean_apply, stat3_eq]

theorem var_apply (Y : FVec Ideal S8192x2176 .f32) (u : Fin 1) (j : Fin 17) (w : Fin 1) :
    R.var Y (ix3 u j w) = var Y (ix1 j) := by
  show Ideal.div (broadcastInDim S1x17x1 ![1] bcast_S17_S1x17x1_1
        (Host.reduceAdd (mulf (R.dev Y) (R.dev Y)) R.zero reducesTo_S8192x17x128_S17_d0_2 h_S_) (ix3 u j w))
      (broadcastInDim S1x17x1 ![] bcast_S_S1x17x1 R.count (ix3 u j w))
    = Ideal.div (jsum (fun i => dev Y i * dev Y i) (ix1 j)) cnt
  rw [bcast_b_1b1_apply, sum_eq, count_apply, dev_eq]
  rfl

theorem sd_apply (Y : FVec Ideal S8192x2176 .f32) (u : Fin 1) (j : Fin 17) (w : Fin 1) :
    R.sd Y (ix3 u j w) = sd Y (ix1 j) := by
  show Ideal.sqrt (R.var Y (ix3 u j w) + broadcastInDim S1x17x1 ![] bcast_S_S1x17x1 R.offset (ix3 u j w))
    = Ideal.sqrt (var Y (ix1 j) + epsv)
  rw [offset_apply, var_apply]

/-- A per-group parameter spread over the grouped batch reads at its group. -/
theorem param_apply (v : FVec Ideal S17 .f32) (p : Fin 8192) (j : Fin 17) (c : Fin 128) :
    R.param v (ix3 p j c) = v (ix1 j) := by
  unfold R.param
  rw [spread_apply, bcast_b1_1b1_apply, bcast_a_ab_apply]

/-- The normalised batch, entry by entry. -/
theorem norm_apply (Y : FVec Ideal S8192x2176 .f32) (g β : FVec Ideal S17 .f32) (p : Fin 8192) (q : Fin 2176) :
    R.norm Y g β (ix2 p q) = bnRef Y g β (ix2 p q) := by
  have hq := q.isLt
  unfold R.norm
  rw [ungroup_apply]
  show Ideal.div (R.dev Y (ix3 p (jointOf q) ⟨q.val % 128, _⟩)) (R.spread (R.sd Y) (ix3 p (jointOf q) ⟨q.val % 128, _⟩))
        * R.param g (ix3 p (jointOf q) ⟨q.val % 128, _⟩) + R.param β (ix3 p (jointOf q) ⟨q.val % 128, _⟩)
    = Ideal.div (Y (ix2 p q) - mean Y (ix1 (jointOf q))) (sd Y (ix1 (jointOf q))) * g (ix1 (jointOf q)) + β (ix1 (jointOf q))
  rw [dev_eq, spread_apply, sd_apply, param_apply, param_apply]
  show Ideal.div (view3 Y (ix3 p (jointOf q) ⟨q.val % 128, _⟩) - mean Y (ix1 (jointOf q))) _ * _ + _ = _
  rw [show view3 Y (ix3 p (jointOf q) (⟨q.val % 128, Nat.mod_lt _ (by norm_num)⟩ : Fin 128)) = Y (ix2 p q) from
    group_apply Y hview p (jointOf q) _ q (by show q.val = q.val / 128 * 128 + q.val % 128; omega)]

/-- The normalised, rectified layer. -/
theorem layer_eq (Y : FVec Ideal S8192x2176 .f32) (g β : FVec Ideal S17 .f32) (a : FVec Ideal S1 .f32) :
    R.layer Y g β a = layerR Y g β (a (ix1 (0 : Fin 1))) := by
  funext i
  obtain ⟨p, q, rfl⟩ : ∃ (p : Fin 8192) (q : Fin 2176), i = ix2 p q := ⟨i 0, i 1, eq_ix2 i⟩
  show Scalar.select
      (Ideal.cmp .oge (R.norm Y g β (ix2 p q)) (broadcastInDim S8192x2176 ![] bcast_S_S8192x2176 R.zero (ix2 p q)))
      (R.norm Y g β (ix2 p q))
      (broadcastInDim S8192x2176 ![] bcast_S_S8192x2176 (shapeCast S_ a shapeCasts_S1_S_) (ix2 p q) * R.norm Y g β (ix2 p q))
    = prelu (a (ix1 (0 : Fin 1))) (bnRef Y g β (ix2 p q))
  rw [bcast0_apply, bcast0_apply, scalar_apply, norm_apply]
  show Scalar.select (Ideal.cmp .oge (bnRef Y g β (ix2 p q)) (Ideal.ofBits .f32 0x00000000#32)) _ _ = _
  rw [Ideal.ofBits_zero_f32]
  exact select_prelu _ _

end R

end Cert.HostRead

end
-- ==== Proof.RefNet.lean ====
/-
  The plain program's result as the network of its argument arrays.

  Its dense layers are a product plus a broadcast bias, its normalised layers the entry-by-entry arrangement: reading each
  stage's composed operations as the function it computes gives the network as stated, with no condition on the arguments.
-/
import proofs.«123252_j59356448030849_1_alg».proof.Proof.HostReadR
import proofs.«123252_j59356448030849_1_alg».proof.Proof.Spec

noncomputable section

namespace Cert.ReferenceIdeal.NetValue

open Cert.ReferenceIdeal Cert.HostTerms Cert.Lcn
open Idealize.ShloMosaic Idealize.ShloMosaic.ValueIdx

variable [Cert.ReferenceIdeal.Facts]

/-- The two dense layers and the two normalised, rectified layers composed, plus the input, are the network. -/
theorem net_eq (X : FVec Ideal S8192x2176 .f32) (w1 : FVec Ideal S1294336 .f32) (b1 : FVec Ideal S2176 .f32)
    (g1 β1 : FVec Ideal S17 .f32) (w2 : FVec Ideal S1294336 .f32) (b2 : FVec Ideal S2176 .f32) (g2 β2 : FVec Ideal S17 .f32)
    (a : FVec Ideal S1 .f32) (rows cols : IVec S1294336 32) :
    addf X (R.layer (R.dense (R.layer (R.dense X (R.weights rows cols w1) b1) g1 β1 a) (R.weights rows cols w2) b2) g2 β2 a)
      = net X (fun i => R.weights rows cols w1 i) b1 g1 β1 (fun i => R.weights rows cols w2 i) b2 g2 β2 (a (ix1 (0 : Fin 1))) := by
  rw [Cert.HostRead.R.dense_eq, Cert.HostRead.R.layer_eq, Cert.HostRead.R.dense_eq, Cert.HostRead.R.layer_eq]
  rfl

end Cert.ReferenceIdeal.NetValue

end
-- ==== Proof.lean ====
/-
  The two programs compute the same network on the extended reals.

  Both take a batch x of 8192 rows of 2176 = 17 · 128 numbers twice through: sparse weights written into a dense
  2176 × 2176 matrix, a dense layer  y = x · Wᵀ + b , a normalisation of y per group of 128 columns by the group's mean
  and variance over the whole batch, and the parametric rectifier; the result is x plus the second layer.

  One program writes each weight at (column index, row index) and multiplies by that matrix; the other writes it at
  (row index, column index) and multiplies by the transpose.  The writes are a fold over the same list of updates in the
  same order, each landing on mirror-image entries and dropped on the same out-of-range indices, so the two matrices are
  transposes of each other whatever the index arrays hold.  One program normalises entry by entry,
  ((y - mu) / s) * g + beta ; the other folds the statistics into a scale  g / s  and a shift  beta - mu * (g / s)  per
  group and applies  y * scale + shift  in a pass over row blocks.  These agree by distributivity, which on the extended
  reals needs every quantity finite and  s ≠ 0 : finite because the arguments are (the precondition) and sums of products
  of reals are reals; s > 0 because a mean of squares of reals is nonnegative and the offset under the root is positive.
  Dense layers are the same sums in another grouping; changes of float format are the identity on extended reals.
-/
import proofs.«123252_j59356448030849_1_alg».proof.Defs
import proofs.«123252_j59356448030849_1_alg».proof.Proof.Gen.Kernel
import proofs.«123252_j59356448030849_1_alg».proof.Proof.Gen.Kernel.Frame
import proofs.«123252_j59356448030849_1_alg».proof.Proof.Gen.KernelIdeal
import proofs.«123252_j59356448030849_1_alg».proof.Proof.Gen.KernelIdeal.Frame
import proofs.«123252_j59356448030849_1_alg».proof.Proof.Gen.ReferenceIdeal
import proofs.«123252_j59356448030849_1_alg».proof.Proof.Gen.Pre_finite_inputs
import proofs.«123252_j59356448030849_1_alg».proof.Proof.PreFinite
import proofs.«123252_j59356448030849_1_alg».proof.Proof.KernelRun
import proofs.«123252_j59356448030849_1_alg».proof.Proof.KernelValue
import proofs.«123252_j59356448030849_1_alg».proof.Proof.RefRun
import proofs.«123252_j59356448030849_1_alg».proof.Proof.RefValue
import proofs.«123252_j59356448030849_1_alg».proof.Proof.RefNet
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The plain program runs and leaves its arguments as launched: none of its operations writes one. -/
theorem frame_reference_ideal : Cert.frame_ReferenceIdeal := fun m ρ _ =>
  (θ_run Cert.ReferenceIdeal.defs _ _).mono (fun r h c =>
    ⟨(h c Cert.ReferenceIdeal.main_arg0).trans (Cert.ReferenceIdeal.HandRun.kept_arg0 m c),
     (h c Cert.ReferenceIdeal.main_arg1).trans (Cert.ReferenceIdeal.HandRun.kept_arg1 m c),
     (h c Cert.ReferenceIdeal.main_arg2).trans (Cert.ReferenceIdeal.HandRun.kept_arg2 m c),
     (h c Cert.ReferenceIdeal.main_arg3).trans (Cert.ReferenceIdeal.HandRun.kept_arg3 m c),
     (h c Cert.ReferenceIdeal.main_arg4).trans (Cert.ReferenceIdeal.HandRun.kept_arg4 m c),
     (h c Cert.ReferenceIdeal.main_arg5).trans (Cert.ReferenceIdeal.HandRun.kept_arg5 m c),
     (h c Cert.ReferenceIdeal.main_arg6).trans (Cert.ReferenceIdeal.HandRun.kept_arg6 m c),
     (h c Cert.ReferenceIdeal.main_arg7).trans (Cert.ReferenceIdeal.HandRun.kept_arg7 m c),
     (h c Cert.ReferenceIdeal.main_arg8).trans (Cert.ReferenceIdeal.HandRun.kept_arg8 m c),
     (h c Cert.ReferenceIdeal.main_arg9).trans (Cert.ReferenceIdeal.HandRun.kept_arg9 m c),
     (h c Cert.ReferenceIdeal.main_arg10).trans (Cert.ReferenceIdeal.HandRun.kept_arg10 m c),
     (h c Cert.ReferenceIdeal.main_arg11).trans (Cert.ReferenceIdeal.HandRun.kept_arg11 m c)⟩)
    (Cert.ReferenceIdeal.HandRun.run_raw (F := Ideal) m ρ)

/-- The precondition makes every float argument a real array. -/
theorem real_args (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.NetValue.RealArgs m c := by
  obtain ⟨h0, h1, h2, h3, h4, h5, h6, h7, h8, h9⟩ := Cert.PreFinite.of_pre _ _ _ _ _ _ _ _ _ _ _ _ (hpre c)
  exact ⟨h0, h1, h2, h3, h4, h5, h6, h7, h8, h9⟩

/-- From memories agreeing on the arguments both idealized programs end with the network of the arguments in their
    result arrays: the kernel program by following its four passes (using that the arguments are real), the plain
    program by reading its operations. -/
theorem algebraic : Cert.algebraic_KernelIdeal_ReferenceIdeal := by
  intro m ρ m' ρ' hpre hagree
  refine ⟨fun c => Cert.Lcn.net (m ((c.tc : Thread Cert.KernelIdeal.nD Cert.KernelIdeal.τ).loc Cert.KernelIdeal.main_arg0)) (Cert.KernelIdeal.NetValue.WT1 m c) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (Cert.KernelIdeal.NetValue.WT2 m c) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (Cert.KernelIdeal.NetValue.slope m c), ?_, ?_⟩
  · exact (θ_run Cert.KernelIdeal.defs _ _).mono
      (fun r h c => ⟨(h c).1.trans (Cert.KernelIdeal.NetValue.result m ρ c (real_args m hpre c)), (h c).2⟩)
      (Cert.KernelIdeal.RunValue.run_value m ρ)
  · refine (θ_run Cert.ReferenceIdeal.defs _ _).mono (fun r h c => ⟨?_,
      (h c Cert.ReferenceIdeal.main_arg0).trans (Cert.ReferenceIdeal.HandRun.kept_arg0 m' c),
      (h c Cert.ReferenceIdeal.main_arg1).trans (Cert.ReferenceIdeal.HandRun.kept_arg1 m' c),
      (h c Cert.ReferenceIdeal.main_arg2).trans (Cert.ReferenceIdeal.HandRun.kept_arg2 m' c),
      (h c Cert.ReferenceIdeal.main_arg3).trans (Cert.ReferenceIdeal.HandRun.kept_arg3 m' c),
      (h c Cert.ReferenceIdeal.main_arg4).trans (Cert.ReferenceIdeal.HandRun.kept_arg4 m' c),
      (h c Cert.ReferenceIdeal.main_arg5).trans (Cert.ReferenceIdeal.HandRun.kept_arg5 m' c),
      (h c Cert.ReferenceIdeal.main_arg6).trans (Cert.ReferenceIdeal.HandRun.kept_arg6 m' c),
      (h c Cert.ReferenceIdeal.main_arg7).trans (Cert.ReferenceIdeal.HandRun.kept_arg7 m' c),
      (h c Cert.ReferenceIdeal.main_arg8).trans (Cert.ReferenceIdeal.HandRun.kept_arg8 m' c),
      (h c Cert.ReferenceIdeal.main_arg9).trans (Cert.ReferenceIdeal.HandRun.kept_arg9 m' c),
      (h c Cert.ReferenceIdeal.main_arg10).trans (Cert.ReferenceIdeal.HandRun.kept_arg10 m' c),
      (h c Cert.ReferenceIdeal.main_arg11).trans (Cert.ReferenceIdeal.HandRun.kept_arg11 m' c)⟩)
      (Cert.ReferenceIdeal.HandRun.run_raw (F := Ideal) m' ρ')
    refine ((h c Cert.ReferenceIdeal.main_v108).trans (Cert.ReferenceIdeal.HandRun.result m' c)).trans ?_
    rw [Cert.ReferenceIdeal.NetValue.net_eq]
    obtain ⟨e0, e1, e2, e3, e4, e5, e6, e7, e8, e9, e10, e11⟩ := hagree c
    rw [e0, e1, e2, e3, e4, e5, e6, e7, e8, e9, e10, e11]
    rfl

/-- Everything the certificate claims. -/
theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
